-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x6 : Shape := ⟨2, ![4096, 6]⟩
abbrev S4096x8192 : Shape := ⟨2, ![4096, 8192]⟩
abbrev S256x8192 : Shape := ⟨2, ![256, 8192]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x8192 : S_.BroadcastsInDim S4096x8192 (![] : Fin 0 → Fin S4096x8192.rank)
  reducesTo_S4096x8192_S_d0_1 : S4096x8192.ReducesTo [0, 1] S_
  bcast_S_S256x8192 : S_.BroadcastsInDim S256x8192 (![] : Fin 0 → Fin S256x8192.rank)
  reducesTo_S256x8192_S_d0_1 : S256x8192.ReducesTo [0, 1] S_

variable [Facts]

def fn_part1 {F : FTy → Type} [FloatOps F] (main_v13 : IVec S_ 1) (main_v16 : IVec S256x8192 1) : IVec S_ 1 :=
  let main_c_5 : IVec S_ 1 := constantI S_ 1 1#1
  let main_v17 : IVec S_ 1 := (fun x v => Host.reduce IntOp.andi x v reducesTo_S256x8192_S_d0_1 h_S_) main_v16 main_c_5
  let main_v18 : IVec S_ 1 := andi main_v13 main_v17
  main_v18

def fn {F : FTy → Type} [FloatOps F] (main_arg0 : FVec F S4096x4096 .f32) (main_arg1 : IVec S4096x6 32) (main_arg2 : FVec F S4096x4096 .f32) (main_arg3 : FVec F S4096x8192 .f32) (main_arg4 : FVec F S256x8192 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg2
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x8192 .f32 := Host.absf main_arg3
  let main_cst_2 : FVec F S_ .f32 := constant S_ .f32 0x7F800000#32
  let main_v10 : FVec F S4096x8192 .f32 := broadcastInDim S4096x8192 ![] bcast_S_S4096x8192 main_cst_2
  let main_v11 : IVec S4096x8192 1 := cmpf .olt main_v9 main_v10
  let main_c_3 : IVec S_ 1 := constantI S_ 1 1#1
  let main_v12 : IVec S_ 1 := (fun x v => Host.reduce IntOp.andi x v reducesTo_S4096x8192_S_d0_1 h_S_) main_v11 main_c_3
  let main_v13 : IVec S_ 1 := andi main_v8 main_v12
  let main_v14 : FVec F S256x8192 .f32 := Host.absf main_arg4
  let main_cst_4 : FVec F S_ .f32 := constant S_ .f32 0x7F800000#32
  let main_v15 : FVec F S256x8192 .f32 := broadcastInDim S256x8192 ![] bcast_S_S256x8192 main_cst_4
  let main_v16 : IVec S256x8192 1 := cmpf .olt main_v14 main_v15
  fn_part1 (F := F) main_v13 main_v16
-- ==== Kernel.lean ====
abbrev S4096x4096 : Shape := ⟨2, ![4096, 4096]⟩
abbrev S4096x6 : Shape := ⟨2, ![4096, 6]⟩
abbrev S4096x8192 : Shape := ⟨2, ![4096, 8192]⟩
abbrev S256x8192 : Shape := ⟨2, ![256, 8192]⟩
abbrev S_ : Shape := ⟨0, ![]⟩
abbrev S4096x6x1 : Shape := ⟨3, ![4096, 6, 1]⟩
abbrev S4096x6x4096 : Shape := ⟨3, ![4096, 6, 4096]⟩
abbrev S256x4096 : Shape := ⟨2, ![256, 4096]⟩
abbrev S2048x512 : Shape := ⟨2, ![2048, 512]⟩
abbrev S1024x512 : Shape := ⟨2, ![1024, 512]⟩
abbrev S2048x1024 : Shape := ⟨2, ![2048, 1024]⟩
abbrev S4096x256 : Shape := ⟨2, ![4096, 256]⟩
abbrev S1024x1024 : Shape := ⟨2, ![1024, 1024]⟩
abbrev S256x1024 : Shape := ⟨2, ![256, 1024]⟩
abbrev S1024x256 : Shape := ⟨2, ![1024, 256]⟩

abbrev nBuf : Space → Nat
  | .hbm => 33
  | .vmem => 22
  | .smem => 0
  | _ => 0

abbrev bufTy : (tb : Table) → Fin (tcTables nBuf tb) → BufTy
  | .hbm, ⟨0, _⟩ => ⟨S4096x4096, .f32⟩
  | .hbm, ⟨1, _⟩ => ⟨S4096x6, .i32⟩
  | .hbm, ⟨2, _⟩ => ⟨S4096x4096, .f32⟩
  | .hbm, ⟨3, _⟩ => ⟨S4096x8192, .f32⟩
  | .hbm, ⟨4, _⟩ => ⟨S256x8192, .f32⟩
  | .hbm, ⟨5, _⟩ => ⟨S4096x4096, .bf16⟩
  | .hbm, ⟨6, _⟩ => ⟨S_, .i32⟩
  | .hbm, ⟨7, _⟩ => ⟨S4096x6, .i32⟩
  | .hbm, ⟨8, _⟩ => ⟨S4096x6, .i1⟩
  | .hbm, ⟨9, _⟩ => ⟨S_, .i32⟩
  | .hbm, ⟨10, _⟩ => ⟨S4096x6, .i32⟩
  | .hbm, ⟨11, _⟩ => ⟨S4096x6, .i32⟩
  | .hbm, ⟨12, _⟩ => ⟨S4096x6, .i32⟩
  | .hbm, ⟨13, _⟩ => ⟨S4096x6x1, .i32⟩
  | .hbm, ⟨14, _⟩ => ⟨S4096x6x4096, .bf16⟩
  | .hbm, ⟨15, _⟩ => ⟨S4096x6x4096, .f32⟩
  | .hbm, ⟨16, _⟩ => ⟨S_, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .bf16⟩
  | .hbm, ⟨22, _⟩ => ⟨S4096x4096, .bf16⟩
  | .hbm, ⟨23, _⟩ => ⟨S4096x4096, .f32⟩
  | .hbm, ⟨24, _⟩ => ⟨S4096x4096, .bf16⟩
  | .hbm, ⟨25, _⟩ => ⟨S4096x4096, .f32⟩
  | .hbm, ⟨26, _⟩ => ⟨S4096x4096, .bf16⟩
  | .hbm, ⟨27, _⟩ => ⟨S256x4096, .f32⟩
  | .hbm, ⟨28, _⟩ => ⟨S256x4096, .bf16⟩
  | .hbm, ⟨29, _⟩ => ⟨S256x4096, .f32⟩
  | .hbm, ⟨30, _⟩ => ⟨S256x4096, .bf16⟩
  | .hbm, ⟨31, _⟩ => ⟨S4096x4096, .bf16⟩
  | .hbm, ⟨32, _⟩ => ⟨S4096x256, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S2048x1024, .bf16⟩
  | .local _ .vmem, ⟨9, _⟩ => ⟨S2048x1024, .bf16⟩
  | .local _ .vmem, ⟨10, _⟩ => ⟨S2048x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S1024x256, .f32⟩
  | .local _ .vmem, ⟨20, _⟩ => ⟨S1024x256, .f32⟩
  | .local _ .vmem, ⟨21, _⟩ => ⟨S1024x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨3, ![2, 4, 8], ![false, false, false]⟩

def k0_cond2 (i : grid0.Coords) : BitVec 1 :=
  let arg2 : BitVec 32 := BitVec.ofNat 32 (i 2).val
  let c7_i32 : BitVec 32 := 7#32
  let v23 : BitVec 1 := Scalar.cmpi .eq arg2 c7_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev grid1 : Pipeline.Grid := ⟨3, ![4, 1, 4], ![false, false, false]⟩

def k1_cond2 (i : grid1.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_17 : BitVec 32 := 0#32
  let v25 : BitVec 1 := Scalar.cmpi .ne v24 c0_i32_17
  v25

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S256x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, true]

abbrev stage1_4 : Fin 2 → Memref sig .tc .vmem S1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  bitsLt_bf16_f32 : FTy.bits .bf16 < FTy.bits .f32
  bcast_S_S4096x6 : S_.BroadcastsInDim S4096x6 (![] : Fin 0 → Fin S4096x6.rank)
  bcast_S4096x6_S4096x6x1_0_1 : S4096x6.BroadcastsInDim S4096x6x1 (![0, 1] : Fin 2 → Fin S4096x6x1.rank)
  reducesTo_S4096x6x4096_S4096x4096_d1 : S4096x6x4096.ReducesTo [1] S4096x4096
  h_S_ : 0 < S_.numel
  bcast_S_S4096x4096 : S_.BroadcastsInDim S4096x4096 (![] : Fin 0 → Fin S4096x4096.rank)
  slices_S4096x8192_S4096x4096_0_0 : S4096x8192.Slices ![0, 0] S4096x4096
  slices_S4096x8192_S4096x4096_0_4096 : S4096x8192.Slices ![0, 4096] S4096x4096
  slices_S256x8192_S256x4096_0_0 : S256x8192.Slices ![0, 0] S256x4096
  slices_S256x8192_S256x4096_0_4096 : S256x8192.Slices ![0, 4096] S256x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  packedbf16_S2048x1024_S2048x1024_0_0 : (Rect.unit (s := S2048x1024) ![0, 0] S2048x1024.size inb_S2048x1024_S2048x1024_0_0).PackedRows (EltTy.packing .bf16)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  gather_S4096x4096_S4096x6x1_S4096x6x4096_2_0_n_n_0_2_14096_wf : GatherDims.WF S4096x4096 S4096x6x1 S4096x6x4096 [2] [0] [] [0] [] 2 ![1, 4096]
  dot_S2048x512_S1024x512_S2048x1024_1_1_0_0_n_n_wf : DotDims.WF S2048x512 S1024x512 S2048x1024 [1] [1] [0] [0] [] []
  dot_S1024x1024_S256x1024_S1024x256_1_1_0_0_n_n_wf : DotDims.WF S1024x1024 S256x1024 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x4096.size a
  hwx0_0 : ∀ i : grid0.Coords, EltTy.bits .bf16 = 32 ∨ (Rect.block (s := S4096x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x4096.size a
  hwx0_1 : ∀ i : grid0.Coords, EltTy.bits .bf16 = 32 ∨ (Rect.block (s := S4096x4096) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x4096.size a
  hwx0_2 : ∀ i : grid0.Coords, EltTy.bits .bf16 = 32 ∨ (Rect.block (s := S4096x4096) S1024x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x4096.size a
  hwx0_3 : ∀ i : grid0.Coords, EltTy.bits .bf16 = 32 ∨ (Rect.block (s := S4096x4096) S1024x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S4096x4096.size a
  hwx0_4 : ∀ i : grid0.Coords, EltTy.bits .bf16 = 32 ∨ (Rect.block (s := S4096x4096) S2048x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .bf16 = 32 ∨ (Rect.block (s := S4096x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S256x4096.size a
  hwx1_2 : ∀ i : grid1.Coords, EltTy.bits .bf16 = 32 ∨ (Rect.block (s := S256x4096) S256x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S256x4096.size a
  hwx1_3 : ∀ i : grid1.Coords, EltTy.bits .bf16 = 32 ∨ (Rect.block (s := S256x4096) S256x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x256.size a ≤ S4096x256.size a
  hwx1_4 : ∀ i : grid1.Coords, EltTy.bits .f32 = 32 ∨ (Rect.block (s := S4096x256) S1024x256.size (cc1_transform_4 i) (hinb1_4 i)).WholeWords (EltTy.packing .f32)

variable [Facts₀]

def gather_S4096x4096_S4096x6x1_S4096x6x4096_2_0_n_n_0_2_14096 : GatherDims S4096x4096 S4096x6x1 S4096x6x4096 where
  offsetDims := [2]
  collapsedSliceDims := [0]
  operandBatchingDims := []
  startIndicesBatchingDims := []
  startIndexMap := [0]
  indexVectorDim := 2
  sliceSizes := ![1, 4096]
  wf := gather_S4096x4096_S4096x6x1_S4096x6x4096_2_0_n_n_0_2_14096_wf
def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf
def dot_S1024x1024_S256x1024_S1024x256_1_1_0_0_n_n : DotDims S1024x1024 S256x1024 S1024x256 where
  lhsContracting := [1]
  rhsContracting := [1]
  lhsNonContracting := [0]
  rhsNonContracting := [0]
  lhsBatch := []
  rhsBatch := []
  wf := dot_S1024x1024_S256x1024_S1024x256_1_1_0_0_n_n_wf

abbrev win0_0 : Pipeline.Window sig grid0 :=
  Pipeline.Window.ofSpec (Memref.whole main_v13) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v22) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v22) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S256x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S256x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1024x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x6 : Shape := ⟨2, ![4096, 6]⟩
abbrev S4096x8192 : Shape := ⟨2, ![4096, 8192]⟩
abbrev S256x8192 : Shape := ⟨2, ![256, 8192]⟩
abbrev S_ : Shape := ⟨0, ![]⟩
abbrev S4096x6x1 : Shape := ⟨3, ![4096, 6, 1]⟩
abbrev S4096x6x4096 : Shape := ⟨3, ![4096, 6, 4096]⟩
abbrev S8192x4096 : Shape := ⟨2, ![8192, 4096]⟩
abbrev S8192x256 : Shape := ⟨2, ![8192, 256]⟩
abbrev S4096x256 : Shape := ⟨2, ![4096, 256]⟩

abbrev nBuf : Space → Nat
  | .hbm => 31
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x6, .i32⟩
  | .hbm, ⟨2, _⟩ => ⟨S4096x4096, .f32⟩
  | .hbm, ⟨3, _⟩ => ⟨S4096x8192, .f32⟩
  | .hbm, ⟨4, _⟩ => ⟨S256x8192, .f32⟩
  | .hbm, ⟨5, _⟩ => ⟨S_, .i32⟩
  | .hbm, ⟨6, _⟩ => ⟨S4096x6, .i32⟩
  | .hbm, ⟨7, _⟩ => ⟨S4096x6, .i1⟩
  | .hbm, ⟨8, _⟩ => ⟨S_, .i32⟩
  | .hbm, ⟨9, _⟩ => ⟨S4096x6, .i32⟩
  | .hbm, ⟨10, _⟩ => ⟨S4096x6, .i32⟩
  | .hbm, ⟨11, _⟩ => ⟨S4096x6, .i32⟩
  | .hbm, ⟨12, _⟩ => ⟨S4096x6x1, .i32⟩
  | .hbm, ⟨13, _⟩ => ⟨S4096x6x4096, .f32⟩
  | .hbm, ⟨14, _⟩ => ⟨S_, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x8192, .f32⟩
  | .hbm, ⟨20, _⟩ => ⟨S8192x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x8192, .f32⟩
  | .hbm, ⟨26, _⟩ => ⟨S8192x256, .f32⟩
  | .hbm, ⟨27, _⟩ => ⟨S4096x256, .f32⟩
  | .hbm, ⟨28, _⟩ => ⟨S_, .f32⟩
  | .hbm, ⟨29, _⟩ => ⟨S4096x256, .f32⟩
  | .hbm, ⟨30, _⟩ => ⟨S4096x256, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_cst : Ref sig .tc := ⟨.hbm, 22, rfl⟩
abbrev main_call0_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call1_cst : Ref sig .tc := ⟨.hbm, 28, rfl⟩
abbrev main_call1_v0 : Ref sig .tc := ⟨.hbm, 29, rfl⟩
abbrev main_v17 : Ref sig .tc := ⟨.hbm, 30, rfl⟩

abbrev nD : Nat := 1
abbrev τ : Topo := Topo.v7x

variable {F : FTy → Type} [FloatOps F]

class Facts₀ : Prop where
  bcast_S_S4096x6 : S_.BroadcastsInDim S4096x6 (![] : Fin 0 → Fin S4096x6.rank)
  bcast_S4096x6_S4096x6x1_0_1 : S4096x6.BroadcastsInDim S4096x6x1 (![0, 1] : Fin 2 → Fin S4096x6x1.rank)
  reducesTo_S4096x6x4096_S4096x4096_d1 : S4096x6x4096.ReducesTo [1] S4096x4096
  h_S_ : 0 < S_.numel
  bcast_S_S4096x4096 : S_.BroadcastsInDim S4096x4096 (![] : Fin 0 → Fin S4096x4096.rank)
  concatenates_S4096x4096_S4096x4096_S4096x8192_d1 : Shape.Concatenates [S4096x4096, S4096x4096] S4096x8192 1
  transposes_S4096x8192_S8192x4096_1_0 : S4096x8192.Transposes [1, 0] S8192x4096
  transposes_S256x8192_S8192x256_1_0 : S256x8192.Transposes [1, 0] S8192x256
  bcast_S_S4096x256 : S_.BroadcastsInDim S4096x256 (![] : Fin 0 → Fin S4096x256.rank)
  gather_S4096x4096_S4096x6x1_S4096x6x4096_2_0_n_n_0_2_14096_wf : GatherDims.WF S4096x4096 S4096x6x1 S4096x6x4096 [2] [0] [] [0] [] 2 ![1, 4096]
  dot_S4096x8192_S8192x4096_S4096x4096_1_0_0_1_n_n_wf : DotDims.WF S4096x8192 S8192x4096 S4096x4096 [1] [0] [0] [1] [] []
  dot_S4096x8192_S8192x256_S4096x256_1_0_0_1_n_n_wf : DotDims.WF S4096x8192 S8192x256 S4096x256 [1] [0] [0] [1] [] []

variable [Facts₀]

def gather_S4096x4096_S4096x6x1_S4096x6x4096_2_0_n_n_0_2_14096 : GatherDims S4096x4096 S4096x6x1 S4096x6x4096 where
  offsetDims := [2]
  collapsedSliceDims := [0]
  operandBatchingDims := []
  startIndicesBatchingDims := []
  startIndexMap := [0]
  indexVectorDim := 2
  sliceSizes := ![1, 4096]
  wf := gather_S4096x4096_S4096x6x1_S4096x6x4096_2_0_n_n_0_2_14096_wf
def dot_S4096x8192_S8192x4096_S4096x4096_1_0_0_1_n_n : DotDims S4096x8192 S8192x4096 S4096x4096 where
  lhsContracting := [1]
  rhsContracting := [0]
  lhsNonContracting := [0]
  rhsNonContracting := [1]
  lhsBatch := []
  rhsBatch := []
  wf := dot_S4096x8192_S8192x4096_S4096x4096_1_0_0_1_n_n_wf
def dot_S4096x8192_S8192x256_S4096x256_1_0_0_1_n_n : DotDims S4096x8192 S8192x256 S4096x256 where
  lhsContracting := [1]
  rhsContracting := [0]
  lhsNonContracting := [0]
  rhsNonContracting := [1]
  lhsBatch := []
  rhsBatch := []
  wf := dot_S4096x8192_S8192x256_S4096x256_1_0_0_1_n_n_wf

class Facts : Prop extends Facts₀ where

variable [Facts]
-- ==== Proof.K.R0Base.lean ====
/-
  Region 0 (the first dual matmul, grid 2 x 4 x 8, the contraction axis innermost): what its three control
  cases share. A point t of the grid has k = t mod 8 as its position along the contraction axis; the body zeroes
  the accumulator when k = 0, adds the two partial products at every k, and stores relu of the accumulator into
  the output block when k = 7. The four input windows are read at their blocks of the arrays as the region finds
  them (a parameter V); the output window is idle except at k = 7.
-/
import proofs.«100784_j78125455114733_2_alg».proof.Proof.Gen.Kernel.Launch
import proofs.«100784_j78125455114733_2_alg».proof.Proof.Gen.Kernel.Skeleton
import proofs.«100784_j78125455114733_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is
    the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end Blocks

/-! ## The two branch conditions, in closed form over the grid -/

/-- The first branch (zero the accumulator) is taken where the contraction position is 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The second branch (store the output block) is taken where the contraction position is the last, 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last contraction position nothing is stored into the output block and it is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The memrefs the body is called with -/

abbrev VO0_4 : View sig .tc .vmem S2048x1024 .bf16 := (Memref.whole cc0_stg4_0 : Memref sig .tc .vmem S2048x1024 .bf16).view
abbrev ms0_0 (t : Fin cfg0.N) : Memref sig .tc .vmem S2048x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1024 .bf16 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0 : Memref sig .tc .vmem S2048x1024 .f32 := Memref.whole cc0_scratch0
abbrev VS0 : View sig .tc .vmem S2048x1024 .f32 := scM0.view

/-- The scoped buffers outside this region's staging set: the accumulator, and the rest unopened. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- The other scoped buffers (the second region's staging buffers and accumulator), unopened. -/
abbrev but0 (c : Dev nD) : sProp 𝕄 :=
  Pipeline.scopedRestBut (Ix := Unit) (Name := ℕ) (U := UR sig nD τ) (Lvl := ℕ) (Val := Elt F) spec0 c [cc0_scratch0]

/-- The class invariant with the accumulator as a memref owned at some contents. -/
theorem PhiA0_eq (c : Dev nD) :
    (Pipeline.ΦA spec0 c : sProp 𝕄)
      = iprop(iprop(iprop((∃ d, owns (c : Thread nD τ) scM0 fullShare d)) ∗ but0 c) ∗ (∃ r, prngReg c r)) := by
  unfold Pipeline.ΦA but0; rw [scopedRest0_split]; simp only [scM0, owns_whole]; try rfl

end Cert.Kernel.Reg

end
-- ==== Proof.K.R0RunA.lean ====
/-
  Region 0 (the first dual matmul, grid 2 x 4 x 8), the body run whole at a first position of the contraction axis: the accumulator is zeroed, then the two partial products are added; the output block is left untouched.
  The stores each buffer ends with are found by running the body symbolically; they are the witness.
-/
import proofs.«100784_j78125455114733_2_alg».proof.Proof.K.R0Base

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave (last first), with the proof that on whole memrefs holding the input
    blocks the body runs to a continuation that holds the inputs as they were and the written buffers with those pieces written. -/
noncomputable def kernelRun0_A (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S2048x1024 .bf16) (harg7 : arg7.IsWhole) (arg8 : Memref sig .tc .vmem S2048x1024 .f32) (harg8 : arg8.IsWhole) (hc0 : cond0_0 i) (hc1 : ¬cond0_1 i)
    (x0 : Vec F S2048x512 .bf16) (x1 : Vec F S2048x512 .bf16) (x2 : Vec F S1024x512 .bf16) (x3 : Vec F S1024x512 .bf16) :
    { LS0 : List (View.Piece (Elt F) S2048x1024 .f32) //
      ∀ (xi4 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__dual_matmul_relu_kernel i arg3 harg3 arg4 harg4 arg5 harg5 arg6 harg6 arg7 harg7 arg8 harg8) K } := by
  refine ⟨?_, fun xi4 E K => ?run⟩
  case run =>
    simp only [cc0__dual_matmul_relu_kernel_eq_skeleton]; unfold cc0__dual_matmul_relu_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Reg

end
-- ==== Proof.K.R0RunB.lean ====
/-
  Region 0 (the first dual matmul, grid 2 x 4 x 8), the body run whole at a a middle position of the contraction axis: the two partial products are added to what the point before left in the accumulator; the output block is left untouched.
  The stores each buffer ends with are found by running the body symbolically; they are the witness.
-/
import proofs.«100784_j78125455114733_2_alg».proof.Proof.K.R0Base

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave (last first), with the proof that on whole memrefs holding the input
    blocks the body runs to a continuation that holds the inputs as they were and the written buffers with those pieces written. -/
noncomputable def kernelRun0_B (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S2048x1024 .bf16) (harg7 : arg7.IsWhole) (arg8 : Memref sig .tc .vmem S2048x1024 .f32) (harg8 : arg8.IsWhole) (hc0 : ¬cond0_0 i) (hc1 : ¬cond0_1 i)
    (x0 : Vec F S2048x512 .bf16) (x1 : Vec F S2048x512 .bf16) (x2 : Vec F S1024x512 .bf16) (x3 : Vec F S1024x512 .bf16) (xs0 : Vec F S2048x1024 .f32) :
    { LS0 : List (View.Piece (Elt F) S2048x1024 .f32) //
      ∀ (xi4 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__dual_matmul_relu_kernel i arg3 harg3 arg4 harg4 arg5 harg5 arg6 harg6 arg7 harg7 arg8 harg8) K } := by
  refine ⟨?_, fun xi4 E K => ?run⟩
  case run =>
    simp only [cc0__dual_matmul_relu_kernel_eq_skeleton]; unfold cc0__dual_matmul_relu_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Reg

end
-- ==== Proof.K.R0RunC.lean ====
/-
  Region 0 (the first dual matmul, grid 2 x 4 x 8), the body run whole at a last position of the contraction axis: the two partial products are added to what the point before left in the accumulator, and the maximum of the accumulator and zero is stored into the output block.
  The stores each buffer ends with are found by running the body symbolically; they are the witness.
-/
import proofs.«100784_j78125455114733_2_alg».proof.Proof.K.R0Base

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave (last first), with the proof that on whole memrefs holding the input
    blocks the body runs to a continuation that holds the inputs as they were and the written buffers with those pieces written. -/
noncomputable def kernelRun0_C (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S2048x1024 .bf16) (harg7 : arg7.IsWhole) (arg8 : Memref sig .tc .vmem S2048x1024 .f32) (harg8 : arg8.IsWhole) (hc0 : ¬cond0_0 i) (hc1 : cond0_1 i)
    (x0 : Vec F S2048x512 .bf16) (x1 : Vec F S2048x512 .bf16) (x2 : Vec F S1024x512 .bf16) (x3 : Vec F S1024x512 .bf16) (xs0 : Vec F S2048x1024 .f32) :
    Σ' (L4 : List (View.Piece (Elt F) S2048x1024 .bf16)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc0__dual_matmul_relu_kernel i arg3 harg3 arg4 harg4 arg5 harg5 arg6 harg6 arg7 harg7 arg8 harg8) K } := by
  refine ⟨?_, ?_, fun E K => ?run⟩
  case run =>
    simp only [cc0__dual_matmul_relu_kernel_eq_skeleton]; unfold cc0__dual_matmul_relu_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Reg

end
-- ==== Proof.K.R0Dat.lean ====
/-
  Region 0 (the first dual matmul, grid 2 x 4 x 8): what the accumulator and the output block hold after each grid point, the proof data of
  the pipeline, and the body obligation. Along the contraction axis (k = t mod 8) the accumulator after point t is
  the case's stores read back: zero plus the two partial products at k = 0, the point before's contents plus the
  two partial products otherwise; the output block is written only at k = 7, with the maximum of the accumulator
  and zero. The invariant between points holds the accumulator at exactly those contents.
-/
import proofs.«100784_j78125455114733_2_alg».proof.Proof.K.R0RunA
import proofs.«100784_j78125455114733_2_alg».proof.Proof.K.R0RunB
import proofs.«100784_j78125455114733_2_alg».proof.Proof.K.R0RunC

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves -/

theorem scover0_A (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S2048x1024 .bf16) (harg7 : arg7.IsWhole) (arg8 : Memref sig .tc .vmem S2048x1024 .f32) (harg8 : arg8.IsWhole) (hc0 : cond0_0 i) (hc1 : ¬cond0_1 i)
    (x0 : Vec F S2048x512 .bf16) (x1 : Vec F S2048x512 .bf16) (x2 : Vec F S1024x512 .bf16) (x3 : Vec F S1024x512 .bf16) (y : S2048x1024.Idx) :
    ∃ pc ∈ (kernelRun0_A c i arg3 harg3 arg4 harg4 arg5 harg5 arg6 harg6 arg7 harg7 arg8 harg8 hc0 hc1 x0 x1 x2 x3).1, y ∈ pc.1.set :=
  View.cover_of_tiledL (kernelRun0_A c i arg3 harg3 arg4 harg4 arg5 harg5 arg6 harg6 arg7 harg7 arg8 harg8 hc0 hc1 x0 x1 x2 x3).1 S2048x1024.size (by sl_kernel_rfl) y

/-- The accumulator after a point at the first contraction position. -/
def sout0_A (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S2048x1024 .bf16) (harg7 : arg7.IsWhole) (arg8 : Memref sig .tc .vmem S2048x1024 .f32) (harg8 : arg8.IsWhole) (hc0 : cond0_0 i) (hc1 : ¬cond0_1 i)
    (x0 : Vec F S2048x512 .bf16) (x1 : Vec F S2048x512 .bf16) (x2 : Vec F S1024x512 .bf16) (x3 : Vec F S1024x512 .bf16) : Vec F S2048x1024 .f32 :=
  VS0.read (Elt F) (VS0.writes (Elt F) VS0.junk (kernelRun0_A c i arg3 harg3 arg4 harg4 arg5 harg5 arg6 harg6 arg7 harg7 arg8 harg8 hc0 hc1 x0 x1 x2 x3).1)

theorem scover0_B (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S2048x1024 .bf16) (harg7 : arg7.IsWhole) (arg8 : Memref sig .tc .vmem S2048x1024 .f32) (harg8 : arg8.IsWhole) (hc0 : ¬cond0_0 i) (hc1 : ¬cond0_1 i)
    (x0 : Vec F S2048x512 .bf16) (x1 : Vec F S2048x512 .bf16) (x2 : Vec F S1024x512 .bf16) (x3 : Vec F S1024x512 .bf16) (xs0 : Vec F S2048x1024 .f32) (y : S2048x1024.Idx) :
    ∃ pc ∈ (kernelRun0_B c i arg3 harg3 arg4 harg4 arg5 harg5 arg6 harg6 arg7 harg7 arg8 harg8 hc0 hc1 x0 x1 x2 x3 xs0).1, y ∈ pc.1.set :=
  View.cover_of_tiledL (kernelRun0_B c i arg3 harg3 arg4 harg4 arg5 harg5 arg6 harg6 arg7 harg7 arg8 harg8 hc0 hc1 x0 x1 x2 x3 xs0).1 S2048x1024.size (by sl_kernel_rfl) y

/-- The accumulator after a point at a middle contraction position, over what the point before left. -/
def sout0_B (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S2048x1024 .bf16) (harg7 : arg7.IsWhole) (arg8 : Memref sig .tc .vmem S2048x1024 .f32) (harg8 : arg8.IsWhole) (hc0 : ¬cond0_0 i) (hc1 : ¬cond0_1 i)
    (x0 : Vec F S2048x512 .bf16) (x1 : Vec F S2048x512 .bf16) (x2 : Vec F S1024x512 .bf16) (x3 : Vec F S1024x512 .bf16) (xs0 : Vec F S2048x1024 .f32) : Vec F S2048x1024 .f32 :=
  VS0.read (Elt F) (VS0.writes (Elt F) VS0.junk (kernelRun0_B c i arg3 harg3 arg4 harg4 arg5 harg5 arg6 harg6 arg7 harg7 arg8 harg8 hc0 hc1 x0 x1 x2 x3 xs0).1)

theorem cover0_C (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S2048x1024 .bf16) (harg7 : arg7.IsWhole) (arg8 : Memref sig .tc .vmem S2048x1024 .f32) (harg8 : arg8.IsWhole) (hc0 : ¬cond0_0 i) (hc1 : cond0_1 i)
    (x0 : Vec F S2048x512 .bf16) (x1 : Vec F S2048x512 .bf16) (x2 : Vec F S1024x512 .bf16) (x3 : Vec F S1024x512 .bf16) (xs0 : Vec F S2048x1024 .f32) (y : S2048x1024.Idx) :
    ∃ pc ∈ (kernelRun0_C c i arg3 harg3 arg4 harg4 arg5 harg5 arg6 harg6 arg7 harg7 arg8 harg8 hc0 hc1 x0 x1 x2 x3 xs0).1, y ∈ pc.1.set :=
  View.cover_of_tiledL (kernelRun0_C c i arg3 harg3 arg4 harg4 arg5 harg5 arg6 harg6 arg7 harg7 arg8 harg8 hc0 hc1 x0 x1 x2 x3 xs0).1 S2048x1024.size (by sl_kernel_rfl) y

/-- The output block after a point at the last contraction position. -/
def out0_C (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S2048x1024 .bf16) (harg7 : arg7.IsWhole) (arg8 : Memref sig .tc .vmem S2048x1024 .f32) (harg8 : arg8.IsWhole) (hc0 : ¬cond0_0 i) (hc1 : cond0_1 i)
    (x0 : Vec F S2048x512 .bf16) (x1 : Vec F S2048x512 .bf16) (x2 : Vec F S1024x512 .bf16) (x3 : Vec F S1024x512 .bf16) (xs0 : Vec F S2048x1024 .f32) : Vec F S2048x1024 .bf16 :=
  VO0_4.read (Elt F) (VO0_4.writes (Elt F) VO0_4.junk (kernelRun0_C c i arg3 harg3 arg4 harg4 arg5 harg5 arg6 harg6 arg7 harg7 arg8 harg8 hc0 hc1 x0 x1 x2 x3 xs0).1)

theorem scover0_C (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S2048x1024 .bf16) (harg7 : arg7.IsWhole) (arg8 : Memref sig .tc .vmem S2048x1024 .f32) (harg8 : arg8.IsWhole) (hc0 : ¬cond0_0 i) (hc1 : cond0_1 i)
    (x0 : Vec F S2048x512 .bf16) (x1 : Vec F S2048x512 .bf16) (x2 : Vec F S1024x512 .bf16) (x3 : Vec F S1024x512 .bf16) (xs0 : Vec F S2048x1024 .f32) (y : S2048x1024.Idx) :
    ∃ pc ∈ (kernelRun0_C c i arg3 harg3 arg4 harg4 arg5 harg5 arg6 harg6 arg7 harg7 arg8 harg8 hc0 hc1 x0 x1 x2 x3 xs0).2.1, y ∈ pc.1.set :=
  View.cover_of_tiledL (kernelRun0_C c i arg3 harg3 arg4 harg4 arg5 harg5 arg6 harg6 arg7 harg7 arg8 harg8 hc0 hc1 x0 x1 x2 x3 xs0).2.1 S2048x1024.size (by sl_kernel_rfl) y

/-- The accumulator after a point at the last contraction position. -/
def sout0_C (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S2048x1024 .bf16) (harg7 : arg7.IsWhole) (arg8 : Memref sig .tc .vmem S2048x1024 .f32) (harg8 : arg8.IsWhole) (hc0 : ¬cond0_0 i) (hc1 : cond0_1 i)
    (x0 : Vec F S2048x512 .bf16) (x1 : Vec F S2048x512 .bf16) (x2 : Vec F S1024x512 .bf16) (x3 : Vec F S1024x512 .bf16) (xs0 : Vec F S2048x1024 .f32) : Vec F S2048x1024 .f32 :=
  VS0.read (Elt F) (VS0.writes (Elt F) VS0.junk (kernelRun0_C c i arg3 harg3 arg4 harg4 arg5 harg5 arg6 harg6 arg7 harg7 arg8 harg8 hc0 hc1 x0 x1 x2 x3 xs0).2.1)

section Data
variable (V : (c : Dev nD) → (b : Ref sig .tc) → Buf (Elt F) ((c : Thread nD τ).loc b))

/-! ## The accumulation along the grid -/

/-- What the output block and the accumulator hold after the body at position n: the case the position selects, run on
    the point's input blocks, over what position n - 1 left in the accumulator. Where the output block is not
    stored, its component is a placeholder nothing consults. -/
def outsAt0 (c : Dev nD) : (n : ℕ) → n < cfg0.N → Vec F S2048x1024 .bf16 × Vec F S2048x1024 .f32
  | 0, hn => (VO0_4.read (Elt F) VO0_4.junk, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 8 = 0 then
      if h1 : (n + 1) % 8 = 7 then
        False.elim (by omega)
      else
        (VO0_4.read (Elt F) VO0_4.junk, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 8 = 7 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (VO0_4.read (Elt F) VO0_4.junk, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (VO0_4.read (Elt F) VO0_4.junk, sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (VO0_4.read (Elt F) VO0_4.junk, sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point the class's (the accumulator at anything); afterwards
    the accumulator at what the point before left in it, beside the other scoped buffers and the generator register. -/
def PhiS0 (c : Dev nD) : (n : ℕ) → n ≤ cfg0.N → sProp 𝕄
  | 0, _ => Pipeline.ΦA spec0 c
  | n + 1, hn => iprop(iprop(iprop(owns (c : Thread nD τ) scM0 fullShare ((outsAt0 V c n hn).2)) ∗ but0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0 fullShare ((outsAt0 V c n hn).2)) ∗ but0 c) ∗ (∃ r, prngReg c r)) := rfl

theorem PhiS0_pos (c : Dev nD) (n : ℕ) (h : n ≤ cfg0.N) (hz : n ≠ 0) :
    PhiS0 V c n h = iprop(iprop(iprop(owns (c : Thread nD τ) scM0 fullShare ((outsAt0 V c (n - 1) (by omega)).2)) ∗ but0 c) ∗ (∃ r, prngReg c r)) := by
  cases n with
  | zero => exact absurd rfl hz
  | succ n => rfl

/-! ## The pipeline's proof data -/

/-- The arrays as the region finds them; after the body each input's buffer at its block and the output's at the
    accumulation's first component; the invariant the accumulator's; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the input memrefs hold their blocks; the position's case is selected; the invariant hands
    the body the accumulator at what the point before left (at anything at the very first point) and takes it back at
    this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val % 8 = 0
  · by_cases h1 : t.val % 8 = 7
    · exfalso; omega
    · have hc1 : ¬cond0_1 (grid0.coords t) := fun h => h1 ((hcond0_1 t).mp h)
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 t hc1) (noFlush0_4 t hc1)]
      rw [outsAt0_A V c t h0 h1]
      unfold sout0_A; (try dsimp only)
      by_cases hz : t.val = 0
      · rw [PhiS0_castSucc V c t, PhiS0_zero V c _ _ hz, PhiA0_eq]
        iintro ⟨⟨⟨HS0, Hb⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) hc1 (iblk0 V c 0 t) (iblk0 V c 1 t) (iblk0 V c 2 t) (iblk0 V c 3 t)).2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hb Hg]
        · isplitl [HS0 Hb]
          · isplitl [HS0]
            · unfold owns; iexists _; isplitr
              swap; · iexact HS0
              ipureintro; exact View.read_writes_of_cover _ _ _ _ _ (scover0_A c _ _ _ _ _ _ _ _ _ _ _ _ _ _ _ _ _ _ _)
            iexact Hb
          iexact Hg
        isplitl [Ho]; · iexact Ho
        isplitl [H0]; · iexact H0
        isplitl [H1]; · iexact H1
        isplitl [H2]; · iexact H2
        isplitl [H3]; · iexact H3
        iexists _; iexact H4
      · rw [PhiS0_castSucc V c t, PhiS0_pos V c _ _ hz]
        iintro ⟨⟨⟨HS0, Hb⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) hc1 (iblk0 V c 0 t) (iblk0 V c 1 t) (iblk0 V c 2 t) (iblk0 V c 3 t)).2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hb Hg]
        · isplitl [HS0 Hb]
          · isplitl [HS0]
            · unfold owns; iexists _; isplitr
              swap; · iexact HS0
              ipureintro; exact View.read_writes_of_cover _ _ _ _ _ (scover0_A c _ _ _ _ _ _ _ _ _ _ _ _ _ _ _ _ _ _ _)
            iexact Hb
          iexact Hg
        isplitl [Ho]; · iexact Ho
        isplitl [H0]; · iexact H0
        isplitl [H1]; · iexact H1
        isplitl [H2]; · iexact H2
        isplitl [H3]; · iexact H3
        iexists _; iexact H4
  · have hc0 : ¬cond0_0 (grid0.coords t) := fun h => h0 ((hcond0_0 t).mp h)
    have hz : t.val ≠ 0 := fun hz => h0 (by rw [hz])
    by_cases h1 : t.val % 8 = 7
    · have hc1 : cond0_1 (grid0.coords t) := (hcond0_1 t).mpr h1
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t hc1], after0_4]
      rw [outsAt0_C V c t h0 h1]
      unfold out0_C sout0_C; (try dsimp only)
      rw [PhiS0_castSucc V c t, PhiS0_pos V c _ _ hz]
      · iintro ⟨⟨⟨HS0, Hb⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ hc0 hc1 (iblk0 V c 0 t) (iblk0 V c 1 t) (iblk0 V c 2 t) (iblk0 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hb Hg]
        · isplitl [HS0 Hb]
          · isplitl [HS0]
            · unfold owns; iexists _; isplitr
              swap; · iexact HS0
              ipureintro; exact View.read_writes_of_cover _ _ _ _ _ (scover0_C c _ _ _ _ _ _ _ _ _ _ _ _ _ _ _ _ _ _ _ _)
            iexact Hb
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C c _ _ _ _ _ _ _ _ _ _ _ _ _ _ _ _ _ _ _ _)
    · have hc1 : ¬cond0_1 (grid0.coords t) := fun h => h1 ((hcond0_1 t).mp h)
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 t hc1) (noFlush0_4 t hc1)]
      rw [outsAt0_B V c t h0 h1]
      unfold sout0_B; (try dsimp only)
      rw [PhiS0_castSucc V c t, PhiS0_pos V c _ _ hz]
      · iintro ⟨⟨⟨HS0, Hb⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ hc0 hc1 (iblk0 V c 0 t) (iblk0 V c 1 t) (iblk0 V c 2 t) (iblk0 V c 3 t) _).2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hb Hg]
        · isplitl [HS0 Hb]
          · isplitl [HS0]
            · unfold owns; iexists _; isplitr
              swap; · iexact HS0
              ipureintro; exact View.read_writes_of_cover _ _ _ _ _ (scover0_B c _ _ _ _ _ _ _ _ _ _ _ _ _ _ _ _ _ _ _ _)
            iexact Hb
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, Hb⟩, Hg⟩
  isplitl [HS0 Hb]
  · isplitl [HS0]
    · iexists _; iexact HS0
    iexact Hb
  iexact Hg

end Data

end Cert.Kernel.Reg

end
-- ==== Proof.K.R1Base.lean ====
/-
  Region 1 (the second dual matmul, grid 4 x 1 x 4, the contraction axis innermost): what its three control
  cases share. A point t of the grid has k = t mod 4 as its position along the contraction axis; the body zeroes
  the accumulator when k = 0, adds the two partial products at every k, and stores relu of the accumulator into
  the output block when k = 3. The four input windows are read at their blocks of the arrays as the region finds
  them (a parameter V); the output window is idle except at k = 3.
-/
import proofs.«100784_j78125455114733_2_alg».proof.Proof.Gen.Kernel.Launch
import proofs.«100784_j78125455114733_2_alg».proof.Proof.Gen.Kernel.Skeleton
import proofs.«100784_j78125455114733_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data whose array is
    the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The two branch conditions, in closed form over the grid -/

/-- The first branch (zero the accumulator) is taken where the contraction position is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The second branch (store the output block) is taken where the contraction position is the last, 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last contraction position nothing is stored into the output block and it is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The memrefs the body is called with -/

abbrev VO1_4 : View sig .tc .vmem S1024x256 .f32 := (Memref.whole cc1_stg4_0 : Memref sig .tc .vmem S1024x256 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x256 .f32 := win1_4.stage (cfg1.slots t 4)
abbrev hs1_4 (t : Fin cfg1.N) : (ms1_4 t).IsWhole := hstage1_4 ((cfg1.slots t 4).cast nbuf1_4)
/-- The accumulator: a whole scoped buffer of the kernel's own. -/
abbrev scM1 : Memref sig .tc .vmem S1024x256 .f32 := Memref.whole cc1_scratch0
abbrev VS1 : View sig .tc .vmem S1024x256 .f32 := scM1.view

/-- The scoped buffers outside this region's staging set: the accumulator, and the rest unopened. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The other scoped buffers (the first region's staging buffers and accumulator), unopened. -/
abbrev but1 (c : Dev nD) : sProp 𝕄 :=
  Pipeline.scopedRestBut (Ix := Unit) (Name := ℕ) (U := UR sig nD τ) (Lvl := ℕ) (Val := Elt F) spec1 c [cc1_scratch0]

/-- The class invariant with the accumulator as a memref owned at some contents. -/
theorem PhiA1_eq (c : Dev nD) :
    (Pipeline.ΦA spec1 c : sProp 𝕄)
      = iprop(iprop(iprop((∃ d, owns (c : Thread nD τ) scM1 fullShare d)) ∗ but1 c) ∗ (∃ r, prngReg c r)) := by
  unfold Pipeline.ΦA but1; rw [scopedRest1_split]; simp only [scM1, owns_whole]; try rfl

end Cert.Kernel.Reg

end
-- ==== Proof.K.R1RunA.lean ====
/-
  Region 1 (the second dual matmul, grid 4 x 1 x 4), the body run whole at a first position of the contraction axis: the accumulator is zeroed, then the two partial products are added; the output block is left untouched.
  The stores each buffer ends with are found by running the body symbolically; they are the witness.
-/
import proofs.«100784_j78125455114733_2_alg».proof.Proof.K.R1Base

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave (last first), with the proof that on whole memrefs holding the input
    blocks the body runs to a continuation that holds the inputs as they were and the written buffers with those pieces written. -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1024x256 .f32) (harg7 : arg7.IsWhole) (arg8 : Memref sig .tc .vmem S1024x256 .f32) (harg8 : arg8.IsWhole) (hc0 : cond1_0 i) (hc1 : ¬cond1_1 i)
    (x0 : Vec F S1024x1024 .bf16) (x1 : Vec F S1024x1024 .bf16) (x2 : Vec F S256x1024 .bf16) (x3 : Vec F S256x1024 .bf16) :
    { LS0 : List (View.Piece (Elt F) S1024x256 .f32) //
      ∀ (xi4 : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__dual_matmul_relu_kernel i arg3 harg3 arg4 harg4 arg5 harg5 arg6 harg6 arg7 harg7 arg8 harg8) K } := by
  refine ⟨?_, fun xi4 E K => ?run⟩
  case run =>
    simp only [cc1__dual_matmul_relu_kernel_eq_skeleton]; unfold cc1__dual_matmul_relu_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Reg

end
-- ==== Proof.K.R1RunB.lean ====
/-
  Region 1 (the second dual matmul, grid 4 x 1 x 4), the body run whole at a a middle position of the contraction axis: the two partial products are added to what the point before left in the accumulator; the output block is left untouched.
  The stores each buffer ends with are found by running the body symbolically; they are the witness.
-/
import proofs.«100784_j78125455114733_2_alg».proof.Proof.K.R1Base

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave (last first), with the proof that on whole memrefs holding the input
    blocks the body runs to a continuation that holds the inputs as they were and the written buffers with those pieces written. -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : ¬cond1_1 i)
    (x0 : Vec F S1024x1024 .bf16) (x1 : Vec F S1024x1024 .bf16) (x2 : Vec F S256x1024 .bf16) (x3 : Vec F S256x1024 .bf16) (xs0 : Vec F S1024x256 .f32) :
    { LS0 : List (View.Piece (Elt F) S1024x256 .f32) //
      ∀ (xi4 : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__dual_matmul_relu_kernel i arg3 harg3 arg4 harg4 arg5 harg5 arg6 harg6 arg7 harg7 arg8 harg8) K } := by
  refine ⟨?_, fun xi4 E K => ?run⟩
  case run =>
    simp only [cc1__dual_matmul_relu_kernel_eq_skeleton]; unfold cc1__dual_matmul_relu_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Reg

end
-- ==== Proof.K.R1RunC.lean ====
/-
  Region 1 (the second dual matmul, grid 4 x 1 x 4), the body run whole at a last position of the contraction axis: the two partial products are added to what the point before left in the accumulator, and the maximum of the accumulator and zero is stored into the output block.
  The stores each buffer ends with are found by running the body symbolically; they are the witness.
-/
import proofs.«100784_j78125455114733_2_alg».proof.Proof.K.R1Base

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave (last first), with the proof that on whole memrefs holding the input
    blocks the body runs to a continuation that holds the inputs as they were and the written buffers with those pieces written. -/
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i)
    (x0 : Vec F S1024x1024 .bf16) (x1 : Vec F S1024x1024 .bf16) (x2 : Vec F S256x1024 .bf16) (x3 : Vec F S256x1024 .bf16) (xs0 : Vec F S1024x256 .f32) :
    Σ' (L4 : List (View.Piece (Elt F) S1024x256 .f32)), { LS0 : List (View.Piece (Elt F) S1024x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc1__dual_matmul_relu_kernel i arg3 harg3 arg4 harg4 arg5 harg5 arg6 harg6 arg7 harg7 arg8 harg8) K } := by
  refine ⟨?_, ?_, fun E K => ?run⟩
  case run =>
    simp only [cc1__dual_matmul_relu_kernel_eq_skeleton]; unfold cc1__dual_matmul_relu_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Reg

end
-- ==== Proof.K.R1Dat.lean ====
/-
  Region 1 (the second dual matmul, grid 4 x 1 x 4): what the accumulator and the output block hold after each grid point, the proof data of
  the pipeline, and the body obligation. Along the contraction axis (k = t mod 4) the accumulator after point t is
  the case's stores read back: zero plus the two partial products at k = 0, the point before's contents plus the
  two partial products otherwise; the output block is written only at k = 3, with the maximum of the accumulator
  and zero. The invariant between points holds the accumulator at exactly those contents.
-/
import proofs.«100784_j78125455114733_2_alg».proof.Proof.K.R1RunA
import proofs.«100784_j78125455114733_2_alg».proof.Proof.K.R1RunB
import proofs.«100784_j78125455114733_2_alg».proof.Proof.K.R1RunC

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves -/

theorem scover1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1024x256 .f32) (harg7 : arg7.IsWhole) (arg8 : Memref sig .tc .vmem S1024x256 .f32) (harg8 : arg8.IsWhole) (hc0 : cond1_0 i) (hc1 : ¬cond1_1 i)
    (x0 : Vec F S1024x1024 .bf16) (x1 : Vec F S1024x1024 .bf16) (x2 : Vec F S256x1024 .bf16) (x3 : Vec F S256x1024 .bf16) (y : S1024x256.Idx) :
    ∃ pc ∈ (kernelRun1_A c i arg3 harg3 arg4 harg4 arg5 harg5 arg6 harg6 arg7 harg7 arg8 harg8 hc0 hc1 x0 x1 x2 x3).1, y ∈ pc.1.set :=
  View.cover_of_tiledL (kernelRun1_A c i arg3 harg3 arg4 harg4 arg5 harg5 arg6 harg6 arg7 harg7 arg8 harg8 hc0 hc1 x0 x1 x2 x3).1 S1024x256.size (by sl_kernel_rfl) y

/-- The accumulator after a point at the first contraction position. -/
def sout1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1024x256 .f32) (harg7 : arg7.IsWhole) (arg8 : Memref sig .tc .vmem S1024x256 .f32) (harg8 : arg8.IsWhole) (hc0 : cond1_0 i) (hc1 : ¬cond1_1 i)
    (x0 : Vec F S1024x1024 .bf16) (x1 : Vec F S1024x1024 .bf16) (x2 : Vec F S256x1024 .bf16) (x3 : Vec F S256x1024 .bf16) : Vec F S1024x256 .f32 :=
  VS1.read (Elt F) (VS1.writes (Elt F) VS1.junk (kernelRun1_A c i arg3 harg3 arg4 harg4 arg5 harg5 arg6 harg6 arg7 harg7 arg8 harg8 hc0 hc1 x0 x1 x2 x3).1)

theorem scover1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : ¬cond1_1 i)
    (x0 : Vec F S1024x1024 .bf16) (x1 : Vec F S1024x1024 .bf16) (x2 : Vec F S256x1024 .bf16) (x3 : Vec F S256x1024 .bf16) (xs0 : Vec F S1024x256 .f32) (y : S1024x256.Idx) :
    ∃ pc ∈ (kernelRun1_B c i arg3 harg3 arg4 harg4 arg5 harg5 arg6 harg6 arg7 harg7 arg8 harg8 hc0 hc1 x0 x1 x2 x3 xs0).1, y ∈ pc.1.set :=
  View.cover_of_tiledL (kernelRun1_B c i arg3 harg3 arg4 harg4 arg5 harg5 arg6 harg6 arg7 harg7 arg8 harg8 hc0 hc1 x0 x1 x2 x3 xs0).1 S1024x256.size (by sl_kernel_rfl) y

/-- The accumulator after a point at a middle contraction position, over what the point before left. -/
def sout1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : ¬cond1_1 i)
    (x0 : Vec F S1024x1024 .bf16) (x1 : Vec F S1024x1024 .bf16) (x2 : Vec F S256x1024 .bf16) (x3 : Vec F S256x1024 .bf16) (xs0 : Vec F S1024x256 .f32) : Vec F S1024x256 .f32 :=
  VS1.read (Elt F) (VS1.writes (Elt F) VS1.junk (kernelRun1_B c i arg3 harg3 arg4 harg4 arg5 harg5 arg6 harg6 arg7 harg7 arg8 harg8 hc0 hc1 x0 x1 x2 x3 xs0).1)

theorem cover1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i)
    (x0 : Vec F S1024x1024 .bf16) (x1 : Vec F S1024x1024 .bf16) (x2 : Vec F S256x1024 .bf16) (x3 : Vec F S256x1024 .bf16) (xs0 : Vec F S1024x256 .f32) (y : S1024x256.Idx) :
    ∃ pc ∈ (kernelRun1_C c i arg3 harg3 arg4 harg4 arg5 harg5 arg6 harg6 arg7 harg7 arg8 harg8 hc0 hc1 x0 x1 x2 x3 xs0).1, y ∈ pc.1.set :=
  View.cover_of_tiledL (kernelRun1_C c i arg3 harg3 arg4 harg4 arg5 harg5 arg6 harg6 arg7 harg7 arg8 harg8 hc0 hc1 x0 x1 x2 x3 xs0).1 S1024x256.size (by sl_kernel_rfl) y

/-- The output block after a point at the last contraction position. -/
def out1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i)
    (x0 : Vec F S1024x1024 .bf16) (x1 : Vec F S1024x1024 .bf16) (x2 : Vec F S256x1024 .bf16) (x3 : Vec F S256x1024 .bf16) (xs0 : Vec F S1024x256 .f32) : Vec F S1024x256 .f32 :=
  VO1_4.read (Elt F) (VO1_4.writes (Elt F) VO1_4.junk (kernelRun1_C c i arg3 harg3 arg4 harg4 arg5 harg5 arg6 harg6 arg7 harg7 arg8 harg8 hc0 hc1 x0 x1 x2 x3 xs0).1)

theorem scover1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i)
    (x0 : Vec F S1024x1024 .bf16) (x1 : Vec F S1024x1024 .bf16) (x2 : Vec F S256x1024 .bf16) (x3 : Vec F S256x1024 .bf16) (xs0 : Vec F S1024x256 .f32) (y : S1024x256.Idx) :
    ∃ pc ∈ (kernelRun1_C c i arg3 harg3 arg4 harg4 arg5 harg5 arg6 harg6 arg7 harg7 arg8 harg8 hc0 hc1 x0 x1 x2 x3 xs0).2.1, y ∈ pc.1.set :=
  View.cover_of_tiledL (kernelRun1_C c i arg3 harg3 arg4 harg4 arg5 harg5 arg6 harg6 arg7 harg7 arg8 harg8 hc0 hc1 x0 x1 x2 x3 xs0).2.1 S1024x256.size (by sl_kernel_rfl) y

/-- The accumulator after a point at the last contraction position. -/
def sout1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i)
    (x0 : Vec F S1024x1024 .bf16) (x1 : Vec F S1024x1024 .bf16) (x2 : Vec F S256x1024 .bf16) (x3 : Vec F S256x1024 .bf16) (xs0 : Vec F S1024x256 .f32) : Vec F S1024x256 .f32 :=
  VS1.read (Elt F) (VS1.writes (Elt F) VS1.junk (kernelRun1_C c i arg3 harg3 arg4 harg4 arg5 harg5 arg6 harg6 arg7 harg7 arg8 harg8 hc0 hc1 x0 x1 x2 x3 xs0).2.1)

section Data
variable (V : (c : Dev nD) → (b : Ref sig .tc) → Buf (Elt F) ((c : Thread nD τ).loc b))

/-! ## The accumulation along the grid -/

/-- What the output block and the accumulator hold after the body at position n: the case the position selects, run on
    the point's input blocks, over what position n - 1 left in the accumulator. Where the output block is not
    stored, its component is a placeholder nothing consults. -/
def outsAt1 (c : Dev nD) : (n : ℕ) → n < cfg1.N → Vec F S1024x256 .f32 × Vec F S1024x256 .f32
  | 0, hn => (VO1_4.read (Elt F) VO1_4.junk, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      if h1 : (n + 1) % 4 = 3 then
        False.elim (by omega)
      else
        (VO1_4.read (Elt F) VO1_4.junk, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (VO1_4.read (Elt F) VO1_4.junk, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (VO1_4.read (Elt F) VO1_4.junk, sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (VO1_4.read (Elt F) VO1_4.junk, sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point the class's (the accumulator at anything); afterwards
    the accumulator at what the point before left in it, beside the other scoped buffers and the generator register. -/
def PhiS1 (c : Dev nD) : (n : ℕ) → n ≤ cfg1.N → sProp 𝕄
  | 0, _ => Pipeline.ΦA spec1 c
  | n + 1, hn => iprop(iprop(iprop(owns (c : Thread nD τ) scM1 fullShare ((outsAt1 V c n hn).2)) ∗ but1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1 fullShare ((outsAt1 V c n hn).2)) ∗ but1 c) ∗ (∃ r, prngReg c r)) := rfl

theorem PhiS1_pos (c : Dev nD) (n : ℕ) (h : n ≤ cfg1.N) (hz : n ≠ 0) :
    PhiS1 V c n h = iprop(iprop(iprop(owns (c : Thread nD τ) scM1 fullShare ((outsAt1 V c (n - 1) (by omega)).2)) ∗ but1 c) ∗ (∃ r, prngReg c r)) := by
  cases n with
  | zero => exact absurd rfl hz
  | succ n => rfl

/-! ## The pipeline's proof data -/

/-- The arrays as the region finds them; after the body each input's buffer at its block and the output's at the
    accumulation's first component; the invariant the accumulator's; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the input memrefs hold their blocks; the position's case is selected; the invariant hands
    the body the accumulator at what the point before left (at anything at the very first point) and takes it back at
    this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  by_cases h0 : t.val % 4 = 0
  · by_cases h1 : t.val % 4 = 3
    · exfalso; omega
    · have hc1 : ¬cond1_1 (grid1.coords t) := fun h => h1 ((hcond1_1 t).mp h)
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t hc1) (noFlush1_4 t hc1)]
      rw [outsAt1_A V c t h0 h1]
      unfold sout1_A; (try dsimp only)
      by_cases hz : t.val = 0
      · rw [PhiS1_castSucc V c t, PhiS1_zero V c _ _ hz, PhiA1_eq]
        iintro ⟨⟨⟨HS0, Hb⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) hc1 (iblk1 V c 0 t) (iblk1 V c 1 t) (iblk1 V c 2 t) (iblk1 V c 3 t)).2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hb Hg]
        · isplitl [HS0 Hb]
          · isplitl [HS0]
            · unfold owns; iexists _; isplitr
              swap; · iexact HS0
              ipureintro; exact View.read_writes_of_cover _ _ _ _ _ (scover1_A c _ _ _ _ _ _ _ _ _ _ _ _ _ _ _ _ _ _ _)
            iexact Hb
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨HS0, Hb⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) hc1 (iblk1 V c 0 t) (iblk1 V c 1 t) (iblk1 V c 2 t) (iblk1 V c 3 t)).2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hb Hg]
        · isplitl [HS0 Hb]
          · isplitl [HS0]
            · unfold owns; iexists _; isplitr
              swap; · iexact HS0
              ipureintro; exact View.read_writes_of_cover _ _ _ _ _ (scover1_A c _ _ _ _ _ _ _ _ _ _ _ _ _ _ _ _ _ _ _)
            iexact Hb
          iexact Hg
        isplitl [Ho]; · iexact Ho
        isplitl [H0]; · iexact H0
        isplitl [H1]; · iexact H1
        isplitl [H2]; · iexact H2
        isplitl [H3]; · iexact H3
        iexists _; iexact H4
  · have hc0 : ¬cond1_0 (grid1.coords t) := fun h => h0 ((hcond1_0 t).mp h)
    have hz : t.val ≠ 0 := fun hz => h0 (by rw [hz])
    by_cases h1 : t.val % 4 = 3
    · have hc1 : cond1_1 (grid1.coords t) := (hcond1_1 t).mpr h1
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t hc1], after1_4]
      rw [outsAt1_C V c t h0 h1]
      unfold out1_C sout1_C; (try dsimp only)
      rw [PhiS1_castSucc V c t, PhiS1_pos V c _ _ hz]
      · iintro ⟨⟨⟨HS0, Hb⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ hc0 hc1 (iblk1 V c 0 t) (iblk1 V c 1 t) (iblk1 V c 2 t) (iblk1 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hb Hg]
        · isplitl [HS0 Hb]
          · isplitl [HS0]
            · unfold owns; iexists _; isplitr
              swap; · iexact HS0
              ipureintro; exact View.read_writes_of_cover _ _ _ _ _ (scover1_C c _ _ _ _ _ _ _ _ _ _ _ _ _ _ _ _ _ _ _ _)
            iexact Hb
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C c _ _ _ _ _ _ _ _ _ _ _ _ _ _ _ _ _ _ _ _)
    · have hc1 : ¬cond1_1 (grid1.coords t) := fun h => h1 ((hcond1_1 t).mp h)
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t hc1) (noFlush1_4 t hc1)]
      rw [outsAt1_B V c t h0 h1]
      unfold sout1_B; (try dsimp only)
      rw [PhiS1_castSucc V c t, PhiS1_pos V c _ _ hz]
      · iintro ⟨⟨⟨HS0, Hb⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ hc0 hc1 (iblk1 V c 0 t) (iblk1 V c 1 t) (iblk1 V c 2 t) (iblk1 V c 3 t) _).2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hb Hg]
        · isplitl [HS0 Hb]
          · isplitl [HS0]
            · unfold owns; iexists _; isplitr
              swap; · iexact HS0
              ipureintro; exact View.read_writes_of_cover _ _ _ _ _ (scover1_B c _ _ _ _ _ _ _ _ _ _ _ _ _ _ _ _ _ _ _ _)
            iexact Hb
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 16 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS0, Hb⟩, Hg⟩
  isplitl [HS0 Hb]
  · isplitl [HS0]
    · iexists _; iexact HS0
    iexact Hb
  iexact Hg

end Data

end Cert.Kernel.Reg

end
-- ==== Proof.K.Run.lean ====
/-
  The whole program as three segments: the host operations before the first region, then the two regions. The
  buffer contents at each boundary are a fold from the launch memory: after the host operations; after region 0
  (its output array at what its write-backs leave, everything else as entered); after region 1 likewise. Region 1's
  proof data are taken at region 0's exit contents, so its first input window reads the array region 0 wrote. The
  run ends with every unscoped buffer at the last boundary's contents; the argument arrays walk back through the
  fold to the launch memory, since no host operation and no region writes one.
-/
import proofs.«100784_j78125455114733_2_alg».proof.Proof.K.R0Dat
import proofs.«100784_j78125455114733_2_alg».proof.Proof.K.R1Dat
import proofs.«100784_j78125455114733_2_alg».proof.Proof.Gen.Kernel.Regions

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => m (c, b)
/-- After the host operations (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit (region 1's entry). -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- An argument array is no window's array of either region and no host operation writes it: it ends as launched. -/
theorem W3_arg (c : Dev nD) (b : Ref sig .tc) (h1 : ∀ w, Pipeline.arrRef spec1 w ≠ b) (h0 : ∀ w, Pipeline.arrRef spec0 w ≠ b)
    (hW : b ∉ hostOps0_W) : W3 m c (Proc.devRef .tc b) = m ((c : Thread nD τ).loc b) :=
  calc W3 m c (Proc.devRef .tc b)
    _ = W2 m c (Proc.devRef .tc b) := W3_of_ne m c b h1
    _ = W1 m c (Proc.devRef .tc b) := W2_of_ne m c b h0
    _ = W0 m c (Proc.devRef .tc b) := StableHlo.after_of_writes_sub hostOps0 _ hostOps0_writes hW
    _ = m ((c : Thread nD τ).loc b) := rfl

/-! ## The proof data family and the thread state -/

abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state: entered from every unscoped buffer at the contents after the host operations, left with
    its output array at what the write-backs leave. The generator register goes into the class invariant and comes out;
    the accumulator is taken from the scoped rest at anything and given back forgotten. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h := hout0 (V1 m) c
    unfold Pipeline.ΦA at h
    show (dat0 (V1 m) c).Φ (Fin.last cfg0.N) ⊢ _
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from region 0's exit contents, left at the last boundary's. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h := hout1 (V2 m) c
    unfold Pipeline.ΦA at h
    show (dat1 (V2 m) c).Φ (Fin.last cfg1.N) ⊢ _
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm' (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of the program terminates, nothing faulting, and
    every final state has every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W3_arg m c main_arg0 (by decide) (by decide) (by decide)),
     (h c _ (mem_uc main_arg1 (by decide))).trans (W3_arg m c main_arg1 (by decide) (by decide) (by decide)),
     (h c _ (mem_uc main_arg2 (by decide))).trans (W3_arg m c main_arg2 (by decide) (by decide) (by decide)),
     (h c _ (mem_uc main_arg3 (by decide))).trans (W3_arg m c main_arg3 (by decide) (by decide) (by decide)),
     (h c _ (mem_uc main_arg4 (by decide))).trans (W3_arg m c main_arg4 (by decide) (by decide) (by decide))⟩) (run m ρ)

end Cert.Kernel.Reg

end
-- ==== Proof.KI.R0Base.lean ====
/-
  Region 0 (the first dual matmul, grid 2 x 4 x 8, the contraction axis innermost): what its three control
  cases share. A point t of the grid has k = t mod 8 as its position along the contraction axis; the body zeroes
  the accumulator when k = 0, adds the two partial products at every k, and stores relu of the accumulator into
  the output block when k = 7. The four input windows are read at their blocks of the arrays as the region finds
  them (a parameter V); the output window is idle except at k = 7.
-/
import proofs.«100784_j78125455114733_2_alg».proof.Proof.Gen.KernelIdeal.Launch
import proofs.«100784_j78125455114733_2_alg».proof.Proof.Gen.KernelIdeal.Skeleton
import proofs.«100784_j78125455114733_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is
    the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end Blocks

/-! ## The two branch conditions, in closed form over the grid -/

/-- The first branch (zero the accumulator) is taken where the contraction position is 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The second branch (store the output block) is taken where the contraction position is the last, 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last contraction position nothing is stored into the output block and it is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The memrefs the body is called with -/

abbrev VO0_4 : View sig .tc .vmem S2048x1024 .bf16 := (Memref.whole cc0_stg4_0 : Memref sig .tc .vmem S2048x1024 .bf16).view
abbrev ms0_0 (t : Fin cfg0.N) : Memref sig .tc .vmem S2048x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1024 .bf16 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0 : Memref sig .tc .vmem S2048x1024 .f32 := Memref.whole cc0_scratch0
abbrev VS0 : View sig .tc .vmem S2048x1024 .f32 := scM0.view

/-- The scoped buffers outside this region's staging set: the accumulator, and the rest unopened. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- The other scoped buffers (the second region's staging buffers and accumulator), unopened. -/
abbrev but0 (c : Dev nD) : sProp 𝕄 :=
  Pipeline.scopedRestBut (Ix := Unit) (Name := ℕ) (U := UR sig nD τ) (Lvl := ℕ) (Val := Elt F) spec0 c [cc0_scratch0]

/-- The class invariant with the accumulator as a memref owned at some contents. -/
theorem PhiA0_eq (c : Dev nD) :
    (Pipeline.ΦA spec0 c : sProp 𝕄)
      = iprop(iprop(iprop((∃ d, owns (c : Thread nD τ) scM0 fullShare d)) ∗ but0 c) ∗ (∃ r, prngReg c r)) := by
  unfold Pipeline.ΦA but0; rw [scopedRest0_split]; simp only [scM0, owns_whole]; try rfl

end Cert.KernelIdeal.Reg

end
-- ==== Proof.KI.R0RunA.lean ====
/-
  Region 0 (the first dual matmul, grid 2 x 4 x 8), the body run whole at a first position of the contraction axis: the accumulator is zeroed, then the two partial products are added; the output block is left untouched.
  The stores each buffer ends with are found by running the body symbolically; they are the witness.
-/
import proofs.«100784_j78125455114733_2_alg».proof.Proof.KI.R0Base

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave (last first), with the proof that on whole memrefs holding the input
    blocks the body runs to a continuation that holds the inputs as they were and the written buffers with those pieces written. -/
noncomputable def kernelRun0_A (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S2048x1024 .bf16) (harg7 : arg7.IsWhole) (arg8 : Memref sig .tc .vmem S2048x1024 .f32) (harg8 : arg8.IsWhole) (hc0 : cond0_0 i) (hc1 : ¬cond0_1 i)
    (x0 : Vec F S2048x512 .bf16) (x1 : Vec F S2048x512 .bf16) (x2 : Vec F S1024x512 .bf16) (x3 : Vec F S1024x512 .bf16) :
    { LS0 : List (View.Piece (Elt F) S2048x1024 .f32) //
      ∀ (xi4 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__dual_matmul_relu_kernel i arg3 harg3 arg4 harg4 arg5 harg5 arg6 harg6 arg7 harg7 arg8 harg8) K } := by
  refine ⟨?_, fun xi4 E K => ?run⟩
  case run =>
    simp only [cc0__dual_matmul_relu_kernel_eq_skeleton]; unfold cc0__dual_matmul_relu_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Reg

end
-- ==== Proof.KI.R0RunB.lean ====
/-
  Region 0 (the first dual matmul, grid 2 x 4 x 8), the body run whole at a a middle position of the contraction axis: the two partial products are added to what the point before left in the accumulator; the output block is left untouched.
  The stores each buffer ends with are found by running the body symbolically; they are the witness.
-/
import proofs.«100784_j78125455114733_2_alg».proof.Proof.KI.R0Base

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave (last first), with the proof that on whole memrefs holding the input
    blocks the body runs to a continuation that holds the inputs as they were and the written buffers with those pieces written. -/
noncomputable def kernelRun0_B (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S2048x1024 .bf16) (harg7 : arg7.IsWhole) (arg8 : Memref sig .tc .vmem S2048x1024 .f32) (harg8 : arg8.IsWhole) (hc0 : ¬cond0_0 i) (hc1 : ¬cond0_1 i)
    (x0 : Vec F S2048x512 .bf16) (x1 : Vec F S2048x512 .bf16) (x2 : Vec F S1024x512 .bf16) (x3 : Vec F S1024x512 .bf16) (xs0 : Vec F S2048x1024 .f32) :
    { LS0 : List (View.Piece (Elt F) S2048x1024 .f32) //
      ∀ (xi4 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__dual_matmul_relu_kernel i arg3 harg3 arg4 harg4 arg5 harg5 arg6 harg6 arg7 harg7 arg8 harg8) K } := by
  refine ⟨?_, fun xi4 E K => ?run⟩
  case run =>
    simp only [cc0__dual_matmul_relu_kernel_eq_skeleton]; unfold cc0__dual_matmul_relu_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Reg

end
-- ==== Proof.KI.R0RunC.lean ====
/-
  Region 0 (the first dual matmul, grid 2 x 4 x 8), the body run whole at a last position of the contraction axis: the two partial products are added to what the point before left in the accumulator, and the maximum of the accumulator and zero is stored into the output block.
  The stores each buffer ends with are found by running the body symbolically; they are the witness.
-/
import proofs.«100784_j78125455114733_2_alg».proof.Proof.KI.R0Base

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave (last first), with the proof that on whole memrefs holding the input
    blocks the body runs to a continuation that holds the inputs as they were and the written buffers with those pieces written. -/
noncomputable def kernelRun0_C (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S2048x1024 .bf16) (harg7 : arg7.IsWhole) (arg8 : Memref sig .tc .vmem S2048x1024 .f32) (harg8 : arg8.IsWhole) (hc0 : ¬cond0_0 i) (hc1 : cond0_1 i)
    (x0 : Vec F S2048x512 .bf16) (x1 : Vec F S2048x512 .bf16) (x2 : Vec F S1024x512 .bf16) (x3 : Vec F S1024x512 .bf16) (xs0 : Vec F S2048x1024 .f32) :
    Σ' (L4 : List (View.Piece (Elt F) S2048x1024 .bf16)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc0__dual_matmul_relu_kernel i arg3 harg3 arg4 harg4 arg5 harg5 arg6 harg6 arg7 harg7 arg8 harg8) K } := by
  refine ⟨?_, ?_, fun E K => ?run⟩
  case run =>
    simp only [cc0__dual_matmul_relu_kernel_eq_skeleton]; unfold cc0__dual_matmul_relu_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Reg

end
-- ==== Proof.KI.R0Dat.lean ====
/-
  Region 0 (the first dual matmul, grid 2 x 4 x 8): what the accumulator and the output block hold after each grid point, the proof data of
  the pipeline, and the body obligation. Along the contraction axis (k = t mod 8) the accumulator after point t is
  the case's stores read back: zero plus the two partial products at k = 0, the point before's contents plus the
  two partial products otherwise; the output block is written only at k = 7, with the maximum of the accumulator
  and zero. The invariant between points holds the accumulator at exactly those contents.
-/
import proofs.«100784_j78125455114733_2_alg».proof.Proof.KI.R0RunA
import proofs.«100784_j78125455114733_2_alg».proof.Proof.KI.R0RunB
import proofs.«100784_j78125455114733_2_alg».proof.Proof.KI.R0RunC

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves -/

theorem scover0_A (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S2048x1024 .bf16) (harg7 : arg7.IsWhole) (arg8 : Memref sig .tc .vmem S2048x1024 .f32) (harg8 : arg8.IsWhole) (hc0 : cond0_0 i) (hc1 : ¬cond0_1 i)
    (x0 : Vec F S2048x512 .bf16) (x1 : Vec F S2048x512 .bf16) (x2 : Vec F S1024x512 .bf16) (x3 : Vec F S1024x512 .bf16) (y : S2048x1024.Idx) :
    ∃ pc ∈ (kernelRun0_A c i arg3 harg3 arg4 harg4 arg5 harg5 arg6 harg6 arg7 harg7 arg8 harg8 hc0 hc1 x0 x1 x2 x3).1, y ∈ pc.1.set :=
  View.cover_of_tiledL (kernelRun0_A c i arg3 harg3 arg4 harg4 arg5 harg5 arg6 harg6 arg7 harg7 arg8 harg8 hc0 hc1 x0 x1 x2 x3).1 S2048x1024.size (by sl_kernel_rfl) y

/-- The accumulator after a point at the first contraction position. -/
def sout0_A (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S2048x1024 .bf16) (harg7 : arg7.IsWhole) (arg8 : Memref sig .tc .vmem S2048x1024 .f32) (harg8 : arg8.IsWhole) (hc0 : cond0_0 i) (hc1 : ¬cond0_1 i)
    (x0 : Vec F S2048x512 .bf16) (x1 : Vec F S2048x512 .bf16) (x2 : Vec F S1024x512 .bf16) (x3 : Vec F S1024x512 .bf16) : Vec F S2048x1024 .f32 :=
  VS0.read (Elt F) (VS0.writes (Elt F) VS0.junk (kernelRun0_A c i arg3 harg3 arg4 harg4 arg5 harg5 arg6 harg6 arg7 harg7 arg8 harg8 hc0 hc1 x0 x1 x2 x3).1)

theorem scover0_B (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S2048x1024 .bf16) (harg7 : arg7.IsWhole) (arg8 : Memref sig .tc .vmem S2048x1024 .f32) (harg8 : arg8.IsWhole) (hc0 : ¬cond0_0 i) (hc1 : ¬cond0_1 i)
    (x0 : Vec F S2048x512 .bf16) (x1 : Vec F S2048x512 .bf16) (x2 : Vec F S1024x512 .bf16) (x3 : Vec F S1024x512 .bf16) (xs0 : Vec F S2048x1024 .f32) (y : S2048x1024.Idx) :
    ∃ pc ∈ (kernelRun0_B c i arg3 harg3 arg4 harg4 arg5 harg5 arg6 harg6 arg7 harg7 arg8 harg8 hc0 hc1 x0 x1 x2 x3 xs0).1, y ∈ pc.1.set :=
  View.cover_of_tiledL (kernelRun0_B c i arg3 harg3 arg4 harg4 arg5 harg5 arg6 harg6 arg7 harg7 arg8 harg8 hc0 hc1 x0 x1 x2 x3 xs0).1 S2048x1024.size (by sl_kernel_rfl) y

/-- The accumulator after a point at a middle contraction position, over what the point before left. -/
def sout0_B (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S2048x1024 .bf16) (harg7 : arg7.IsWhole) (arg8 : Memref sig .tc .vmem S2048x1024 .f32) (harg8 : arg8.IsWhole) (hc0 : ¬cond0_0 i) (hc1 : ¬cond0_1 i)
    (x0 : Vec F S2048x512 .bf16) (x1 : Vec F S2048x512 .bf16) (x2 : Vec F S1024x512 .bf16) (x3 : Vec F S1024x512 .bf16) (xs0 : Vec F S2048x1024 .f32) : Vec F S2048x1024 .f32 :=
  VS0.read (Elt F) (VS0.writes (Elt F) VS0.junk (kernelRun0_B c i arg3 harg3 arg4 harg4 arg5 harg5 arg6 harg6 arg7 harg7 arg8 harg8 hc0 hc1 x0 x1 x2 x3 xs0).1)

theorem cover0_C (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S2048x1024 .bf16) (harg7 : arg7.IsWhole) (arg8 : Memref sig .tc .vmem S2048x1024 .f32) (harg8 : arg8.IsWhole) (hc0 : ¬cond0_0 i) (hc1 : cond0_1 i)
    (x0 : Vec F S2048x512 .bf16) (x1 : Vec F S2048x512 .bf16) (x2 : Vec F S1024x512 .bf16) (x3 : Vec F S1024x512 .bf16) (xs0 : Vec F S2048x1024 .f32) (y : S2048x1024.Idx) :
    ∃ pc ∈ (kernelRun0_C c i arg3 harg3 arg4 harg4 arg5 harg5 arg6 harg6 arg7 harg7 arg8 harg8 hc0 hc1 x0 x1 x2 x3 xs0).1, y ∈ pc.1.set :=
  View.cover_of_tiledL (kernelRun0_C c i arg3 harg3 arg4 harg4 arg5 harg5 arg6 harg6 arg7 harg7 arg8 harg8 hc0 hc1 x0 x1 x2 x3 xs0).1 S2048x1024.size (by sl_kernel_rfl) y

/-- The output block after a point at the last contraction position. -/
def out0_C (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S2048x1024 .bf16) (harg7 : arg7.IsWhole) (arg8 : Memref sig .tc .vmem S2048x1024 .f32) (harg8 : arg8.IsWhole) (hc0 : ¬cond0_0 i) (hc1 : cond0_1 i)
    (x0 : Vec F S2048x512 .bf16) (x1 : Vec F S2048x512 .bf16) (x2 : Vec F S1024x512 .bf16) (x3 : Vec F S1024x512 .bf16) (xs0 : Vec F S2048x1024 .f32) : Vec F S2048x1024 .bf16 :=
  VO0_4.read (Elt F) (VO0_4.writes (Elt F) VO0_4.junk (kernelRun0_C c i arg3 harg3 arg4 harg4 arg5 harg5 arg6 harg6 arg7 harg7 arg8 harg8 hc0 hc1 x0 x1 x2 x3 xs0).1)

theorem scover0_C (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S2048x1024 .bf16) (harg7 : arg7.IsWhole) (arg8 : Memref sig .tc .vmem S2048x1024 .f32) (harg8 : arg8.IsWhole) (hc0 : ¬cond0_0 i) (hc1 : cond0_1 i)
    (x0 : Vec F S2048x512 .bf16) (x1 : Vec F S2048x512 .bf16) (x2 : Vec F S1024x512 .bf16) (x3 : Vec F S1024x512 .bf16) (xs0 : Vec F S2048x1024 .f32) (y : S2048x1024.Idx) :
    ∃ pc ∈ (kernelRun0_C c i arg3 harg3 arg4 harg4 arg5 harg5 arg6 harg6 arg7 harg7 arg8 harg8 hc0 hc1 x0 x1 x2 x3 xs0).2.1, y ∈ pc.1.set :=
  View.cover_of_tiledL (kernelRun0_C c i arg3 harg3 arg4 harg4 arg5 harg5 arg6 harg6 arg7 harg7 arg8 harg8 hc0 hc1 x0 x1 x2 x3 xs0).2.1 S2048x1024.size (by sl_kernel_rfl) y

/-- The accumulator after a point at the last contraction position. -/
def sout0_C (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S2048x1024 .bf16) (harg7 : arg7.IsWhole) (arg8 : Memref sig .tc .vmem S2048x1024 .f32) (harg8 : arg8.IsWhole) (hc0 : ¬cond0_0 i) (hc1 : cond0_1 i)
    (x0 : Vec F S2048x512 .bf16) (x1 : Vec F S2048x512 .bf16) (x2 : Vec F S1024x512 .bf16) (x3 : Vec F S1024x512 .bf16) (xs0 : Vec F S2048x1024 .f32) : Vec F S2048x1024 .f32 :=
  VS0.read (Elt F) (VS0.writes (Elt F) VS0.junk (kernelRun0_C c i arg3 harg3 arg4 harg4 arg5 harg5 arg6 harg6 arg7 harg7 arg8 harg8 hc0 hc1 x0 x1 x2 x3 xs0).2.1)

section Data
variable (V : (c : Dev nD) → (b : Ref sig .tc) → Buf (Elt F) ((c : Thread nD τ).loc b))

/-! ## The accumulation along the grid -/

/-- What the output block and the accumulator hold after the body at position n: the case the position selects, run on
    the point's input blocks, over what position n - 1 left in the accumulator. Where the output block is not
    stored, its component is a placeholder nothing consults. -/
def outsAt0 (c : Dev nD) : (n : ℕ) → n < cfg0.N → Vec F S2048x1024 .bf16 × Vec F S2048x1024 .f32
  | 0, hn => (VO0_4.read (Elt F) VO0_4.junk, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 8 = 0 then
      if h1 : (n + 1) % 8 = 7 then
        False.elim (by omega)
      else
        (VO0_4.read (Elt F) VO0_4.junk, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 8 = 7 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (VO0_4.read (Elt F) VO0_4.junk, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (VO0_4.read (Elt F) VO0_4.junk, sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (VO0_4.read (Elt F) VO0_4.junk, sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point the class's (the accumulator at anything); afterwards
    the accumulator at what the point before left in it, beside the other scoped buffers and the generator register. -/
def PhiS0 (c : Dev nD) : (n : ℕ) → n ≤ cfg0.N → sProp 𝕄
  | 0, _ => Pipeline.ΦA spec0 c
  | n + 1, hn => iprop(iprop(iprop(owns (c : Thread nD τ) scM0 fullShare ((outsAt0 V c n hn).2)) ∗ but0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0 fullShare ((outsAt0 V c n hn).2)) ∗ but0 c) ∗ (∃ r, prngReg c r)) := rfl

theorem PhiS0_pos (c : Dev nD) (n : ℕ) (h : n ≤ cfg0.N) (hz : n ≠ 0) :
    PhiS0 V c n h = iprop(iprop(iprop(owns (c : Thread nD τ) scM0 fullShare ((outsAt0 V c (n - 1) (by omega)).2)) ∗ but0 c) ∗ (∃ r, prngReg c r)) := by
  cases n with
  | zero => exact absurd rfl hz
  | succ n => rfl

/-! ## The pipeline's proof data -/

/-- The arrays as the region finds them; after the body each input's buffer at its block and the output's at the
    accumulation's first component; the invariant the accumulator's; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the input memrefs hold their blocks; the position's case is selected; the invariant hands
    the body the accumulator at what the point before left (at anything at the very first point) and takes it back at
    this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val % 8 = 0
  · by_cases h1 : t.val % 8 = 7
    · exfalso; omega
    · have hc1 : ¬cond0_1 (grid0.coords t) := fun h => h1 ((hcond0_1 t).mp h)
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 t hc1) (noFlush0_4 t hc1)]
      rw [outsAt0_A V c t h0 h1]
      unfold sout0_A; (try dsimp only)
      by_cases hz : t.val = 0
      · rw [PhiS0_castSucc V c t, PhiS0_zero V c _ _ hz, PhiA0_eq]
        iintro ⟨⟨⟨HS0, Hb⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) hc1 (iblk0 V c 0 t) (iblk0 V c 1 t) (iblk0 V c 2 t) (iblk0 V c 3 t)).2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hb Hg]
        · isplitl [HS0 Hb]
          · isplitl [HS0]
            · unfold owns; iexists _; isplitr
              swap; · iexact HS0
              ipureintro; exact View.read_writes_of_cover _ _ _ _ _ (scover0_A c _ _ _ _ _ _ _ _ _ _ _ _ _ _ _ _ _ _ _)
            iexact Hb
          iexact Hg
        isplitl [Ho]; · iexact Ho
        isplitl [H0]; · iexact H0
        isplitl [H1]; · iexact H1
        isplitl [H2]; · iexact H2
        isplitl [H3]; · iexact H3
        iexists _; iexact H4
      · rw [PhiS0_castSucc V c t, PhiS0_pos V c _ _ hz]
        iintro ⟨⟨⟨HS0, Hb⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) hc1 (iblk0 V c 0 t) (iblk0 V c 1 t) (iblk0 V c 2 t) (iblk0 V c 3 t)).2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hb Hg]
        · isplitl [HS0 Hb]
          · isplitl [HS0]
            · unfold owns; iexists _; isplitr
              swap; · iexact HS0
              ipureintro; exact View.read_writes_of_cover _ _ _ _ _ (scover0_A c _ _ _ _ _ _ _ _ _ _ _ _ _ _ _ _ _ _ _)
            iexact Hb
          iexact Hg
        isplitl [Ho]; · iexact Ho
        isplitl [H0]; · iexact H0
        isplitl [H1]; · iexact H1
        isplitl [H2]; · iexact H2
        isplitl [H3]; · iexact H3
        iexists _; iexact H4
  · have hc0 : ¬cond0_0 (grid0.coords t) := fun h => h0 ((hcond0_0 t).mp h)
    have hz : t.val ≠ 0 := fun hz => h0 (by rw [hz])
    by_cases h1 : t.val % 8 = 7
    · have hc1 : cond0_1 (grid0.coords t) := (hcond0_1 t).mpr h1
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t hc1], after0_4]
      rw [outsAt0_C V c t h0 h1]
      unfold out0_C sout0_C; (try dsimp only)
      rw [PhiS0_castSucc V c t, PhiS0_pos V c _ _ hz]
      · iintro ⟨⟨⟨HS0, Hb⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ hc0 hc1 (iblk0 V c 0 t) (iblk0 V c 1 t) (iblk0 V c 2 t) (iblk0 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hb Hg]
        · isplitl [HS0 Hb]
          · isplitl [HS0]
            · unfold owns; iexists _; isplitr
              swap; · iexact HS0
              ipureintro; exact View.read_writes_of_cover _ _ _ _ _ (scover0_C c _ _ _ _ _ _ _ _ _ _ _ _ _ _ _ _ _ _ _ _)
            iexact Hb
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C c _ _ _ _ _ _ _ _ _ _ _ _ _ _ _ _ _ _ _ _)
    · have hc1 : ¬cond0_1 (grid0.coords t) := fun h => h1 ((hcond0_1 t).mp h)
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 t hc1) (noFlush0_4 t hc1)]
      rw [outsAt0_B V c t h0 h1]
      unfold sout0_B; (try dsimp only)
      rw [PhiS0_castSucc V c t, PhiS0_pos V c _ _ hz]
      · iintro ⟨⟨⟨HS0, Hb⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ hc0 hc1 (iblk0 V c 0 t) (iblk0 V c 1 t) (iblk0 V c 2 t) (iblk0 V c 3 t) _).2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hb Hg]
        · isplitl [HS0 Hb]
          · isplitl [HS0]
            · unfold owns; iexists _; isplitr
              swap; · iexact HS0
              ipureintro; exact View.read_writes_of_cover _ _ _ _ _ (scover0_B c _ _ _ _ _ _ _ _ _ _ _ _ _ _ _ _ _ _ _ _)
            iexact Hb
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, Hb⟩, Hg⟩
  isplitl [HS0 Hb]
  · isplitl [HS0]
    · iexists _; iexact HS0
    iexact Hb
  iexact Hg

end Data

end Cert.KernelIdeal.Reg

end
-- ==== Proof.KI.R1Base.lean ====
/-
  Region 1 (the second dual matmul, grid 4 x 1 x 4, the contraction axis innermost): what its three control
  cases share. A point t of the grid has k = t mod 4 as its position along the contraction axis; the body zeroes
  the accumulator when k = 0, adds the two partial products at every k, and stores relu of the accumulator into
  the output block when k = 3. The four input windows are read at their blocks of the arrays as the region finds
  them (a parameter V); the output window is idle except at k = 3.
-/
import proofs.«100784_j78125455114733_2_alg».proof.Proof.Gen.KernelIdeal.Launch
import proofs.«100784_j78125455114733_2_alg».proof.Proof.Gen.KernelIdeal.Skeleton
import proofs.«100784_j78125455114733_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data whose array is
    the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The two branch conditions, in closed form over the grid -/

/-- The first branch (zero the accumulator) is taken where the contraction position is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The second branch (store the output block) is taken where the contraction position is the last, 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last contraction position nothing is stored into the output block and it is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The memrefs the body is called with -/

abbrev VO1_4 : View sig .tc .vmem S1024x256 .f32 := (Memref.whole cc1_stg4_0 : Memref sig .tc .vmem S1024x256 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x256 .f32 := win1_4.stage (cfg1.slots t 4)
abbrev hs1_4 (t : Fin cfg1.N) : (ms1_4 t).IsWhole := hstage1_4 ((cfg1.slots t 4).cast nbuf1_4)
/-- The accumulator: a whole scoped buffer of the kernel's own. -/
abbrev scM1 : Memref sig .tc .vmem S1024x256 .f32 := Memref.whole cc1_scratch0
abbrev VS1 : View sig .tc .vmem S1024x256 .f32 := scM1.view

/-- The scoped buffers outside this region's staging set: the accumulator, and the rest unopened. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The other scoped buffers (the first region's staging buffers and accumulator), unopened. -/
abbrev but1 (c : Dev nD) : sProp 𝕄 :=
  Pipeline.scopedRestBut (Ix := Unit) (Name := ℕ) (U := UR sig nD τ) (Lvl := ℕ) (Val := Elt F) spec1 c [cc1_scratch0]

/-- The class invariant with the accumulator as a memref owned at some contents. -/
theorem PhiA1_eq (c : Dev nD) :
    (Pipeline.ΦA spec1 c : sProp 𝕄)
      = iprop(iprop(iprop((∃ d, owns (c : Thread nD τ) scM1 fullShare d)) ∗ but1 c) ∗ (∃ r, prngReg c r)) := by
  unfold Pipeline.ΦA but1; rw [scopedRest1_split]; simp only [scM1, owns_whole]; try rfl

end Cert.KernelIdeal.Reg

end
-- ==== Proof.KI.R1RunA.lean ====
/-
  Region 1 (the second dual matmul, grid 4 x 1 x 4), the body run whole at a first position of the contraction axis: the accumulator is zeroed, then the two partial products are added; the output block is left untouched.
  The stores each buffer ends with are found by running the body symbolically; they are the witness.
-/
import proofs.«100784_j78125455114733_2_alg».proof.Proof.KI.R1Base

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave (last first), with the proof that on whole memrefs holding the input
    blocks the body runs to a continuation that holds the inputs as they were and the written buffers with those pieces written. -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1024x256 .f32) (harg7 : arg7.IsWhole) (arg8 : Memref sig .tc .vmem S1024x256 .f32) (harg8 : arg8.IsWhole) (hc0 : cond1_0 i) (hc1 : ¬cond1_1 i)
    (x0 : Vec F S1024x1024 .bf16) (x1 : Vec F S1024x1024 .bf16) (x2 : Vec F S256x1024 .bf16) (x3 : Vec F S256x1024 .bf16) :
    { LS0 : List (View.Piece (Elt F) S1024x256 .f32) //
      ∀ (xi4 : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__dual_matmul_relu_kernel i arg3 harg3 arg4 harg4 arg5 harg5 arg6 harg6 arg7 harg7 arg8 harg8) K } := by
  refine ⟨?_, fun xi4 E K => ?run⟩
  case run =>
    simp only [cc1__dual_matmul_relu_kernel_eq_skeleton]; unfold cc1__dual_matmul_relu_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Reg

end
-- ==== Proof.KI.R1RunB.lean ====
/-
  Region 1 (the second dual matmul, grid 4 x 1 x 4), the body run whole at a a middle position of the contraction axis: the two partial products are added to what the point before left in the accumulator; the output block is left untouched.
  The stores each buffer ends with are found by running the body symbolically; they are the witness.
-/
import proofs.«100784_j78125455114733_2_alg».proof.Proof.KI.R1Base

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave (last first), with the proof that on whole memrefs holding the input
    blocks the body runs to a continuation that holds the inputs as they were and the written buffers with those pieces written. -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : ¬cond1_1 i)
    (x0 : Vec F S1024x1024 .bf16) (x1 : Vec F S1024x1024 .bf16) (x2 : Vec F S256x1024 .bf16) (x3 : Vec F S256x1024 .bf16) (xs0 : Vec F S1024x256 .f32) :
    { LS0 : List (View.Piece (Elt F) S1024x256 .f32) //
      ∀ (xi4 : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__dual_matmul_relu_kernel i arg3 harg3 arg4 harg4 arg5 harg5 arg6 harg6 arg7 harg7 arg8 harg8) K } := by
  refine ⟨?_, fun xi4 E K => ?run⟩
  case run =>
    simp only [cc1__dual_matmul_relu_kernel_eq_skeleton]; unfold cc1__dual_matmul_relu_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Reg

end
-- ==== Proof.KI.R1RunC.lean ====
/-
  Region 1 (the second dual matmul, grid 4 x 1 x 4), the body run whole at a last position of the contraction axis: the two partial products are added to what the point before left in the accumulator, and the maximum of the accumulator and zero is stored into the output block.
  The stores each buffer ends with are found by running the body symbolically; they are the witness.
-/
import proofs.«100784_j78125455114733_2_alg».proof.Proof.KI.R1Base

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave (last first), with the proof that on whole memrefs holding the input
    blocks the body runs to a continuation that holds the inputs as they were and the written buffers with those pieces written. -/
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i)
    (x0 : Vec F S1024x1024 .bf16) (x1 : Vec F S1024x1024 .bf16) (x2 : Vec F S256x1024 .bf16) (x3 : Vec F S256x1024 .bf16) (xs0 : Vec F S1024x256 .f32) :
    Σ' (L4 : List (View.Piece (Elt F) S1024x256 .f32)), { LS0 : List (View.Piece (Elt F) S1024x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc1__dual_matmul_relu_kernel i arg3 harg3 arg4 harg4 arg5 harg5 arg6 harg6 arg7 harg7 arg8 harg8) K } := by
  refine ⟨?_, ?_, fun E K => ?run⟩
  case run =>
    simp only [cc1__dual_matmul_relu_kernel_eq_skeleton]; unfold cc1__dual_matmul_relu_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Reg

end
-- ==== Proof.KI.R1Dat.lean ====
/-
  Region 1 (the second dual matmul, grid 4 x 1 x 4): what the accumulator and the output block hold after each grid point, the proof data of
  the pipeline, and the body obligation. Along the contraction axis (k = t mod 4) the accumulator after point t is
  the case's stores read back: zero plus the two partial products at k = 0, the point before's contents plus the
  two partial products otherwise; the output block is written only at k = 3, with the maximum of the accumulator
  and zero. The invariant between points holds the accumulator at exactly those contents.
-/
import proofs.«100784_j78125455114733_2_alg».proof.Proof.KI.R1RunA
import proofs.«100784_j78125455114733_2_alg».proof.Proof.KI.R1RunB
import proofs.«100784_j78125455114733_2_alg».proof.Proof.KI.R1RunC

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves -/

theorem scover1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1024x256 .f32) (harg7 : arg7.IsWhole) (arg8 : Memref sig .tc .vmem S1024x256 .f32) (harg8 : arg8.IsWhole) (hc0 : cond1_0 i) (hc1 : ¬cond1_1 i)
    (x0 : Vec F S1024x1024 .bf16) (x1 : Vec F S1024x1024 .bf16) (x2 : Vec F S256x1024 .bf16) (x3 : Vec F S256x1024 .bf16) (y : S1024x256.Idx) :
    ∃ pc ∈ (kernelRun1_A c i arg3 harg3 arg4 harg4 arg5 harg5 arg6 harg6 arg7 harg7 arg8 harg8 hc0 hc1 x0 x1 x2 x3).1, y ∈ pc.1.set :=
  View.cover_of_tiledL (kernelRun1_A c i arg3 harg3 arg4 harg4 arg5 harg5 arg6 harg6 arg7 harg7 arg8 harg8 hc0 hc1 x0 x1 x2 x3).1 S1024x256.size (by sl_kernel_rfl) y

/-- The accumulator after a point at the first contraction position. -/
def sout1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1024x256 .f32) (harg7 : arg7.IsWhole) (arg8 : Memref sig .tc .vmem S1024x256 .f32) (harg8 : arg8.IsWhole) (hc0 : cond1_0 i) (hc1 : ¬cond1_1 i)
    (x0 : Vec F S1024x1024 .bf16) (x1 : Vec F S1024x1024 .bf16) (x2 : Vec F S256x1024 .bf16) (x3 : Vec F S256x1024 .bf16) : Vec F S1024x256 .f32 :=
  VS1.read (Elt F) (VS1.writes (Elt F) VS1.junk (kernelRun1_A c i arg3 harg3 arg4 harg4 arg5 harg5 arg6 harg6 arg7 harg7 arg8 harg8 hc0 hc1 x0 x1 x2 x3).1)

theorem scover1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : ¬cond1_1 i)
    (x0 : Vec F S1024x1024 .bf16) (x1 : Vec F S1024x1024 .bf16) (x2 : Vec F S256x1024 .bf16) (x3 : Vec F S256x1024 .bf16) (xs0 : Vec F S1024x256 .f32) (y : S1024x256.Idx) :
    ∃ pc ∈ (kernelRun1_B c i arg3 harg3 arg4 harg4 arg5 harg5 arg6 harg6 arg7 harg7 arg8 harg8 hc0 hc1 x0 x1 x2 x3 xs0).1, y ∈ pc.1.set :=
  View.cover_of_tiledL (kernelRun1_B c i arg3 harg3 arg4 harg4 arg5 harg5 arg6 harg6 arg7 harg7 arg8 harg8 hc0 hc1 x0 x1 x2 x3 xs0).1 S1024x256.size (by sl_kernel_rfl) y

/-- The accumulator after a point at a middle contraction position, over what the point before left. -/
def sout1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : ¬cond1_1 i)
    (x0 : Vec F S1024x1024 .bf16) (x1 : Vec F S1024x1024 .bf16) (x2 : Vec F S256x1024 .bf16) (x3 : Vec F S256x1024 .bf16) (xs0 : Vec F S1024x256 .f32) : Vec F S1024x256 .f32 :=
  VS1.read (Elt F) (VS1.writes (Elt F) VS1.junk (kernelRun1_B c i arg3 harg3 arg4 harg4 arg5 harg5 arg6 harg6 arg7 harg7 arg8 harg8 hc0 hc1 x0 x1 x2 x3 xs0).1)

theorem cover1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i)
    (x0 : Vec F S1024x1024 .bf16) (x1 : Vec F S1024x1024 .bf16) (x2 : Vec F S256x1024 .bf16) (x3 : Vec F S256x1024 .bf16) (xs0 : Vec F S1024x256 .f32) (y : S1024x256.Idx) :
    ∃ pc ∈ (kernelRun1_C c i arg3 harg3 arg4 harg4 arg5 harg5 arg6 harg6 arg7 harg7 arg8 harg8 hc0 hc1 x0 x1 x2 x3 xs0).1, y ∈ pc.1.set :=
  View.cover_of_tiledL (kernelRun1_C c i arg3 harg3 arg4 harg4 arg5 harg5 arg6 harg6 arg7 harg7 arg8 harg8 hc0 hc1 x0 x1 x2 x3 xs0).1 S1024x256.size (by sl_kernel_rfl) y

/-- The output block after a point at the last contraction position. -/
def out1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i)
    (x0 : Vec F S1024x1024 .bf16) (x1 : Vec F S1024x1024 .bf16) (x2 : Vec F S256x1024 .bf16) (x3 : Vec F S256x1024 .bf16) (xs0 : Vec F S1024x256 .f32) : Vec F S1024x256 .f32 :=
  VO1_4.read (Elt F) (VO1_4.writes (Elt F) VO1_4.junk (kernelRun1_C c i arg3 harg3 arg4 harg4 arg5 harg5 arg6 harg6 arg7 harg7 arg8 harg8 hc0 hc1 x0 x1 x2 x3 xs0).1)

theorem scover1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i)
    (x0 : Vec F S1024x1024 .bf16) (x1 : Vec F S1024x1024 .bf16) (x2 : Vec F S256x1024 .bf16) (x3 : Vec F S256x1024 .bf16) (xs0 : Vec F S1024x256 .f32) (y : S1024x256.Idx) :
    ∃ pc ∈ (kernelRun1_C c i arg3 harg3 arg4 harg4 arg5 harg5 arg6 harg6 arg7 harg7 arg8 harg8 hc0 hc1 x0 x1 x2 x3 xs0).2.1, y ∈ pc.1.set :=
  View.cover_of_tiledL (kernelRun1_C c i arg3 harg3 arg4 harg4 arg5 harg5 arg6 harg6 arg7 harg7 arg8 harg8 hc0 hc1 x0 x1 x2 x3 xs0).2.1 S1024x256.size (by sl_kernel_rfl) y

/-- The accumulator after a point at the last contraction position. -/
def sout1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i)
    (x0 : Vec F S1024x1024 .bf16) (x1 : Vec F S1024x1024 .bf16) (x2 : Vec F S256x1024 .bf16) (x3 : Vec F S256x1024 .bf16) (xs0 : Vec F S1024x256 .f32) : Vec F S1024x256 .f32 :=
  VS1.read (Elt F) (VS1.writes (Elt F) VS1.junk (kernelRun1_C c i arg3 harg3 arg4 harg4 arg5 harg5 arg6 harg6 arg7 harg7 arg8 harg8 hc0 hc1 x0 x1 x2 x3 xs0).2.1)

section Data
variable (V : (c : Dev nD) → (b : Ref sig .tc) → Buf (Elt F) ((c : Thread nD τ).loc b))

/-! ## The accumulation along the grid -/

/-- What the output block and the accumulator hold after the body at position n: the case the position selects, run on
    the point's input blocks, over what position n - 1 left in the accumulator. Where the output block is not
    stored, its component is a placeholder nothing consults. -/
def outsAt1 (c : Dev nD) : (n : ℕ) → n < cfg1.N → Vec F S1024x256 .f32 × Vec F S1024x256 .f32
  | 0, hn => (VO1_4.read (Elt F) VO1_4.junk, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      if h1 : (n + 1) % 4 = 3 then
        False.elim (by omega)
      else
        (VO1_4.read (Elt F) VO1_4.junk, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (VO1_4.read (Elt F) VO1_4.junk, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (VO1_4.read (Elt F) VO1_4.junk, sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (VO1_4.read (Elt F) VO1_4.junk, sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point the class's (the accumulator at anything); afterwards
    the accumulator at what the point before left in it, beside the other scoped buffers and the generator register. -/
def PhiS1 (c : Dev nD) : (n : ℕ) → n ≤ cfg1.N → sProp 𝕄
  | 0, _ => Pipeline.ΦA spec1 c
  | n + 1, hn => iprop(iprop(iprop(owns (c : Thread nD τ) scM1 fullShare ((outsAt1 V c n hn).2)) ∗ but1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1 fullShare ((outsAt1 V c n hn).2)) ∗ but1 c) ∗ (∃ r, prngReg c r)) := rfl

theorem PhiS1_pos (c : Dev nD) (n : ℕ) (h : n ≤ cfg1.N) (hz : n ≠ 0) :
    PhiS1 V c n h = iprop(iprop(iprop(owns (c : Thread nD τ) scM1 fullShare ((outsAt1 V c (n - 1) (by omega)).2)) ∗ but1 c) ∗ (∃ r, prngReg c r)) := by
  cases n with
  | zero => exact absurd rfl hz
  | succ n => rfl

/-! ## The pipeline's proof data -/

/-- The arrays as the region finds them; after the body each input's buffer at its block and the output's at the
    accumulation's first component; the invariant the accumulator's; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the input memrefs hold their blocks; the position's case is selected; the invariant hands
    the body the accumulator at what the point before left (at anything at the very first point) and takes it back at
    this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  by_cases h0 : t.val % 4 = 0
  · by_cases h1 : t.val % 4 = 3
    · exfalso; omega
    · have hc1 : ¬cond1_1 (grid1.coords t) := fun h => h1 ((hcond1_1 t).mp h)
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t hc1) (noFlush1_4 t hc1)]
      rw [outsAt1_A V c t h0 h1]
      unfold sout1_A; (try dsimp only)
      by_cases hz : t.val = 0
      · rw [PhiS1_castSucc V c t, PhiS1_zero V c _ _ hz, PhiA1_eq]
        iintro ⟨⟨⟨HS0, Hb⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) hc1 (iblk1 V c 0 t) (iblk1 V c 1 t) (iblk1 V c 2 t) (iblk1 V c 3 t)).2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hb Hg]
        · isplitl [HS0 Hb]
          · isplitl [HS0]
            · unfold owns; iexists _; isplitr
              swap; · iexact HS0
              ipureintro; exact View.read_writes_of_cover _ _ _ _ _ (scover1_A c _ _ _ _ _ _ _ _ _ _ _ _ _ _ _ _ _ _ _)
            iexact Hb
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨HS0, Hb⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) hc1 (iblk1 V c 0 t) (iblk1 V c 1 t) (iblk1 V c 2 t) (iblk1 V c 3 t)).2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hb Hg]
        · isplitl [HS0 Hb]
          · isplitl [HS0]
            · unfold owns; iexists _; isplitr
              swap; · iexact HS0
              ipureintro; exact View.read_writes_of_cover _ _ _ _ _ (scover1_A c _ _ _ _ _ _ _ _ _ _ _ _ _ _ _ _ _ _ _)
            iexact Hb
          iexact Hg
        isplitl [Ho]; · iexact Ho
        isplitl [H0]; · iexact H0
        isplitl [H1]; · iexact H1
        isplitl [H2]; · iexact H2
        isplitl [H3]; · iexact H3
        iexists _; iexact H4
  · have hc0 : ¬cond1_0 (grid1.coords t) := fun h => h0 ((hcond1_0 t).mp h)
    have hz : t.val ≠ 0 := fun hz => h0 (by rw [hz])
    by_cases h1 : t.val % 4 = 3
    · have hc1 : cond1_1 (grid1.coords t) := (hcond1_1 t).mpr h1
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t hc1], after1_4]
      rw [outsAt1_C V c t h0 h1]
      unfold out1_C sout1_C; (try dsimp only)
      rw [PhiS1_castSucc V c t, PhiS1_pos V c _ _ hz]
      · iintro ⟨⟨⟨HS0, Hb⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ hc0 hc1 (iblk1 V c 0 t) (iblk1 V c 1 t) (iblk1 V c 2 t) (iblk1 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hb Hg]
        · isplitl [HS0 Hb]
          · isplitl [HS0]
            · unfold owns; iexists _; isplitr
              swap; · iexact HS0
              ipureintro; exact View.read_writes_of_cover _ _ _ _ _ (scover1_C c _ _ _ _ _ _ _ _ _ _ _ _ _ _ _ _ _ _ _ _)
            iexact Hb
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C c _ _ _ _ _ _ _ _ _ _ _ _ _ _ _ _ _ _ _ _)
    · have hc1 : ¬cond1_1 (grid1.coords t) := fun h => h1 ((hcond1_1 t).mp h)
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t hc1) (noFlush1_4 t hc1)]
      rw [outsAt1_B V c t h0 h1]
      unfold sout1_B; (try dsimp only)
      rw [PhiS1_castSucc V c t, PhiS1_pos V c _ _ hz]
      · iintro ⟨⟨⟨HS0, Hb⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ hc0 hc1 (iblk1 V c 0 t) (iblk1 V c 1 t) (iblk1 V c 2 t) (iblk1 V c 3 t) _).2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hb Hg]
        · isplitl [HS0 Hb]
          · isplitl [HS0]
            · unfold owns; iexists _; isplitr
              swap; · iexact HS0
              ipureintro; exact View.read_writes_of_cover _ _ _ _ _ (scover1_B c _ _ _ _ _ _ _ _ _ _ _ _ _ _ _ _ _ _ _ _)
            iexact Hb
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 16 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS0, Hb⟩, Hg⟩
  isplitl [HS0 Hb]
  · isplitl [HS0]
    · iexists _; iexact HS0
    iexact Hb
  iexact Hg

end Data

end Cert.KernelIdeal.Reg

end
-- ==== Proof.KI.Run.lean ====
/-
  The whole program as three segments: the host operations before the first region, then the two regions. The
  buffer contents at each boundary are a fold from the launch memory: after the host operations; after region 0
  (its output array at what its write-backs leave, everything else as entered); after region 1 likewise. Region 1's
  proof data are taken at region 0's exit contents, so its first input window reads the array region 0 wrote. The
  run ends with every unscoped buffer at the last boundary's contents; the argument arrays walk back through the
  fold to the launch memory, since no host operation and no region writes one.
-/
import proofs.«100784_j78125455114733_2_alg».proof.Proof.KI.R0Dat
import proofs.«100784_j78125455114733_2_alg».proof.Proof.KI.R1Dat
import proofs.«100784_j78125455114733_2_alg».proof.Proof.Gen.KernelIdeal.Regions

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => m (c, b)
/-- After the host operations (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit (region 1's entry). -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- An argument array is no window's array of either region and no host operation writes it: it ends as launched. -/
theorem W3_arg (c : Dev nD) (b : Ref sig .tc) (h1 : ∀ w, Pipeline.arrRef spec1 w ≠ b) (h0 : ∀ w, Pipeline.arrRef spec0 w ≠ b)
    (hW : b ∉ hostOps0_W) : W3 m c (Proc.devRef .tc b) = m ((c : Thread nD τ).loc b) :=
  calc W3 m c (Proc.devRef .tc b)
    _ = W2 m c (Proc.devRef .tc b) := W3_of_ne m c b h1
    _ = W1 m c (Proc.devRef .tc b) := W2_of_ne m c b h0
    _ = W0 m c (Proc.devRef .tc b) := StableHlo.after_of_writes_sub hostOps0 _ hostOps0_writes hW
    _ = m ((c : Thread nD τ).loc b) := rfl

/-! ## The proof data family and the thread state -/

abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state: entered from every unscoped buffer at the contents after the host operations, left with
    its output array at what the write-backs leave. The generator register goes into the class invariant and comes out;
    the accumulator is taken from the scoped rest at anything and given back forgotten. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h := hout0 (V1 m) c
    unfold Pipeline.ΦA at h
    show (dat0 (V1 m) c).Φ (Fin.last cfg0.N) ⊢ _
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from region 0's exit contents, left at the last boundary's. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h := hout1 (V2 m) c
    unfold Pipeline.ΦA at h
    show (dat1 (V2 m) c).Φ (Fin.last cfg1.N) ⊢ _
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm' (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of the program terminates, nothing faulting, and
    every final state has every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W3_arg m c main_arg0 (by decide) (by decide) (by decide)),
     (h c _ (mem_uc main_arg1 (by decide))).trans (W3_arg m c main_arg1 (by decide) (by decide) (by decide)),
     (h c _ (mem_uc main_arg2 (by decide))).trans (W3_arg m c main_arg2 (by decide) (by decide) (by decide)),
     (h c _ (mem_uc main_arg3 (by decide))).trans (W3_arg m c main_arg3 (by decide) (by decide) (by decide)),
     (h c _ (mem_uc main_arg4 (by decide))).trans (W3_arg m c main_arg4 (by decide) (by decide) (by decide))⟩) (run m ρ)

end Cert.KernelIdeal.Reg

end
-- ==== Proof.KI.ViewLast.lean ====
/-
  A buffer stored whole several times and then loaded whole reads back the last store's payload, whatever the earlier
  stores were: the later store covers every index.
-/
import Idealize.ShloMosaic.Lib.Pipeline.Value
import Idealize.ShloMosaic.Lib.Pipeline.FrameBody

noncomputable section

namespace Cert.KernelIdeal.Reg

open Idealize.ShloMosaic

variable {Val : EltTy → Type} {S : Shape} {e : EltTy}

theorem hz2 : (![0, 0] : Fin 2 → Nat) = fun _ => 0 := funext fun a => by fin_cases a <;> rfl

/-- A whole-buffer load after stores of which the LAST covers the whole buffer reads that store's payload. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

end Cert.KernelIdeal.Reg

end
-- ==== Proof.KI.R0Val.lean ====
/-
  Region 0 (the first dual matmul, grid 2 x 4 x 8): what each control case leaves, read back as values. One step of the accumulation adds to the
  accumulator the product of the first pair of blocks, then the product of the second pair. The first contraction
  position steps from the zero block, the others from what the point before left; the last position also stores the
  maximum of the stepped accumulator and zero into the output block.
-/
import proofs.«100784_j78125455114733_2_alg».proof.Proof.KI.R0Dat
import proofs.«100784_j78125455114733_2_alg».proof.Proof.KI.ViewLast

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- One step of the accumulation: the accumulator plus the two partial products of the point's blocks. -/
def step0 (acc : Vec F S2048x1024 .f32) (x0 : Vec F S2048x512 .bf16) (x1 : Vec F S2048x512 .bf16) (x2 : Vec F S1024x512 .bf16) (x3 : Vec F S1024x512 .bf16) : Vec F S2048x1024 .f32 :=
  k0_pay3 (k0_pay2 acc x0 x2) x1 x3

theorem sout0_B_eq (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S2048x1024 .bf16) (harg7 : arg7.IsWhole) (arg8 : Memref sig .tc .vmem S2048x1024 .f32) (harg8 : arg8.IsWhole) (hc0 : ¬cond0_0 i) (hc1 : ¬cond0_1 i)
    (x0 : Vec F S2048x512 .bf16) (x1 : Vec F S2048x512 .bf16) (x2 : Vec F S1024x512 .bf16) (x3 : Vec F S1024x512 .bf16) (xs0 : Vec F S2048x1024 .f32) :
    sout0_B c i arg3 harg3 arg4 harg4 arg5 harg5 arg6 harg6 arg7 harg7 arg8 harg8 hc0 hc1 x0 x1 x2 x3 xs0 = step0 xs0 x0 x1 x2 x3 := by
  unfold sout0_B step0
  rw [View.read_writes_eq_canon _ _ _ (scover0_B c i arg3 harg3 arg4 harg4 arg5 harg5 arg6 harg6 arg7 harg7 arg8 harg8 hc0 hc1 x0 x1 x2 x3 xs0)]
  unfold kernelRun0_B
  dsimp only
  sl_unfold_words
  rw [View.canon_cons_unit_zero (S := S2048x1024) hz2]
  simp only [readCov_cons_unit_zero (S := S2048x1024) _ hz2, View.readCov_unit_zero (S := S2048x1024) _ hz2, View.readAt_eq_ld, harg3.read_unread, harg4.read_unread, harg5.read_unread, harg6.read_unread, harg8.read_unread, View.ld_unit_zero (S := S2048x512) hz2, View.ld_unit_zero (S := S1024x512) hz2, View.ld_unit_zero (S := S2048x1024) hz2]

theorem sout0_A_eq (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S2048x1024 .bf16) (harg7 : arg7.IsWhole) (arg8 : Memref sig .tc .vmem S2048x1024 .f32) (harg8 : arg8.IsWhole) (hc0 : cond0_0 i) (hc1 : ¬cond0_1 i)
    (x0 : Vec F S2048x512 .bf16) (x1 : Vec F S2048x512 .bf16) (x2 : Vec F S1024x512 .bf16) (x3 : Vec F S1024x512 .bf16) :
    sout0_A c i arg3 harg3 arg4 harg4 arg5 harg5 arg6 harg6 arg7 harg7 arg8 harg8 hc0 hc1 x0 x1 x2 x3 = step0 k0_pay1 x0 x1 x2 x3 := by
  unfold sout0_A step0
  rw [View.read_writes_eq_canon _ _ _ (scover0_A c i arg3 harg3 arg4 harg4 arg5 harg5 arg6 harg6 arg7 harg7 arg8 harg8 hc0 hc1 x0 x1 x2 x3)]
  unfold kernelRun0_A
  dsimp only
  sl_unfold_words
  rw [View.canon_cons_unit_zero (S := S2048x1024) hz2]
  simp only [readCov_cons_unit_zero (S := S2048x1024) _ hz2, View.readCov_unit_zero (S := S2048x1024) _ hz2, View.readAt_eq_ld, harg3.read_unread, harg4.read_unread, harg5.read_unread, harg6.read_unread, harg8.read_unread, View.ld_unit_zero (S := S2048x512) hz2, View.ld_unit_zero (S := S1024x512) hz2, View.ld_unit_zero (S := S2048x1024) hz2]

theorem sout0_C_eq (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S2048x1024 .bf16) (harg7 : arg7.IsWhole) (arg8 : Memref sig .tc .vmem S2048x1024 .f32) (harg8 : arg8.IsWhole) (hc0 : ¬cond0_0 i) (hc1 : cond0_1 i)
    (x0 : Vec F S2048x512 .bf16) (x1 : Vec F S2048x512 .bf16) (x2 : Vec F S1024x512 .bf16) (x3 : Vec F S1024x512 .bf16) (xs0 : Vec F S2048x1024 .f32) :
    sout0_C c i arg3 harg3 arg4 harg4 arg5 harg5 arg6 harg6 arg7 harg7 arg8 harg8 hc0 hc1 x0 x1 x2 x3 xs0 = step0 xs0 x0 x1 x2 x3 := by
  unfold sout0_C step0
  rw [View.read_writes_eq_canon _ _ _ (scover0_C c i arg3 harg3 arg4 harg4 arg5 harg5 arg6 harg6 arg7 harg7 arg8 harg8 hc0 hc1 x0 x1 x2 x3 xs0)]
  unfold kernelRun0_C
  dsimp only
  sl_unfold_words
  rw [View.canon_cons_unit_zero (S := S2048x1024) hz2]
  simp only [readCov_cons_unit_zero (S := S2048x1024) _ hz2, View.readCov_unit_zero (S := S2048x1024) _ hz2, View.readAt_eq_ld, harg3.read_unread, harg4.read_unread, harg5.read_unread, harg6.read_unread, harg8.read_unread, View.ld_unit_zero (S := S2048x512) hz2, View.ld_unit_zero (S := S1024x512) hz2, View.ld_unit_zero (S := S2048x1024) hz2]

theorem out0_C_eq (c : Dev nD) (i : grid0.Coords) (arg3 : Memref sig .tc .vmem S2048x512 .bf16) (harg3 : arg3.IsWhole) (arg4 : Memref sig .tc .vmem S2048x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S2048x1024 .bf16) (harg7 : arg7.IsWhole) (arg8 : Memref sig .tc .vmem S2048x1024 .f32) (harg8 : arg8.IsWhole) (hc0 : ¬cond0_0 i) (hc1 : cond0_1 i)
    (x0 : Vec F S2048x512 .bf16) (x1 : Vec F S2048x512 .bf16) (x2 : Vec F S1024x512 .bf16) (x3 : Vec F S1024x512 .bf16) (xs0 : Vec F S2048x1024 .f32) :
    out0_C c i arg3 harg3 arg4 harg4 arg5 harg5 arg6 harg6 arg7 harg7 arg8 harg8 hc0 hc1 x0 x1 x2 x3 xs0 = k0_pay4 (step0 xs0 x0 x1 x2 x3) := by
  unfold out0_C step0
  rw [View.read_writes_eq_canon _ _ _ (cover0_C c i arg3 harg3 arg4 harg4 arg5 harg5 arg6 harg6 arg7 harg7 arg8 harg8 hc0 hc1 x0 x1 x2 x3 xs0)]
  unfold kernelRun0_C
  dsimp only
  sl_unfold_words
  rw [View.canon_unit_zero (S := S2048x1024) hz2]
  simp only [readCov_cons_unit_zero (S := S2048x1024) _ hz2, View.readCov_unit_zero (S := S2048x1024) _ hz2, View.readAt_eq_ld, harg3.read_unread, harg4.read_unread, harg5.read_unread, harg6.read_unread, harg8.read_unread, View.ld_unit_zero (S := S2048x512) hz2, View.ld_unit_zero (S := S1024x512) hz2, View.ld_unit_zero (S := S2048x1024) hz2]

end Cert.KernelIdeal.Reg

end
-- ==== Proof.KI.R0Acc.lean ====
/-
  Region 0 (the first dual matmul, grid 2 x 4 x 8): the accumulation in closed recursive form. After position n the accumulator holds one step
  from the zero block where n starts a new pass along the contraction axis (n mod 8 = 0), and one step from what
  position n - 1 left otherwise; at the last position of a pass the output block holds the maximum of that and zero.
-/
import proofs.«100784_j78125455114733_2_alg».proof.Proof.KI.R0Val

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The accumulator after position n. -/
def acc0 (c : Dev nD) : (n : ℕ) → n < cfg0.N → Vec F S2048x1024 .f32
  | 0, h => step0 k0_pay1 (iblk0 V c 0 ⟨0, h⟩) (iblk0 V c 1 ⟨0, h⟩) (iblk0 V c 2 ⟨0, h⟩) (iblk0 V c 3 ⟨0, h⟩)
  | n + 1, h => step0 (if (n + 1) % 8 = 0 then k0_pay1 else acc0 c n (Nat.lt_of_succ_lt h)) (iblk0 V c 0 ⟨n + 1, h⟩) (iblk0 V c 1 ⟨n + 1, h⟩) (iblk0 V c 2 ⟨n + 1, h⟩) (iblk0 V c 3 ⟨n + 1, h⟩)

theorem outsAt0_snd (c : Dev nD) : ∀ (n : ℕ) (h : n < cfg0.N), (outsAt0 V c n h).2 = acc0 V c n h
  | 0, h => by
    rw [outsAt0_A V c ⟨0, h⟩ rfl (by show ¬(0 % 8 = 7); decide)]
    dsimp only
    rw [sout0_A_eq]
    rfl
  | n + 1, h => by
    by_cases h0 : (n + 1) % 8 = 0
    · have h1 : ¬(n + 1) % 8 = 7 := by omega
      rw [outsAt0_A V c ⟨n + 1, h⟩ h0 h1]
      dsimp only
      rw [sout0_A_eq]
      show _ = step0 (if (n + 1) % 8 = 0 then k0_pay1 else acc0 V c n _) _ _ _ _
      rw [if_pos h0]
    · by_cases h1 : (n + 1) % 8 = 7
      · rw [outsAt0_C V c ⟨n + 1, h⟩ h0 h1]
        dsimp only
        rw [sout0_C_eq]
        show step0 (outsAt0 V c n _).2 _ _ _ _ = step0 (if (n + 1) % 8 = 0 then k0_pay1 else acc0 V c n _) _ _ _ _
        rw [if_neg h0, outsAt0_snd c n]
      · rw [outsAt0_B V c ⟨n + 1, h⟩ h0 h1]
        dsimp only
        rw [sout0_B_eq]
        show step0 (outsAt0 V c n _).2 _ _ _ _ = step0 (if (n + 1) % 8 = 0 then k0_pay1 else acc0 V c n _) _ _ _ _
        rw [if_neg h0, outsAt0_snd c n]

/-- At the last position of a pass the output block is the maximum of the accumulator and zero. -/
theorem outsAt0_fst (c : Dev nD) (n : ℕ) (h : n + 1 < cfg0.N) (h1 : (n + 1) % 8 = 7) :
    (outsAt0 V c (n + 1) h).1 = k0_pay4 (acc0 V c (n + 1) h) := by
  have h0 : ¬(n + 1) % 8 = 0 := by omega
  rw [outsAt0_C V c ⟨n + 1, h⟩ h0 h1]
  dsimp only
  rw [out0_C_eq]
  show k0_pay4 (step0 (outsAt0 V c n _).2 _ _ _ _) = k0_pay4 (step0 (if (n + 1) % 8 = 0 then k0_pay1 else acc0 V c n _) _ _ _ _)
  rw [if_neg h0, outsAt0_snd V c n]

end

end Cert.KernelIdeal.Reg

end
-- ==== Proof.LibRowsDot.lean ====
/-
  A matrix product of two rank-2 operands that contracts the LAST axis of both (`x · yᵀ`), read at an entry.

  For dimension numbers `d` over operands of shapes [M, K] and [N, K] and a result of shape [M, N] whose one
  contracted axis is the second of each operand — given as the four coordinate facts of `d`'s operand index
  maps, which for a literal record are decided or read off `DotDims.lhsIdx_val_of_single` — a `tpu.matmul` into
  the zero accumulator at the ideal instance is, at entry (p, q),

      Σ_{k < K} lhs[p, k] · rhs[q, k].

  The contraction's index type is re-indexed to `Fin K` through `ValueIdx.contrEquiv1`.
-/
import Idealize.ShloMosaic.PureOps.Ideal.Laws
import Idealize.ShloMosaic.Lib.ValueIdx

noncomputable section

open scoped BigOperators

namespace Cert.Lora

open Idealize.ShloMosaic Idealize.ShloMosaic.ValueIdx

/-- `x · yᵀ` into the zero accumulator, at entry (p, q): the sum over the shared last axis of the products of row
    `p` of the left operand and row `q` of the right. The hypotheses say where the record's operand index maps
    read: the left operand at (row of the entry, contraction position), the right at (column of the entry,
    contraction position). -/
theorem rows_dot_zero {M N K : Nat} {φ₁ φ₂ : FTy}
    (d : DotDims ⟨2, ![M, K]⟩ ⟨2, ![N, K]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (j 1).val)
    (hr1 : ∀ (j : (⟨2, ![M, N]⟩ : Shape).Idx) (c : d.contr.Idx), (d.rhsIdx j c 1).val = (c ⟨0, by omega⟩).val)
    (lhs : FVec Ideal ⟨2, ![M, K]⟩ φ₁) (rhs : FVec Ideal ⟨2, ![N, K]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.Lora

end
-- ==== Proof.KI.R0Step.lean ====
/-
  Region 0 (the first dual matmul, grid 2 x 4 x 8): one step of the accumulation read at an entry on the extended reals. At entry (p, q) the
  step adds to the accumulator's entry the dot product of row p of the first left block with row q of the first right
  block, then that of the second pair: each tiled matrix product contracts the last axis of both operands into a zero
  accumulator. The zero block's entries are 0, and the output stage is a pointwise maximum with 0 (the change of
  float format is the identity on the extended reals).
-/
import proofs.«100784_j78125455114733_2_alg».proof.Proof.KI.R0Val
import proofs.«100784_j78125455114733_2_alg».proof.Proof.LibRowsDot
import Idealize.ShloMosaic.Lib.Pipeline.Value
import Idealize.ShloMosaic.Lib.ValueIdx
import Idealize.ShloMosaic.PureOps.Ideal.Laws

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
open scoped BigOperators

theorem dot0_l0 (j : S2048x1024.Idx) (q : dot_S2048x512_S1024x512_S2048x1024_1_1_0_0_n_n.contr.Idx) : (dot_S2048x512_S1024x512_S2048x1024_1_1_0_0_n_n.lhsIdx j q 0).val = (j 0).val := by
  unfold DotDims.lhsIdx
  rw [dif_neg (show ¬(0 : Fin S2048x512.rank) ∈ dot_S2048x512_S1024x512_S2048x1024_1_1_0_0_n_n.lhsBatch by decide), dif_pos (show (0 : Fin S2048x512.rank) ∈ dot_S2048x512_S1024x512_S2048x1024_1_1_0_0_n_n.lhsNonContracting by decide)]
  rfl
theorem dot0_l1 (j : S2048x1024.Idx) (q : dot_S2048x512_S1024x512_S2048x1024_1_1_0_0_n_n.contr.Idx) : (dot_S2048x512_S1024x512_S2048x1024_1_1_0_0_n_n.lhsIdx j q 1).val = (q ⟨0, by decide⟩).val :=
  dot_S2048x512_S1024x512_S2048x1024_1_1_0_0_n_n.lhsIdx_val_of_single rfl j q
theorem dot0_r0 (j : S2048x1024.Idx) (q : dot_S2048x512_S1024x512_S2048x1024_1_1_0_0_n_n.contr.Idx) : (dot_S2048x512_S1024x512_S2048x1024_1_1_0_0_n_n.rhsIdx j q 0).val = (j 1).val := by
  unfold DotDims.rhsIdx
  rw [dif_neg (show ¬(0 : Fin S1024x512.rank) ∈ dot_S2048x512_S1024x512_S2048x1024_1_1_0_0_n_n.rhsBatch by decide), dif_pos (show (0 : Fin S1024x512.rank) ∈ dot_S2048x512_S1024x512_S2048x1024_1_1_0_0_n_n.rhsNonContracting by decide)]
  rfl
theorem dot0_r1 (j : S2048x1024.Idx) (q : dot_S2048x512_S1024x512_S2048x1024_1_1_0_0_n_n.contr.Idx) : (dot_S2048x512_S1024x512_S2048x1024_1_1_0_0_n_n.rhsIdx j q 1).val = (q ⟨0, by decide⟩).val :=
  dot_S2048x512_S1024x512_S2048x1024_1_1_0_0_n_n.rhsIdx_val_of_single rfl j q

/-- One step at an entry: the accumulator's entry plus the two row-by-row dot products. -/
theorem step0_apply (acc : FVec Ideal S2048x1024 .f32) (x0 x1 : FVec Ideal S2048x512 .bf16) (x2 x3 : FVec Ideal S1024x512 .bf16)
    (p : Fin 2048) (q : Fin 1024) :
    step0 (F := Ideal) acc x0 x1 x2 x3 (ix2 p q)
      = acc (ix2 p q) + (∑ k : Fin 512, x0 (ix2 p k) * x2 (ix2 q k)) + (∑ k : Fin 512, x1 (ix2 p k) * x3 (ix2 q k)) := by
  unfold step0 k0_pay3 k0_pay2
  simp only [shapeCast_self]
  show FloatOps.addf (FloatOps.addf (acc (ix2 p q)) (FloatOps.matmul dot_S2048x512_S1024x512_S2048x1024_1_1_0_0_n_n none x0 x2 (constant (F := Ideal) S2048x1024 .f32 0x00000000#32) (ix2 p q)))
      (FloatOps.matmul dot_S2048x512_S1024x512_S2048x1024_1_1_0_0_n_n none x1 x3 (constant (F := Ideal) S2048x1024 .f32 0x00000000#32) (ix2 p q)) = _
  rw [Cert.Lora.rows_dot_zero dot_S2048x512_S1024x512_S2048x1024_1_1_0_0_n_n none rfl rfl dot0_l0 dot0_l1 dot0_r0 dot0_r1 x0 x2 p q,
    Cert.Lora.rows_dot_zero dot_S2048x512_S1024x512_S2048x1024_1_1_0_0_n_n none rfl rfl dot0_l0 dot0_l1 dot0_r0 dot0_r1 x1 x3 p q]
  rfl

/-- The zero block's entries are the number 0. -/
theorem pay1_0_apply (j : S2048x1024.Idx) : k0_pay1 (F := Ideal) j = 0 := by
  unfold k0_pay1
  simp only [shapeCast_self]
  exact Ideal.ofBits_zero_f32

/-- The output stage at an entry: the maximum of the accumulator's entry and 0. -/
theorem pay4_0_apply (v : FVec Ideal S2048x1024 .f32) (j : S2048x1024.Idx) : k0_pay4 (F := Ideal) v j = max (v j) 0 := by
  unfold k0_pay4
  show max (v j) (Ideal.ofBits .f32 0x00000000#32) = _
  rw [Ideal.ofBits_zero_f32]

end Cert.KernelIdeal.Reg

end
-- ==== Proof.LibPartialDot.lean ====
/-
  The dot product of two matrix rows accumulated block by block along the shared axis, on the extended reals.

  A tiled matrix product that walks the contraction axis in blocks keeps a running total: it starts at zero and each
  step adds the products over one more block of columns. Stated over natural-number coordinates, so that the block
  offsets of a tiling are plain arithmetic:

  * `at2 a r c` is entry (r, c) of a matrix, zero outside it;
  * `pdot a b r c n` is Σ_{k < n} a[r, k] · b[c, k], row r of `a` against row c of `b` over the first n columns;
  * over no columns it is zero (`pdot_zero`); one more block of `len` columns adds that block's sum
    (`pdot_add_block`); over all K columns it is the whole sum Σ_k a[r, k] · b[c, k] (`pdot_full`).

  Only associativity and commutativity of addition are used, so nothing needs to be finite.

  Also: a factor that is a one-bit mask read as the number 0 or 1 selects (`mask_mul`), because 0 · v = 0 and
  1 · v = v for every extended real v, the infinities included.
-/
import Idealize.ShloMosaic.PureOps.Ideal
import Idealize.ShloMosaic.PureOps.Ideal.Laws
import Idealize.ShloMosaic.Lib.ValueIdx

noncomputable section

open scoped BigOperators

namespace Cert.PartialDot

open Idealize.ShloMosaic Idealize.ShloMosaic.ValueIdx

/-! ## Matrix entries by natural-number coordinates -/

/-- Entry (r, c) of a matrix, the coordinates given as natural numbers; zero outside the matrix. -/
def at2 {R C : ℕ} (a : (⟨2, ![R, C]⟩ : Shape).Idx → EReal) (r c : ℕ) : EReal :=
  if h : r < R ∧ c < C then a (ix2 ⟨r, h.1⟩ ⟨c, h.2⟩) else 0

/-- Inside the matrix it is the entry. -/
theorem at2_val {R C : ℕ} (a : (⟨2, ![R, C]⟩ : Shape).Idx → EReal) (r : Fin R) (c : Fin C) :
    at2 a r.val c.val = a (ix2 r c) := dif_pos ⟨r.isLt, c.isLt⟩

/-- The same with the bounds given separately. -/
theorem at2_of_lt {R C : ℕ} (a : (⟨2, ![R, C]⟩ : Shape).Idx → EReal) (r c : ℕ) (hr : r < R) (hc : c < C) :
    at2 a r c = a (ix2 ⟨r, hr⟩ ⟨c, hc⟩) := dif_pos ⟨hr, hc⟩

/-! ## The dot product of two rows over the first n columns -/

/-- Row r of `a` against row c of `b`, over columns 0 … n − 1. -/
def pdot {R N K : ℕ} (a : (⟨2, ![R, K]⟩ : Shape).Idx → EReal) (b : (⟨2, ![N, K]⟩ : Shape).Idx → EReal)
    (r c n : ℕ) : EReal :=
  ∑ k ∈ Finset.range n, at2 a r k * at2 b c k

/-- Over no columns it is zero. -/
theorem pdot_zero {R N K : ℕ} (a : (⟨2, ![R, K]⟩ : Shape).Idx → EReal) (b : (⟨2, ![N, K]⟩ : Shape).Idx → EReal)
    (r c : ℕ) : pdot a b r c 0 = 0 := Finset.sum_range_zero _

/-- One more block of `len` columns adds that block's sum. -/
theorem pdot_add_block {R N K : ℕ} (a : (⟨2, ![R, K]⟩ : Shape).Idx → EReal) (b : (⟨2, ![N, K]⟩ : Shape).Idx → EReal)
    (r c kk len : ℕ) :
    pdot a b r c (kk * len) + ∑ κ : Fin len, at2 a r (kk * len + κ.val) * at2 b c (kk * len + κ.val)
      = pdot a b r c ((kk + 1) * len) := by
  unfold pdot
  rw [Nat.add_one_mul, Finset.sum_range_add, Finset.sum_range (fun x => at2 a r (kk * len + x) * at2 b c (kk * len + x))]

/-- Over all K columns it is the whole sum. -/
theorem pdot_full {R N K : ℕ} (a : (⟨2, ![R, K]⟩ : Shape).Idx → EReal) (b : (⟨2, ![N, K]⟩ : Shape).Idx → EReal)
    (r : Fin R) (c : Fin N) : pdot a b r.val c.val K = ∑ k : Fin K, a (ix2 r k) * b (ix2 c k) := by
  unfold pdot
  rw [Finset.sum_range (fun k => at2 a r.val k * at2 b c.val k)]
  exact Finset.sum_congr rfl fun k _ => by rw [at2_val, at2_val]

/-! ## A mask bit as a factor -/

/-- Multiplying by a mask bit read as the number 0 or 1 selects: 0 · v = 0 and 1 · v = v on all extended reals. -/
theorem mask_mul (b : BitVec 1) (v : EReal) : ((b.toNat : ℝ) : EReal) * v = Scalar.select b v 0 := by
  rcases (by decide : ∀ b : BitVec 1, b = 0#1 ∨ b = 1#1) b with rfl | rfl
  · rw [select_zero]; simp
  · rw [select_one]; simp

end Cert.PartialDot

end
-- ==== Proof.KI.R0Final.lean ====
/-
  Region 0 (the first dual matmul, grid 2 x 4 x 8) on the extended reals: its output array after the run. With the arrays the region finds
  written a1, a2 (left operands, read by rows) and b1, b2 (right operands, read by rows), a grid point t works on
  the row block I(t) of the left operands, the row block J(t) of the right operands and the column block t mod 8 of
  all four. After position n the accumulator's entry (p, q) is the dot product of row I·2048 + p of a1 with row
  J·1024 + q of b1 over the first (n mod 8 + 1)·512 columns, plus the same for a2 and b2: each step adds one
  more column block of both products, and addition on the extended reals is associative and commutative. At the
  last position of a pass all 4096 columns are in, and the maximum with 0 is written back to block (I, J) of
  the output array; these blocks tile it.
-/
import proofs.«100784_j78125455114733_2_alg».proof.Proof.KI.R0Acc
import proofs.«100784_j78125455114733_2_alg».proof.Proof.KI.R0Step
import proofs.«100784_j78125455114733_2_alg».proof.Proof.LibPartialDot

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
open Cert.PartialDot
open scoped BigOperators

section
variable (V : (c : Dev nD) → (b : Ref sig .tc) → Buf (Elt Ideal) ((c : Thread nD τ).loc b))

/-- The four operand arrays as the region finds them. -/
abbrev a1_0 (c : Dev nD) : S4096x4096.Idx → EReal := V c main_v13
abbrev a2_0 (c : Dev nD) : S4096x4096.Idx → EReal := V c main_v12
abbrev b1_0 (c : Dev nD) : S4096x4096.Idx → EReal := V c main_v15
abbrev b2_0 (c : Dev nD) : S4096x4096.Idx → EReal := V c main_v17

/-- The windows' block indices at a point, decided over the grid. -/
theorem idx0 : ∀ t : Fin cfg0.N, win0_0.index t (0 : Fin 2) = t.val / 32 ∧ win0_0.index t (1 : Fin 2) = t.val % 8 ∧ win0_1.index t (0 : Fin 2) = t.val / 32 ∧ win0_1.index t (1 : Fin 2) = t.val % 8 ∧ win0_2.index t (0 : Fin 2) = t.val / 8 % 4 ∧ win0_2.index t (1 : Fin 2) = t.val % 8 ∧ win0_3.index t (0 : Fin 2) = t.val / 8 % 4 ∧ win0_3.index t (1 : Fin 2) = t.val % 8 ∧ win0_4.index t (0 : Fin 2) = t.val / 32 ∧ win0_4.index t (1 : Fin 2) = t.val / 8 % 4 :=
  (by decide +kernel : ∀ t : Fin grid0.N, _)

/-! ## The input blocks as entries of their arrays -/

/-- The four input blocks at a point, as vectors of extended reals. -/
abbrev ib0_0 (c : Dev nD) (t : Fin cfg0.N) : FVec Ideal S2048x512 .bf16 := iblk0 V c 0 t
abbrev ib0_1 (c : Dev nD) (t : Fin cfg0.N) : FVec Ideal S2048x512 .bf16 := iblk0 V c 1 t
abbrev ib0_2 (c : Dev nD) (t : Fin cfg0.N) : FVec Ideal S1024x512 .bf16 := iblk0 V c 2 t
abbrev ib0_3 (c : Dev nD) (t : Fin cfg0.N) : FVec Ideal S1024x512 .bf16 := iblk0 V c 3 t

theorem iblk0_0_apply (c : Dev nD) (t : Fin cfg0.N) (p : Fin 2048) (k : Fin 512) :
    ib0_0 V c t (ix2 p k) = at2 (a1_0 V c) (t.val / 32 * 2048 + p.val) (t.val % 8 * 512 + k.val) := by
  obtain ⟨e00, e01, e10, e11, e20, e21, e30, e31, e40, e41⟩ := idx0 t
  have hN : t.val < 64 := lt_of_lt_of_eq t.isLt N_0
  have hp := p.isLt
  have hk := k.isLt
  rw [at2_of_lt _ _ _ (by omega) (by omega)]
  unfold ib0_0 iblk0
  rw [View.read_apply]
  show V c main_v13 _ = V c main_v13 _
  refine congrArg _ (funext fun a => Fin.ext ?_)
  match a with
  | ⟨0, _⟩ => show win0_0.index t (0 : Fin 2) * 2048 + 1 * p.val = t.val / 32 * 2048 + p.val; rw [e00]; omega
  | ⟨1, _⟩ => show win0_0.index t (1 : Fin 2) * 512 + 1 * k.val = t.val % 8 * 512 + k.val; rw [e01]; omega

theorem iblk0_1_apply (c : Dev nD) (t : Fin cfg0.N) (p : Fin 2048) (k : Fin 512) :
    ib0_1 V c t (ix2 p k) = at2 (a2_0 V c) (t.val / 32 * 2048 + p.val) (t.val % 8 * 512 + k.val) := by
  obtain ⟨e00, e01, e10, e11, e20, e21, e30, e31, e40, e41⟩ := idx0 t
  have hN : t.val < 64 := lt_of_lt_of_eq t.isLt N_0
  have hp := p.isLt
  have hk := k.isLt
  rw [at2_of_lt _ _ _ (by omega) (by omega)]
  unfold ib0_1 iblk0
  rw [View.read_apply]
  show V c main_v12 _ = V c main_v12 _
  refine congrArg _ (funext fun a => Fin.ext ?_)
  match a with
  | ⟨0, _⟩ => show win0_1.index t (0 : Fin 2) * 2048 + 1 * p.val = t.val / 32 * 2048 + p.val; rw [e10]; omega
  | ⟨1, _⟩ => show win0_1.index t (1 : Fin 2) * 512 + 1 * k.val = t.val % 8 * 512 + k.val; rw [e11]; omega

theorem iblk0_2_apply (c : Dev nD) (t : Fin cfg0.N) (p : Fin 1024) (k : Fin 512) :
    ib0_2 V c t (ix2 p k) = at2 (b1_0 V c) (t.val / 8 % 4 * 1024 + p.val) (t.val % 8 * 512 + k.val) := by
  obtain ⟨e00, e01, e10, e11, e20, e21, e30, e31, e40, e41⟩ := idx0 t
  have hN : t.val < 64 := lt_of_lt_of_eq t.isLt N_0
  have hp := p.isLt
  have hk := k.isLt
  rw [at2_of_lt _ _ _ (by omega) (by omega)]
  unfold ib0_2 iblk0
  rw [View.read_apply]
  show V c main_v15 _ = V c main_v15 _
  refine congrArg _ (funext fun a => Fin.ext ?_)
  match a with
  | ⟨0, _⟩ => show win0_2.index t (0 : Fin 2) * 1024 + 1 * p.val = t.val / 8 % 4 * 1024 + p.val; rw [e20]; omega
  | ⟨1, _⟩ => show win0_2.index t (1 : Fin 2) * 512 + 1 * k.val = t.val % 8 * 512 + k.val; rw [e21]; omega

theorem iblk0_3_apply (c : Dev nD) (t : Fin cfg0.N) (p : Fin 1024) (k : Fin 512) :
    ib0_3 V c t (ix2 p k) = at2 (b2_0 V c) (t.val / 8 % 4 * 1024 + p.val) (t.val % 8 * 512 + k.val) := by
  obtain ⟨e00, e01, e10, e11, e20, e21, e30, e31, e40, e41⟩ := idx0 t
  have hN : t.val < 64 := lt_of_lt_of_eq t.isLt N_0
  have hp := p.isLt
  have hk := k.isLt
  rw [at2_of_lt _ _ _ (by omega) (by omega)]
  unfold ib0_3 iblk0
  rw [View.read_apply]
  show V c main_v17 _ = V c main_v17 _
  refine congrArg _ (funext fun a => Fin.ext ?_)
  match a with
  | ⟨0, _⟩ => show win0_3.index t (0 : Fin 2) * 1024 + 1 * p.val = t.val / 8 % 4 * 1024 + p.val; rw [e30]; omega
  | ⟨1, _⟩ => show win0_3.index t (1 : Fin 2) * 512 + 1 * k.val = t.val % 8 * 512 + k.val; rw [e31]; omega

/-! ## The accumulator as two partial dot products -/

/-- One step adds the point's column block to both partial dot products. -/
theorem step0_pdot (c : Dev nD) (t : Fin cfg0.N) (s : FVec Ideal S2048x1024 .f32) (p : Fin 2048) (q : Fin 1024)
    (hs : s (ix2 p q) = pdot (a1_0 V c) (b1_0 V c) (t.val / 32 * 2048 + p.val) (t.val / 8 % 4 * 1024 + q.val) (t.val % 8 * 512)
      + pdot (a2_0 V c) (b2_0 V c) (t.val / 32 * 2048 + p.val) (t.val / 8 % 4 * 1024 + q.val) (t.val % 8 * 512)) :
    step0 (F := Ideal) s (iblk0 V c 0 t) (iblk0 V c 1 t) (iblk0 V c 2 t) (iblk0 V c 3 t) (ix2 p q)
      = pdot (a1_0 V c) (b1_0 V c) (t.val / 32 * 2048 + p.val) (t.val / 8 % 4 * 1024 + q.val) ((t.val % 8 + 1) * 512)
      + pdot (a2_0 V c) (b2_0 V c) (t.val / 32 * 2048 + p.val) (t.val / 8 % 4 * 1024 + q.val) ((t.val % 8 + 1) * 512) := by
  refine (step0_apply s _ _ _ _ p q).trans ?_
  rw [hs, ← pdot_add_block (a1_0 V c) (b1_0 V c) _ _ (t.val % 8) 512, ← pdot_add_block (a2_0 V c) (b2_0 V c) _ _ (t.val % 8) 512]
  have e1 : (∑ k : Fin 512, ib0_0 V c t (ix2 p k) * ib0_2 V c t (ix2 q k))
      = ∑ κ : Fin 512, at2 (a1_0 V c) (t.val / 32 * 2048 + p.val) (t.val % 8 * 512 + κ.val) * at2 (b1_0 V c) (t.val / 8 % 4 * 1024 + q.val) (t.val % 8 * 512 + κ.val) :=
    Finset.sum_congr rfl fun k _ => by rw [iblk0_0_apply, iblk0_2_apply]
  have e2 : (∑ k : Fin 512, ib0_1 V c t (ix2 p k) * ib0_3 V c t (ix2 q k))
      = ∑ κ : Fin 512, at2 (a2_0 V c) (t.val / 32 * 2048 + p.val) (t.val % 8 * 512 + κ.val) * at2 (b2_0 V c) (t.val / 8 % 4 * 1024 + q.val) (t.val % 8 * 512 + κ.val) :=
    Finset.sum_congr rfl fun k _ => by rw [iblk0_1_apply, iblk0_3_apply]
  rw [e1, e2]
  rw [add_assoc]
  exact add_add_add_comm _ _ _ _

/-- The accumulator after position n, entry by entry. -/
theorem acc0_apply (c : Dev nD) : ∀ (n : ℕ) (h : n < cfg0.N) (p : Fin 2048) (q : Fin 1024),
    acc0 V c n h (ix2 p q)
      = pdot (a1_0 V c) (b1_0 V c) (n / 32 * 2048 + p.val) (n / 8 % 4 * 1024 + q.val) ((n % 8 + 1) * 512)
      + pdot (a2_0 V c) (b2_0 V c) (n / 32 * 2048 + p.val) (n / 8 % 4 * 1024 + q.val) ((n % 8 + 1) * 512)
  | 0, h, p, q => by
    show step0 (F := Ideal) (k0_pay1 (F := Ideal)) (iblk0 V c 0 ⟨0, h⟩) (iblk0 V c 1 ⟨0, h⟩) (iblk0 V c 2 ⟨0, h⟩) (iblk0 V c 3 ⟨0, h⟩) (ix2 p q) = _
    refine step0_pdot V c ⟨0, h⟩ _ p q ?_
    rw [pay1_0_apply]
    show (0 : EReal) = pdot _ _ _ _ (0 % 8 * 512) + pdot _ _ _ _ (0 % 8 * 512)
    rw [show 0 % 8 * 512 = 0 from rfl, pdot_zero, pdot_zero, add_zero]
  | n + 1, h, p, q => by
    have hN : n + 1 < 64 := lt_of_lt_of_eq h N_0
    show step0 (F := Ideal) (if (n + 1) % 8 = 0 then (k0_pay1 (F := Ideal)) else acc0 V c n _) (iblk0 V c 0 ⟨n + 1, h⟩) (iblk0 V c 1 ⟨n + 1, h⟩) (iblk0 V c 2 ⟨n + 1, h⟩) (iblk0 V c 3 ⟨n + 1, h⟩) (ix2 p q) = _
    refine step0_pdot V c ⟨n + 1, h⟩ _ p q ?_
    show _ = pdot _ _ ((n + 1) / 32 * 2048 + p.val) ((n + 1) / 8 % 4 * 1024 + q.val) ((n + 1) % 8 * 512)
      + pdot _ _ ((n + 1) / 32 * 2048 + p.val) ((n + 1) / 8 % 4 * 1024 + q.val) ((n + 1) % 8 * 512)
    by_cases h0 : (n + 1) % 8 = 0
    · rw [if_pos h0, pay1_0_apply, h0, Nat.zero_mul, pdot_zero, pdot_zero, add_zero]
    · rw [if_neg h0, acc0_apply c n _ p q]
      have e1 : (n + 1) / 32 = n / 32 := by omega
      have e2 : (n + 1) / 8 % 4 = n / 8 % 4 := by omega
      have e3 : (n + 1) % 8 = n % 8 + 1 := by omega
      rw [e1, e2, e3]

/-! ## The output array -/

/-- The output array after the run, entry by entry: the maximum with 0 of the two whole dot products. -/
def outFn0 (c : Dev nD) : S4096x4096.Idx → EReal := fun i =>
  max (pdot (a1_0 V c) (b1_0 V c) (i 0).val (i 1).val 4096 + pdot (a2_0 V c) (b2_0 V c) (i 0).val (i 1).val 4096) 0

/-- What the last position of a pass writes back is its block of that array. -/
theorem flushed0_eq (c : Dev nD) (t : Fin cfg0.N) (hf : (cfg0.win 4).flush t = true) :
    (dat0 V c).flushed 4 t = ((cfg0.win 4).blk t).view.read (Elt Ideal) (outFn0 V c) := by
  have hL : t.val % 8 = 7 := (flush0_4 t).mp hf
  obtain ⟨tv, ht⟩ := t
  obtain ⟨n, rfl⟩ : ∃ n, tv = n + 1 := ⟨tv - 1, by dsimp only at hL; omega⟩
  dsimp only at hL
  have hN : n + 1 < 64 := lt_of_lt_of_eq ht N_0
  show (cfg0.win 4).cut (grid0.coords ⟨n + 1, ht⟩) ((dat0 V c).after 4 ⟨n + 1, ht⟩) = _
  rw [after0_4]
  show (cfg0.win 4).cut (grid0.coords ⟨n + 1, ht⟩) ((outsAt0 V c (n + 1) ht).1) = _
  rw [outsAt0_fst V c n ht hL]
  funext j
  have hj0 : (j 0).val < 2048 := (j 0).isLt
  have hj1 : (j 1).val < 1024 := (j 1).isLt
  have e : (cfg0.win 4).xinj (grid0.coords ⟨n + 1, ht⟩) j = ix2 (⟨(j 0).val, hj0⟩ : Fin 2048) (⟨(j 1).val, hj1⟩ : Fin 1024) :=
    funext fun a => Fin.ext (by match a with | ⟨0, _⟩ => rfl | ⟨1, _⟩ => rfl)
  show k0_pay4 (F := Ideal) (acc0 V c (n + 1) ht) ((cfg0.win 4).xinj (grid0.coords ⟨n + 1, ht⟩) j)
    = outFn0 V c (((cfg0.win 4).blk ⟨n + 1, ht⟩).view.emb j)
  rw [e, pay4_0_apply, acc0_apply]
  obtain ⟨e00, e01, e10, e11, e20, e21, e30, e31, e40, e41⟩ := idx0 ⟨n + 1, ht⟩
  dsimp only at e40 e41
  unfold outFn0
  have r0 : ((((cfg0.win 4).blk ⟨n + 1, ht⟩).view.emb j) 0).val = win0_4.index ⟨n + 1, ht⟩ (0 : Fin 2) * 2048 + 1 * (j 0).val := rfl
  have r1 : ((((cfg0.win 4).blk ⟨n + 1, ht⟩).view.emb j) 1).val = win0_4.index ⟨n + 1, ht⟩ (1 : Fin 2) * 1024 + 1 * (j 1).val := rfl
  rw [r0, r1, e40, e41, hL, Nat.one_mul, Nat.one_mul]

/-- An index of the array is in a point's block iff each coordinate is in the block's range. -/
theorem mem_blk0 (t : Fin cfg0.N) (i : S4096x4096.Idx) :
    i ∈ ((cfg0.win 4).blk t).view.set ↔ ∀ a : Fin 2, win0_4.index t a * S2048x1024.size a ≤ (i a).val ∧ (i a).val < win0_4.index t a * S2048x1024.size a + S2048x1024.size a := by
  show i ∈ ((View.whole main_v22).slice (win0_4.rect t)).set ↔ _
  rw [View.set_slice_whole, Rect.mem_set_unit]
  exact Iff.rfl

/-- The written-back blocks tile the array: entry (r, s) is in the block of the last position of its pass. -/
theorem cover0 (i : S4096x4096.Idx) : ∃ t : Fin cfg0.N, (cfg0.win 4).flush t = true ∧ i ∈ ((cfg0.win 4).blk t).view.set := by
  have hi0 : (i 0).val < 4096 := (i 0).isLt
  have hi1 : (i 1).val < 4096 := (i 1).isLt
  have hb : (i 0).val / 2048 * 32 + (i 1).val / 1024 * 8 + 7 < cfg0.N := by rw [show cfg0.N = 64 from N_0]; omega
  obtain ⟨e00, e01, e10, e11, e20, e21, e30, e31, e40, e41⟩ := idx0 ⟨(i 0).val / 2048 * 32 + (i 1).val / 1024 * 8 + 7, hb⟩
  dsimp only at e40 e41
  refine ⟨⟨(i 0).val / 2048 * 32 + (i 1).val / 1024 * 8 + 7, hb⟩, (flush0_4 _).mpr (by dsimp only; omega), ?_⟩
  rw [mem_blk0]
  intro a
  match a with
  | ⟨0, _⟩ => show win0_4.index _ (0 : Fin 2) * 2048 ≤ (i 0).val ∧ (i 0).val < win0_4.index _ (0 : Fin 2) * 2048 + 2048; rw [e40]; omega
  | ⟨1, _⟩ => show win0_4.index _ (1 : Fin 2) * 1024 ≤ (i 1).val ∧ (i 1).val < win0_4.index _ (1 : Fin 2) * 1024 + 1024; rw [e41]; omega

/-- So the output array ends holding that function. -/
theorem final0 (c : Dev nD) : (dat0 V c).arrAt 4 cfg0.N = outFn0 V c :=
  (dat0 V c).arrAt_eq_of_cover 4 (outFn0 V c) (flushed0_eq V c) (cover0)

/-- Entry by entry, over whole rows: relu of the two full dot products. -/
theorem outFn0_apply (c : Dev nD) (p : Fin 4096) (q : Fin 4096) :
    outFn0 V c (ix2 p q) = max ((∑ k : Fin 4096, a1_0 V c (ix2 p k) * b1_0 V c (ix2 q k)) + ∑ k : Fin 4096, a2_0 V c (ix2 p k) * b2_0 V c (ix2 q k)) 0 := by
  unfold outFn0
  show max (pdot _ _ p.val q.val 4096 + pdot _ _ p.val q.val 4096) 0 = _
  rw [pdot_full, pdot_full]

end

end Cert.KernelIdeal.Reg

end
-- ==== Proof.KI.R1Val.lean ====
/-
  Region 1 (the second dual matmul, grid 4 x 1 x 4): what each control case leaves, read back as values. One step of the accumulation adds to the
  accumulator the product of the first pair of blocks, then the product of the second pair. The first contraction
  position steps from the zero block, the others from what the point before left; the last position also stores the
  maximum of the stepped accumulator and zero into the output block.
-/
import proofs.«100784_j78125455114733_2_alg».proof.Proof.KI.R1Dat
import proofs.«100784_j78125455114733_2_alg».proof.Proof.KI.ViewLast

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- One step of the accumulation: the accumulator plus the two partial products of the point's blocks. -/
def step1 (acc : Vec F S1024x256 .f32) (x0 : Vec F S1024x1024 .bf16) (x1 : Vec F S1024x1024 .bf16) (x2 : Vec F S256x1024 .bf16) (x3 : Vec F S256x1024 .bf16) : Vec F S1024x256 .f32 :=
  k1_pay3 (k1_pay2 acc x0 x2) x1 x3

theorem sout1_B_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : ¬cond1_1 i)
    (x0 : Vec F S1024x1024 .bf16) (x1 : Vec F S1024x1024 .bf16) (x2 : Vec F S256x1024 .bf16) (x3 : Vec F S256x1024 .bf16) (xs0 : Vec F S1024x256 .f32) :
    sout1_B c i arg3 harg3 arg4 harg4 arg5 harg5 arg6 harg6 arg7 harg7 arg8 harg8 hc0 hc1 x0 x1 x2 x3 xs0 = step1 xs0 x0 x1 x2 x3 := by
  unfold sout1_B step1
  rw [View.read_writes_eq_canon _ _ _ (scover1_B c i arg3 harg3 arg4 harg4 arg5 harg5 arg6 harg6 arg7 harg7 arg8 harg8 hc0 hc1 x0 x1 x2 x3 xs0)]
  unfold kernelRun1_B
  dsimp only
  sl_unfold_words
  rw [View.canon_cons_unit_zero (S := S1024x256) hz2]
  simp only [readCov_cons_unit_zero (S := S1024x256) _ hz2, View.readCov_unit_zero (S := S1024x256) _ hz2, View.readAt_eq_ld, harg3.read_unread, harg4.read_unread, harg5.read_unread, harg6.read_unread, harg8.read_unread, View.ld_unit_zero (S := S1024x1024) hz2, View.ld_unit_zero (S := S256x1024) hz2, View.ld_unit_zero (S := S1024x256) hz2]

theorem sout1_A_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1024x256 .f32) (harg7 : arg7.IsWhole) (arg8 : Memref sig .tc .vmem S1024x256 .f32) (harg8 : arg8.IsWhole) (hc0 : cond1_0 i) (hc1 : ¬cond1_1 i)
    (x0 : Vec F S1024x1024 .bf16) (x1 : Vec F S1024x1024 .bf16) (x2 : Vec F S256x1024 .bf16) (x3 : Vec F S256x1024 .bf16) :
    sout1_A c i arg3 harg3 arg4 harg4 arg5 harg5 arg6 harg6 arg7 harg7 arg8 harg8 hc0 hc1 x0 x1 x2 x3 = step1 k1_pay1 x0 x1 x2 x3 := by
  unfold sout1_A step1
  rw [View.read_writes_eq_canon _ _ _ (scover1_A c i arg3 harg3 arg4 harg4 arg5 harg5 arg6 harg6 arg7 harg7 arg8 harg8 hc0 hc1 x0 x1 x2 x3)]
  unfold kernelRun1_A
  dsimp only
  sl_unfold_words
  rw [View.canon_cons_unit_zero (S := S1024x256) hz2]
  simp only [readCov_cons_unit_zero (S := S1024x256) _ hz2, View.readCov_unit_zero (S := S1024x256) _ hz2, View.readAt_eq_ld, harg3.read_unread, harg4.read_unread, harg5.read_unread, harg6.read_unread, harg8.read_unread, View.ld_unit_zero (S := S1024x1024) hz2, View.ld_unit_zero (S := S256x1024) hz2, View.ld_unit_zero (S := S1024x256) hz2]

theorem sout1_C_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i)
    (x0 : Vec F S1024x1024 .bf16) (x1 : Vec F S1024x1024 .bf16) (x2 : Vec F S256x1024 .bf16) (x3 : Vec F S256x1024 .bf16) (xs0 : Vec F S1024x256 .f32) :
    sout1_C c i arg3 harg3 arg4 harg4 arg5 harg5 arg6 harg6 arg7 harg7 arg8 harg8 hc0 hc1 x0 x1 x2 x3 xs0 = step1 xs0 x0 x1 x2 x3 := by
  unfold sout1_C step1
  rw [View.read_writes_eq_canon _ _ _ (scover1_C c i arg3 harg3 arg4 harg4 arg5 harg5 arg6 harg6 arg7 harg7 arg8 harg8 hc0 hc1 x0 x1 x2 x3 xs0)]
  unfold kernelRun1_C
  dsimp only
  sl_unfold_words
  rw [View.canon_cons_unit_zero (S := S1024x256) hz2]
  simp only [readCov_cons_unit_zero (S := S1024x256) _ hz2, View.readCov_unit_zero (S := S1024x256) _ hz2, View.readAt_eq_ld, harg3.read_unread, harg4.read_unread, harg5.read_unread, harg6.read_unread, harg8.read_unread, View.ld_unit_zero (S := S1024x1024) hz2, View.ld_unit_zero (S := S256x1024) hz2, View.ld_unit_zero (S := S1024x256) hz2]

theorem out1_C_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1024x256 .f32) (harg7 : arg7.IsWhole) (arg8 : Memref sig .tc .vmem S1024x256 .f32) (harg8 : arg8.IsWhole) (hc0 : ¬cond1_0 i) (hc1 : cond1_1 i)
    (x0 : Vec F S1024x1024 .bf16) (x1 : Vec F S1024x1024 .bf16) (x2 : Vec F S256x1024 .bf16) (x3 : Vec F S256x1024 .bf16) (xs0 : Vec F S1024x256 .f32) :
    out1_C c i arg3 harg3 arg4 harg4 arg5 harg5 arg6 harg6 arg7 harg7 arg8 harg8 hc0 hc1 x0 x1 x2 x3 xs0 = k1_pay4 (step1 xs0 x0 x1 x2 x3) := by
  unfold out1_C step1
  rw [View.read_writes_eq_canon _ _ _ (cover1_C c i arg3 harg3 arg4 harg4 arg5 harg5 arg6 harg6 arg7 harg7 arg8 harg8 hc0 hc1 x0 x1 x2 x3 xs0)]
  unfold kernelRun1_C
  dsimp only
  sl_unfold_words
  rw [View.canon_unit_zero (S := S1024x256) hz2]
  simp only [readCov_cons_unit_zero (S := S1024x256) _ hz2, View.readCov_unit_zero (S := S1024x256) _ hz2, View.readAt_eq_ld, harg3.read_unread, harg4.read_unread, harg5.read_unread, harg6.read_unread, harg8.read_unread, View.ld_unit_zero (S := S1024x1024) hz2, View.ld_unit_zero (S := S256x1024) hz2, View.ld_unit_zero (S := S1024x256) hz2]

end Cert.KernelIdeal.Reg

end
-- ==== Proof.KI.R1Acc.lean ====
/-
  Region 1 (the second dual matmul, grid 4 x 1 x 4): the accumulation in closed recursive form. After position n the accumulator holds one step
  from the zero block where n starts a new pass along the contraction axis (n mod 4 = 0), and one step from what
  position n - 1 left otherwise; at the last position of a pass the output block holds the maximum of that and zero.
-/
import proofs.«100784_j78125455114733_2_alg».proof.Proof.KI.R1Val

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The accumulator after position n. -/
def acc1 (c : Dev nD) : (n : ℕ) → n < cfg1.N → Vec F S1024x256 .f32
  | 0, h => step1 k1_pay1 (iblk1 V c 0 ⟨0, h⟩) (iblk1 V c 1 ⟨0, h⟩) (iblk1 V c 2 ⟨0, h⟩) (iblk1 V c 3 ⟨0, h⟩)
  | n + 1, h => step1 (if (n + 1) % 4 = 0 then k1_pay1 else acc1 c n (Nat.lt_of_succ_lt h)) (iblk1 V c 0 ⟨n + 1, h⟩) (iblk1 V c 1 ⟨n + 1, h⟩) (iblk1 V c 2 ⟨n + 1, h⟩) (iblk1 V c 3 ⟨n + 1, h⟩)

theorem outsAt1_snd (c : Dev nD) : ∀ (n : ℕ) (h : n < cfg1.N), (outsAt1 V c n h).2 = acc1 V c n h
  | 0, h => by
    rw [outsAt1_A V c ⟨0, h⟩ rfl (by show ¬(0 % 4 = 3); decide)]
    dsimp only
    rw [sout1_A_eq]
    rfl
  | n + 1, h => by
    by_cases h0 : (n + 1) % 4 = 0
    · have h1 : ¬(n + 1) % 4 = 3 := by omega
      rw [outsAt1_A V c ⟨n + 1, h⟩ h0 h1]
      dsimp only
      rw [sout1_A_eq]
      show _ = step1 (if (n + 1) % 4 = 0 then k1_pay1 else acc1 V c n _) _ _ _ _
      rw [if_pos h0]
    · by_cases h1 : (n + 1) % 4 = 3
      · rw [outsAt1_C V c ⟨n + 1, h⟩ h0 h1]
        dsimp only
        rw [sout1_C_eq]
        show step1 (outsAt1 V c n _).2 _ _ _ _ = step1 (if (n + 1) % 4 = 0 then k1_pay1 else acc1 V c n _) _ _ _ _
        rw [if_neg h0, outsAt1_snd c n]
      · rw [outsAt1_B V c ⟨n + 1, h⟩ h0 h1]
        dsimp only
        rw [sout1_B_eq]
        show step1 (outsAt1 V c n _).2 _ _ _ _ = step1 (if (n + 1) % 4 = 0 then k1_pay1 else acc1 V c n _) _ _ _ _
        rw [if_neg h0, outsAt1_snd c n]

/-- At the last position of a pass the output block is the maximum of the accumulator and zero. -/
theorem outsAt1_fst (c : Dev nD) (n : ℕ) (h : n + 1 < cfg1.N) (h1 : (n + 1) % 4 = 3) :
    (outsAt1 V c (n + 1) h).1 = k1_pay4 (acc1 V c (n + 1) h) := by
  have h0 : ¬(n + 1) % 4 = 0 := by omega
  rw [outsAt1_C V c ⟨n + 1, h⟩ h0 h1]
  dsimp only
  rw [out1_C_eq]
  show k1_pay4 (step1 (outsAt1 V c n _).2 _ _ _ _) = k1_pay4 (step1 (if (n + 1) % 4 = 0 then k1_pay1 else acc1 V c n _) _ _ _ _)
  rw [if_neg h0, outsAt1_snd V c n]

end

end Cert.KernelIdeal.Reg

end
-- ==== Proof.KI.R1Step.lean ====
/-
  Region 1 (the second dual matmul, grid 4 x 1 x 4): one step of the accumulation read at an entry on the extended reals. At entry (p, q) the
  step adds to the accumulator's entry the dot product of row p of the first left block with row q of the first right
  block, then that of the second pair: each tiled matrix product contracts the last axis of both operands into a zero
  accumulator. The zero block's entries are 0, and the output stage is a pointwise maximum with 0 (the change of
  float format is the identity on the extended reals).
-/
import proofs.«100784_j78125455114733_2_alg».proof.Proof.KI.R1Val
import proofs.«100784_j78125455114733_2_alg».proof.Proof.LibRowsDot
import Idealize.ShloMosaic.Lib.Pipeline.Value
import Idealize.ShloMosaic.Lib.ValueIdx
import Idealize.ShloMosaic.PureOps.Ideal.Laws

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
open scoped BigOperators

theorem dot1_l0 (j : S1024x256.Idx) (q : dot_S1024x1024_S256x1024_S1024x256_1_1_0_0_n_n.contr.Idx) : (dot_S1024x1024_S256x1024_S1024x256_1_1_0_0_n_n.lhsIdx j q 0).val = (j 0).val := by
  unfold DotDims.lhsIdx
  rw [dif_neg (show ¬(0 : Fin S1024x1024.rank) ∈ dot_S1024x1024_S256x1024_S1024x256_1_1_0_0_n_n.lhsBatch by decide), dif_pos (show (0 : Fin S1024x1024.rank) ∈ dot_S1024x1024_S256x1024_S1024x256_1_1_0_0_n_n.lhsNonContracting by decide)]
  rfl
theorem dot1_l1 (j : S1024x256.Idx) (q : dot_S1024x1024_S256x1024_S1024x256_1_1_0_0_n_n.contr.Idx) : (dot_S1024x1024_S256x1024_S1024x256_1_1_0_0_n_n.lhsIdx j q 1).val = (q ⟨0, by decide⟩).val :=
  dot_S1024x1024_S256x1024_S1024x256_1_1_0_0_n_n.lhsIdx_val_of_single rfl j q
theorem dot1_r0 (j : S1024x256.Idx) (q : dot_S1024x1024_S256x1024_S1024x256_1_1_0_0_n_n.contr.Idx) : (dot_S1024x1024_S256x1024_S1024x256_1_1_0_0_n_n.rhsIdx j q 0).val = (j 1).val := by
  unfold DotDims.rhsIdx
  rw [dif_neg (show ¬(0 : Fin S256x1024.rank) ∈ dot_S1024x1024_S256x1024_S1024x256_1_1_0_0_n_n.rhsBatch by decide), dif_pos (show (0 : Fin S256x1024.rank) ∈ dot_S1024x1024_S256x1024_S1024x256_1_1_0_0_n_n.rhsNonContracting by decide)]
  rfl
theorem dot1_r1 (j : S1024x256.Idx) (q : dot_S1024x1024_S256x1024_S1024x256_1_1_0_0_n_n.contr.Idx) : (dot_S1024x1024_S256x1024_S1024x256_1_1_0_0_n_n.rhsIdx j q 1).val = (q ⟨0, by decide⟩).val :=
  dot_S1024x1024_S256x1024_S1024x256_1_1_0_0_n_n.rhsIdx_val_of_single rfl j q

/-- One step at an entry: the accumulator's entry plus the two row-by-row dot products. -/
theorem step1_apply (acc : FVec Ideal S1024x256 .f32) (x0 x1 : FVec Ideal S1024x1024 .bf16) (x2 x3 : FVec Ideal S256x1024 .bf16)
    (p : Fin 1024) (q : Fin 256) :
    step1 (F := Ideal) acc x0 x1 x2 x3 (ix2 p q)
      = acc (ix2 p q) + (∑ k : Fin 1024, x0 (ix2 p k) * x2 (ix2 q k)) + (∑ k : Fin 1024, x1 (ix2 p k) * x3 (ix2 q k)) := by
  unfold step1 k1_pay3 k1_pay2
  simp only [shapeCast_self]
  show FloatOps.addf (FloatOps.addf (acc (ix2 p q)) (FloatOps.matmul dot_S1024x1024_S256x1024_S1024x256_1_1_0_0_n_n none x0 x2 (constant (F := Ideal) S1024x256 .f32 0x00000000#32) (ix2 p q)))
      (FloatOps.matmul dot_S1024x1024_S256x1024_S1024x256_1_1_0_0_n_n none x1 x3 (constant (F := Ideal) S1024x256 .f32 0x00000000#32) (ix2 p q)) = _
  rw [Cert.Lora.rows_dot_zero dot_S1024x1024_S256x1024_S1024x256_1_1_0_0_n_n none rfl rfl dot1_l0 dot1_l1 dot1_r0 dot1_r1 x0 x2 p q,
    Cert.Lora.rows_dot_zero dot_S1024x1024_S256x1024_S1024x256_1_1_0_0_n_n none rfl rfl dot1_l0 dot1_l1 dot1_r0 dot1_r1 x1 x3 p q]
  rfl

/-- The zero block's entries are the number 0. -/
theorem pay1_1_apply (j : S1024x256.Idx) : k1_pay1 (F := Ideal) j = 0 := by
  unfold k1_pay1
  simp only [shapeCast_self]
  exact Ideal.ofBits_zero_f32

/-- The output stage at an entry: the maximum of the accumulator's entry and 0. -/
theorem pay4_1_apply (v : FVec Ideal S1024x256 .f32) (j : S1024x256.Idx) : k1_pay4 (F := Ideal) v j = max (v j) 0 := by
  unfold k1_pay4
  show max (v j) (Ideal.ofBits .f32 0x00000000#32) = _
  rw [Ideal.ofBits_zero_f32]

end Cert.KernelIdeal.Reg

end
-- ==== Proof.KI.R1Final.lean ====
/-
  Region 1 (the second dual matmul, grid 4 x 1 x 4) on the extended reals: its output array after the run. With the arrays the region finds
  written a1, a2 (left operands, read by rows) and b1, b2 (right operands, read by rows), a grid point t works on
  the row block I(t) of the left operands, the row block J(t) of the right operands and the column block t mod 4 of
  all four. After position n the accumulator's entry (p, q) is the dot product of row I·1024 + p of a1 with row
  J·256 + q of b1 over the first (n mod 4 + 1)·1024 columns, plus the same for a2 and b2: each step adds one
  more column block of both products, and addition on the extended reals is associative and commutative. At the
  last position of a pass all 4096 columns are in, and the maximum with 0 is written back to block (I, J) of
  the output array; these blocks tile it.
-/
import proofs.«100784_j78125455114733_2_alg».proof.Proof.KI.R1Acc
import proofs.«100784_j78125455114733_2_alg».proof.Proof.KI.R1Step
import proofs.«100784_j78125455114733_2_alg».proof.Proof.LibPartialDot

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
open Cert.PartialDot
open scoped BigOperators

section
variable (V : (c : Dev nD) → (b : Ref sig .tc) → Buf (Elt Ideal) ((c : Thread nD τ).loc b))

/-- The four operand arrays as the region finds them. -/
abbrev a1_1 (c : Dev nD) : S4096x4096.Idx → EReal := V c main_v22
abbrev a2_1 (c : Dev nD) : S4096x4096.Idx → EReal := V c main_v12
abbrev b1_1 (c : Dev nD) : S256x4096.Idx → EReal := V c main_v19
abbrev b2_1 (c : Dev nD) : S256x4096.Idx → EReal := V c main_v21

/-- The windows' block indices at a point, decided over the grid. -/
theorem idx1 : ∀ t : Fin cfg1.N, win1_0.index t (0 : Fin 2) = t.val / 4 ∧ win1_0.index t (1 : Fin 2) = t.val % 4 ∧ win1_1.index t (0 : Fin 2) = t.val / 4 ∧ win1_1.index t (1 : Fin 2) = t.val % 4 ∧ win1_2.index t (0 : Fin 2) = t.val / 16 ∧ win1_2.index t (1 : Fin 2) = t.val % 4 ∧ win1_3.index t (0 : Fin 2) = t.val / 16 ∧ win1_3.index t (1 : Fin 2) = t.val % 4 ∧ win1_4.index t (0 : Fin 2) = t.val / 4 ∧ win1_4.index t (1 : Fin 2) = t.val / 16 :=
  (by decide +kernel : ∀ t : Fin grid1.N, _)

/-! ## The input blocks as entries of their arrays -/

/-- The four input blocks at a point, as vectors of extended reals. -/
abbrev ib1_0 (c : Dev nD) (t : Fin cfg1.N) : FVec Ideal S1024x1024 .bf16 := iblk1 V c 0 t
abbrev ib1_1 (c : Dev nD) (t : Fin cfg1.N) : FVec Ideal S1024x1024 .bf16 := iblk1 V c 1 t
abbrev ib1_2 (c : Dev nD) (t : Fin cfg1.N) : FVec Ideal S256x1024 .bf16 := iblk1 V c 2 t
abbrev ib1_3 (c : Dev nD) (t : Fin cfg1.N) : FVec Ideal S256x1024 .bf16 := iblk1 V c 3 t

theorem iblk1_0_apply (c : Dev nD) (t : Fin cfg1.N) (p : Fin 1024) (k : Fin 1024) :
    ib1_0 V c t (ix2 p k) = at2 (a1_1 V c) (t.val / 4 * 1024 + p.val) (t.val % 4 * 1024 + k.val) := by
  obtain ⟨e00, e01, e10, e11, e20, e21, e30, e31, e40, e41⟩ := idx1 t
  have hN : t.val < 16 := lt_of_lt_of_eq t.isLt N_1
  have hp := p.isLt
  have hk := k.isLt
  rw [at2_of_lt _ _ _ (by omega) (by omega)]
  unfold ib1_0 iblk1
  rw [View.read_apply]
  show V c main_v22 _ = V c main_v22 _
  refine congrArg _ (funext fun a => Fin.ext ?_)
  match a with
  | ⟨0, _⟩ => show win1_0.index t (0 : Fin 2) * 1024 + 1 * p.val = t.val / 4 * 1024 + p.val; rw [e00]; omega
  | ⟨1, _⟩ => show win1_0.index t (1 : Fin 2) * 1024 + 1 * k.val = t.val % 4 * 1024 + k.val; rw [e01]; omega

theorem iblk1_1_apply (c : Dev nD) (t : Fin cfg1.N) (p : Fin 1024) (k : Fin 1024) :
    ib1_1 V c t (ix2 p k) = at2 (a2_1 V c) (t.val / 4 * 1024 + p.val) (t.val % 4 * 1024 + k.val) := by
  obtain ⟨e00, e01, e10, e11, e20, e21, e30, e31, e40, e41⟩ := idx1 t
  have hN : t.val < 16 := lt_of_lt_of_eq t.isLt N_1
  have hp := p.isLt
  have hk := k.isLt
  rw [at2_of_lt _ _ _ (by omega) (by omega)]
  unfold ib1_1 iblk1
  rw [View.read_apply]
  show V c main_v12 _ = V c main_v12 _
  refine congrArg _ (funext fun a => Fin.ext ?_)
  match a with
  | ⟨0, _⟩ => show win1_1.index t (0 : Fin 2) * 1024 + 1 * p.val = t.val / 4 * 1024 + p.val; rw [e10]; omega
  | ⟨1, _⟩ => show win1_1.index t (1 : Fin 2) * 1024 + 1 * k.val = t.val % 4 * 1024 + k.val; rw [e11]; omega

theorem iblk1_2_apply (c : Dev nD) (t : Fin cfg1.N) (p : Fin 256) (k : Fin 1024) :
    ib1_2 V c t (ix2 p k) = at2 (b1_1 V c) (t.val / 16 * 256 + p.val) (t.val % 4 * 1024 + k.val) := by
  obtain ⟨e00, e01, e10, e11, e20, e21, e30, e31, e40, e41⟩ := idx1 t
  have hN : t.val < 16 := lt_of_lt_of_eq t.isLt N_1
  have hp := p.isLt
  have hk := k.isLt
  rw [at2_of_lt _ _ _ (by omega) (by omega)]
  unfold ib1_2 iblk1
  rw [View.read_apply]
  show V c main_v19 _ = V c main_v19 _
  refine congrArg _ (funext fun a => Fin.ext ?_)
  match a with
  | ⟨0, _⟩ => show win1_2.index t (0 : Fin 2) * 256 + 1 * p.val = t.val / 16 * 256 + p.val; rw [e20]; omega
  | ⟨1, _⟩ => show win1_2.index t (1 : Fin 2) * 1024 + 1 * k.val = t.val % 4 * 1024 + k.val; rw [e21]; omega

theorem iblk1_3_apply (c : Dev nD) (t : Fin cfg1.N) (p : Fin 256) (k : Fin 1024) :
    ib1_3 V c t (ix2 p k) = at2 (b2_1 V c) (t.val / 16 * 256 + p.val) (t.val % 4 * 1024 + k.val) := by
  obtain ⟨e00, e01, e10, e11, e20, e21, e30, e31, e40, e41⟩ := idx1 t
  have hN : t.val < 16 := lt_of_lt_of_eq t.isLt N_1
  have hp := p.isLt
  have hk := k.isLt
  rw [at2_of_lt _ _ _ (by omega) (by omega)]
  unfold ib1_3 iblk1
  rw [View.read_apply]
  show V c main_v21 _ = V c main_v21 _
  refine congrArg _ (funext fun a => Fin.ext ?_)
  match a with
  | ⟨0, _⟩ => show win1_3.index t (0 : Fin 2) * 256 + 1 * p.val = t.val / 16 * 256 + p.val; rw [e30]; omega
  | ⟨1, _⟩ => show win1_3.index t (1 : Fin 2) * 1024 + 1 * k.val = t.val % 4 * 1024 + k.val; rw [e31]; omega

/-! ## The accumulator as two partial dot products -/

/-- One step adds the point's column block to both partial dot products. -/
theorem step1_pdot (c : Dev nD) (t : Fin cfg1.N) (s : FVec Ideal S1024x256 .f32) (p : Fin 1024) (q : Fin 256)
    (hs : s (ix2 p q) = pdot (a1_1 V c) (b1_1 V c) (t.val / 4 * 1024 + p.val) (t.val / 16 * 256 + q.val) (t.val % 4 * 1024)
      + pdot (a2_1 V c) (b2_1 V c) (t.val / 4 * 1024 + p.val) (t.val / 16 * 256 + q.val) (t.val % 4 * 1024)) :
    step1 (F := Ideal) s (iblk1 V c 0 t) (iblk1 V c 1 t) (iblk1 V c 2 t) (iblk1 V c 3 t) (ix2 p q)
      = pdot (a1_1 V c) (b1_1 V c) (t.val / 4 * 1024 + p.val) (t.val / 16 * 256 + q.val) ((t.val % 4 + 1) * 1024)
      + pdot (a2_1 V c) (b2_1 V c) (t.val / 4 * 1024 + p.val) (t.val / 16 * 256 + q.val) ((t.val % 4 + 1) * 1024) := by
  refine (step1_apply s _ _ _ _ p q).trans ?_
  rw [hs, ← pdot_add_block (a1_1 V c) (b1_1 V c) _ _ (t.val % 4) 1024, ← pdot_add_block (a2_1 V c) (b2_1 V c) _ _ (t.val % 4) 1024]
  have e1 : (∑ k : Fin 1024, ib1_0 V c t (ix2 p k) * ib1_2 V c t (ix2 q k))
      = ∑ κ : Fin 1024, at2 (a1_1 V c) (t.val / 4 * 1024 + p.val) (t.val % 4 * 1024 + κ.val) * at2 (b1_1 V c) (t.val / 16 * 256 + q.val) (t.val % 4 * 1024 + κ.val) :=
    Finset.sum_congr rfl fun k _ => by rw [iblk1_0_apply, iblk1_2_apply]
  have e2 : (∑ k : Fin 1024, ib1_1 V c t (ix2 p k) * ib1_3 V c t (ix2 q k))
      = ∑ κ : Fin 1024, at2 (a2_1 V c) (t.val / 4 * 1024 + p.val) (t.val % 4 * 1024 + κ.val) * at2 (b2_1 V c) (t.val / 16 * 256 + q.val) (t.val % 4 * 1024 + κ.val) :=
    Finset.sum_congr rfl fun k _ => by rw [iblk1_1_apply, iblk1_3_apply]
  rw [e1, e2]
  rw [add_assoc]
  exact add_add_add_comm _ _ _ _

/-- The accumulator after position n, entry by entry. -/
theorem acc1_apply (c : Dev nD) : ∀ (n : ℕ) (h : n < cfg1.N) (p : Fin 1024) (q : Fin 256),
    acc1 V c n h (ix2 p q)
      = pdot (a1_1 V c) (b1_1 V c) (n / 4 * 1024 + p.val) (n / 16 * 256 + q.val) ((n % 4 + 1) * 1024)
      + pdot (a2_1 V c) (b2_1 V c) (n / 4 * 1024 + p.val) (n / 16 * 256 + q.val) ((n % 4 + 1) * 1024)
  | 0, h, p, q => by
    show step1 (F := Ideal) (k1_pay1 (F := Ideal)) (iblk1 V c 0 ⟨0, h⟩) (iblk1 V c 1 ⟨0, h⟩) (iblk1 V c 2 ⟨0, h⟩) (iblk1 V c 3 ⟨0, h⟩) (ix2 p q) = _
    refine step1_pdot V c ⟨0, h⟩ _ p q ?_
    rw [pay1_1_apply]
    show (0 : EReal) = pdot _ _ _ _ (0 % 4 * 1024) + pdot _ _ _ _ (0 % 4 * 1024)
    rw [show 0 % 4 * 1024 = 0 from rfl, pdot_zero, pdot_zero, add_zero]
  | n + 1, h, p, q => by
    have hN : n + 1 < 16 := lt_of_lt_of_eq h N_1
    show step1 (F := Ideal) (if (n + 1) % 4 = 0 then (k1_pay1 (F := Ideal)) else acc1 V c n _) (iblk1 V c 0 ⟨n + 1, h⟩) (iblk1 V c 1 ⟨n + 1, h⟩) (iblk1 V c 2 ⟨n + 1, h⟩) (iblk1 V c 3 ⟨n + 1, h⟩) (ix2 p q) = _
    refine step1_pdot V c ⟨n + 1, h⟩ _ p q ?_
    show _ = pdot _ _ ((n + 1) / 4 * 1024 + p.val) ((n + 1) / 16 * 256 + q.val) ((n + 1) % 4 * 1024)
      + pdot _ _ ((n + 1) / 4 * 1024 + p.val) ((n + 1) / 16 * 256 + q.val) ((n + 1) % 4 * 1024)
    by_cases h0 : (n + 1) % 4 = 0
    · rw [if_pos h0, pay1_1_apply, h0, Nat.zero_mul, pdot_zero, pdot_zero, add_zero]
    · rw [if_neg h0, acc1_apply c n _ p q]
      have e1 : (n + 1) / 4 = n / 4 := by omega
      have e2 : (n + 1) / 16 = n / 16 := by omega
      have e3 : (n + 1) % 4 = n % 4 + 1 := by omega
      rw [e1, e2, e3]

/-! ## The output array -/

/-- The output array after the run, entry by entry: the maximum with 0 of the two whole dot products. -/
def outFn1 (c : Dev nD) : S4096x256.Idx → EReal := fun i =>
  max (pdot (a1_1 V c) (b1_1 V c) (i 0).val (i 1).val 4096 + pdot (a2_1 V c) (b2_1 V c) (i 0).val (i 1).val 4096) 0

/-- What the last position of a pass writes back is its block of that array. -/
theorem flushed1_eq (c : Dev nD) (t : Fin cfg1.N) (hf : (cfg1.win 4).flush t = true) :
    (dat1 V c).flushed 4 t = ((cfg1.win 4).blk t).view.read (Elt Ideal) (outFn1 V c) := by
  have hL : t.val % 4 = 3 := (flush1_4 t).mp hf
  obtain ⟨tv, ht⟩ := t
  obtain ⟨n, rfl⟩ : ∃ n, tv = n + 1 := ⟨tv - 1, by dsimp only at hL; omega⟩
  dsimp only at hL
  have hN : n + 1 < 16 := lt_of_lt_of_eq ht N_1
  show (cfg1.win 4).cut (grid1.coords ⟨n + 1, ht⟩) ((dat1 V c).after 4 ⟨n + 1, ht⟩) = _
  rw [after1_4]
  show (cfg1.win 4).cut (grid1.coords ⟨n + 1, ht⟩) ((outsAt1 V c (n + 1) ht).1) = _
  rw [outsAt1_fst V c n ht hL]
  funext j
  have hj0 : (j 0).val < 1024 := (j 0).isLt
  have hj1 : (j 1).val < 256 := (j 1).isLt
  have e : (cfg1.win 4).xinj (grid1.coords ⟨n + 1, ht⟩) j = ix2 (⟨(j 0).val, hj0⟩ : Fin 1024) (⟨(j 1).val, hj1⟩ : Fin 256) :=
    funext fun a => Fin.ext (by match a with | ⟨0, _⟩ => rfl | ⟨1, _⟩ => rfl)
  show k1_pay4 (F := Ideal) (acc1 V c (n + 1) ht) ((cfg1.win 4).xinj (grid1.coords ⟨n + 1, ht⟩) j)
    = outFn1 V c (((cfg1.win 4).blk ⟨n + 1, ht⟩).view.emb j)
  rw [e, pay4_1_apply, acc1_apply]
  obtain ⟨e00, e01, e10, e11, e20, e21, e30, e31, e40, e41⟩ := idx1 ⟨n + 1, ht⟩
  dsimp only at e40 e41
  unfold outFn1
  have r0 : ((((cfg1.win 4).blk ⟨n + 1, ht⟩).view.emb j) 0).val = win1_4.index ⟨n + 1, ht⟩ (0 : Fin 2) * 1024 + 1 * (j 0).val := rfl
  have r1 : ((((cfg1.win 4).blk ⟨n + 1, ht⟩).view.emb j) 1).val = win1_4.index ⟨n + 1, ht⟩ (1 : Fin 2) * 256 + 1 * (j 1).val := rfl
  rw [r0, r1, e40, e41, hL, Nat.one_mul, Nat.one_mul]

/-- An index of the array is in a point's block iff each coordinate is in the block's range. -/
theorem mem_blk1 (t : Fin cfg1.N) (i : S4096x256.Idx) :
    i ∈ ((cfg1.win 4).blk t).view.set ↔ ∀ a : Fin 2, win1_4.index t a * S1024x256.size a ≤ (i a).val ∧ (i a).val < win1_4.index t a * S1024x256.size a + S1024x256.size a := by
  show i ∈ ((View.whole main_v23).slice (win1_4.rect t)).set ↔ _
  rw [View.set_slice_whole, Rect.mem_set_unit]
  exact Iff.rfl

/-- The written-back blocks tile the array: entry (r, s) is in the block of the last position of its pass. -/
theorem cover1 (i : S4096x256.Idx) : ∃ t : Fin cfg1.N, (cfg1.win 4).flush t = true ∧ i ∈ ((cfg1.win 4).blk t).view.set := by
  have hi0 : (i 0).val < 4096 := (i 0).isLt
  have hi1 : (i 1).val < 256 := (i 1).isLt
  have hb : (i 0).val / 1024 * 4 + 3 < cfg1.N := by rw [show cfg1.N = 16 from N_1]; omega
  obtain ⟨e00, e01, e10, e11, e20, e21, e30, e31, e40, e41⟩ := idx1 ⟨(i 0).val / 1024 * 4 + 3, hb⟩
  dsimp only at e40 e41
  refine ⟨⟨(i 0).val / 1024 * 4 + 3, hb⟩, (flush1_4 _).mpr (by dsimp only; omega), ?_⟩
  rw [mem_blk1]
  intro a
  match a with
  | ⟨0, _⟩ => show win1_4.index _ (0 : Fin 2) * 1024 ≤ (i 0).val ∧ (i 0).val < win1_4.index _ (0 : Fin 2) * 1024 + 1024; rw [e40]; omega
  | ⟨1, _⟩ => show win1_4.index _ (1 : Fin 2) * 256 ≤ (i 1).val ∧ (i 1).val < win1_4.index _ (1 : Fin 2) * 256 + 256; rw [e41]; omega

/-- So the output array ends holding that function. -/
theorem final1 (c : Dev nD) : (dat1 V c).arrAt 4 cfg1.N = outFn1 V c :=
  (dat1 V c).arrAt_eq_of_cover 4 (outFn1 V c) (flushed1_eq V c) (cover1)

/-- Entry by entry, over whole rows: relu of the two full dot products. -/
theorem outFn1_apply (c : Dev nD) (p : Fin 4096) (q : Fin 256) :
    outFn1 V c (ix2 p q) = max ((∑ k : Fin 4096, a1_1 V c (ix2 p k) * b1_1 V c (ix2 q k)) + ∑ k : Fin 4096, a2_1 V c (ix2 p k) * b2_1 V c (ix2 q k)) 0 := by
  unfold outFn1
  show max (pdot _ _ p.val q.val 4096 + pdot _ _ p.val q.val 4096) 0 = _
  rw [pdot_full, pdot_full]

end

end Cert.KernelIdeal.Reg

end
-- ==== Proof.RefLayer.lean ====
/-
  The specification, and the reference read against it.

  With x the node features [4096, 4096], agg the neighbour mean [4096, 4096] and W a weight matrix [N, 8192] whose first
  4096 columns multiply the features and whose last 4096 columns multiply the mean, one layer at entry (p, q) is

      layer u v W p q = max (Σ_{k<4096} u[p,k] · W[q,k] + Σ_{k<4096} v[p,k] · W[q,4096+k]) 0.

  The reference concatenates [u, v] along the columns, multiplies by the transpose of W and applies relu: its entry
  (p, q) is max (Σ_{k<8192} [u,v][p,k] · Wᵀ[k,q]) 0. A sum over 8192 positions is the sum over the first 4096 plus
  the sum over the last 4096; on the first half the concatenation reads u, on the second half v at k − 4096; and
  the transpose reads W at the swapped index. So the reference's hidden layer is layer x agg W1 and its output is
  layer hidden agg W2. Only the splitting of a finite sum is used: nothing needs to be finite.
-/
import proofs.«100784_j78125455114733_2_alg».proof.Proof.Gen.ReferenceIdeal.Read
import Idealize.ShloMosaic.Lib.Pipeline.Value
import Idealize.ShloMosaic.Lib.ValueIdx
import Idealize.ShloMosaic.PureOps.Ideal.Laws

noncomputable section

namespace Cert.Sage

open Idealize.ShloMosaic Idealize.ShloMosaic.ValueIdx
open Cert.ReferenceIdeal Cert.ReferenceIdeal.Gen Cert.ReferenceIdeal.Read
open scoped BigOperators

/-- A sum over 8192 positions is the sum over the first 4096 plus the sum over the last 4096. -/
theorem sum_split (f : Fin 8192 → EReal) :
    ∑ k : Fin 8192, f k = (∑ k : Fin 4096, f ⟨k.val, by omega⟩) + ∑ k : Fin 4096, f ⟨4096 + k.val, by omega⟩ :=
  Fin.sum_univ_add (a := 4096) (b := 4096) (M := EReal) f

/-- One layer at entry (p, q): relu of the features' dot product with the first half of row q of the weights plus
    the mean's dot product with the second half. -/
def layer {M N : ℕ} (u v : (⟨2, ![M, 4096]⟩ : Shape).Idx → EReal) (w : (⟨2, ![N, 8192]⟩ : Shape).Idx → EReal)
    (p : Fin M) (q : Fin N) : EReal :=
  max ((∑ k : Fin 4096, u (ix2 p k) * w (ix2 q ⟨k.val, by omega⟩))
    + ∑ k : Fin 4096, v (ix2 p k) * w (ix2 q ⟨4096 + k.val, by omega⟩)) 0

variable (x0 : (⟨S4096x4096, .f32⟩ : BufTy).Contents (Elt Ideal)) (x1 : (⟨S4096x6, .i32⟩ : BufTy).Contents (Elt Ideal))
  (x2 : (⟨S4096x4096, .f32⟩ : BufTy).Contents (Elt Ideal)) (x3 : (⟨S4096x8192, .f32⟩ : BufTy).Contents (Elt Ideal))
  (x4 : (⟨S256x8192, .f32⟩ : BufTy).Contents (Elt Ideal))

/-- The reference's hidden layer is the layer of the features, the mean and the first weight matrix. -/
theorem ref_hidden (p j : Fin 4096) :
    val_main_v13 (F := Ideal) x0 x1 x2 x3 (ix2 p j)
      = layer (M := 4096) (N := 4096) x0 (val_main_v9 (F := Ideal) x1 x2) x3 p j := by
  rw [val_main_v13_apply, val_main_v12_apply, val_main_call0_v0_apply, val_main_call0_cst_apply]
  show max (∑ k : Fin 8192, _) (Ideal.ofBits .f32 0x00000000#32) = _
  rw [Ideal.ofBits_zero_f32, sum_split]
  unfold layer
  refine congrArg₂ max (congrArg₂ (· + ·) ?_ ?_) rfl
  · refine Finset.sum_congr rfl fun k _ => ?_
    rw [val_main_v11_apply]
    refine congrArg₂ (· * ·) ?_ ?_
    · unfold val_main_v10
      exact concatenate_pair_apply_left (t := S4096x8192) (s₁ := S4096x4096) (s₂ := S4096x4096) (1 : Fin 2) x0
        (val_main_v9 (F := Ideal) x1 x2) _ (lidx_main_v12 (ix2 p j) ⟨k.val, by omega⟩) rfl (ix2 p k)
        (fun b => by match b with | ⟨0, _⟩ => rfl | ⟨1, _⟩ => rfl)
    · exact congrArg x3 (funext fun a => Fin.ext (by match a with | ⟨0, _⟩ => rfl | ⟨1, _⟩ => rfl))
  · refine Finset.sum_congr rfl fun k _ => ?_
    rw [val_main_v11_apply]
    refine congrArg₂ (· * ·) ?_ ?_
    · unfold val_main_v10
      exact concatenate_pair_apply_right (t := S4096x8192) (s₁ := S4096x4096) (s₂ := S4096x4096) (1 : Fin 2) x0
        (val_main_v9 (F := Ideal) x1 x2) _ (lidx_main_v12 (ix2 p j) ⟨4096 + k.val, by omega⟩) rfl rfl (ix2 p k)
        (fun b hb => by match b with | ⟨0, _⟩ => rfl | ⟨1, _⟩ => exact absurd rfl hb)
        (by show k.val + 4096 = 4096 + k.val; omega)
    · exact congrArg x3 (funext fun a => Fin.ext (by match a with | ⟨0, _⟩ => rfl | ⟨1, _⟩ => rfl))

/-- The reference's output is the layer of its hidden layer, the mean and the second weight matrix. -/
theorem ref_out (p : Fin 4096) (q : Fin 256) :
    val_main_v17 (F := Ideal) x0 x1 x2 x3 x4 (ix2 p q)
      = layer (M := 4096) (N := 256) (val_main_v13 (F := Ideal) x0 x1 x2 x3) (val_main_v9 (F := Ideal) x1 x2) x4 p q := by
  rw [val_main_v17_apply, val_main_v16_apply, val_main_call1_v0_apply, val_main_call1_cst_apply]
  show max (∑ k : Fin 8192, _) (Ideal.ofBits .f32 0x00000000#32) = _
  rw [Ideal.ofBits_zero_f32, sum_split]
  unfold layer
  refine congrArg₂ max (congrArg₂ (· + ·) ?_ ?_) rfl
  · refine Finset.sum_congr rfl fun k _ => ?_
    rw [val_main_v15_apply]
    refine congrArg₂ (· * ·) ?_ ?_
    · unfold val_main_v14
      exact concatenate_pair_apply_left (t := S4096x8192) (s₁ := S4096x4096) (s₂ := S4096x4096) (1 : Fin 2) (val_main_v13 (F := Ideal) x0 x1 x2 x3)
        (val_main_v9 (F := Ideal) x1 x2) _ (lidx_main_v16 (ix2 p q) ⟨k.val, by omega⟩) rfl (ix2 p k)
        (fun b => by match b with | ⟨0, _⟩ => rfl | ⟨1, _⟩ => rfl)
    · exact congrArg x4 (funext fun a => Fin.ext (by match a with | ⟨0, _⟩ => rfl | ⟨1, _⟩ => rfl))
  · refine Finset.sum_congr rfl fun k _ => ?_
    rw [val_main_v15_apply]
    refine congrArg₂ (· * ·) ?_ ?_
    · unfold val_main_v14
      exact concatenate_pair_apply_right (t := S4096x8192) (s₁ := S4096x4096) (s₂ := S4096x4096) (1 : Fin 2) (val_main_v13 (F := Ideal) x0 x1 x2 x3)
        (val_main_v9 (F := Ideal) x1 x2) _ (lidx_main_v16 (ix2 p q) ⟨4096 + k.val, by omega⟩) rfl rfl (ix2 p k)
        (fun b hb => by match b with | ⟨0, _⟩ => rfl | ⟨1, _⟩ => exact absurd rfl hb)
        (by show k.val + 4096 = 4096 + k.val; omega)
    · exact congrArg x4 (funext fun a => Fin.ext (by match a with | ⟨0, _⟩ => rfl | ⟨1, _⟩ => rfl))

end Cert.Sage

end
-- ==== Proof.KI.KVal.lean ====
/-
  The idealized kernel program's result array, against the specification.

  After the host operations the first region finds: the features (a change of float format is the identity on the
  extended reals), the neighbour mean — the very term the reference computes: the same gather, sum over the six
  neighbours and division by six, with identity format changes around it —, and the two halves of the first weight
  matrix as column slices at offsets 0 and 4096. So its output array, relu of the two full dot products, is
  layer x agg W1. The second region finds that array, the same mean and the two halves of the second weight matrix: its
  output array is layer (layer x agg W1) agg W2.
-/
import proofs.«100784_j78125455114733_2_alg».proof.Proof.KI.Run
import proofs.«100784_j78125455114733_2_alg».proof.Proof.KI.R0Final
import proofs.«100784_j78125455114733_2_alg».proof.Proof.KI.R1Final
import proofs.«100784_j78125455114733_2_alg».proof.Proof.RefLayer
import Idealize.ShloMosaic.Lib.StableHlo.Run

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
open Cert.Sage
open scoped BigOperators

variable (m : (ℓ : Loc nD τ sig) → Buf (Elt Ideal) ℓ)

/-- The argument arrays. -/
abbrev argX (c : Dev nD) : S4096x4096.Idx → EReal := m ((c : Thread nD τ).loc main_arg0)
abbrev argW1 (c : Dev nD) : S4096x8192.Idx → EReal := m ((c : Thread nD τ).loc main_arg3)
abbrev argW2 (c : Dev nD) : S256x8192.Idx → EReal := m ((c : Thread nD τ).loc main_arg4)
/-- The neighbour mean, as the reference computes it from the index array and the table. -/
abbrev agg (c : Dev nD) : S4096x4096.Idx → EReal :=
  Cert.ReferenceIdeal.Read.val_main_v9 (F := Ideal) (m ((c : Thread nD τ).loc main_arg1)) (m ((c : Thread nD τ).loc main_arg2))

/-! ## What the first region finds -/

theorem V1_v13 (c : Dev nD) : (V1 m c main_v13 : S4096x4096.Idx → EReal) = argX m c := by
  show StableHlo.after hostOps0 (W0 m c) (Proc.devRef .tc main_v13) = _
  after_results
  rfl

theorem V1_v12 (c : Dev nD) : (V1 m c main_v12 : S4096x4096.Idx → EReal) = agg m c := by
  show StableHlo.after hostOps0 (W0 m c) (Proc.devRef .tc main_v12) = _
  after_results
  rfl

theorem V1_v15 (c : Dev nD) : (V1 m c main_v15 : S4096x4096.Idx → EReal)
    = extractStridedSlice S4096x4096 ![0, 0] (argW1 m c) Facts₀.slices_S4096x8192_S4096x4096_0_0 := by
  show StableHlo.after hostOps0 (W0 m c) (Proc.devRef .tc main_v15) = _
  after_results
  rfl

theorem V1_v17 (c : Dev nD) : (V1 m c main_v17 : S4096x4096.Idx → EReal)
    = extractStridedSlice S4096x4096 ![0, 4096] (argW1 m c) Facts₀.slices_S4096x8192_S4096x4096_0_4096 := by
  show StableHlo.after hostOps0 (W0 m c) (Proc.devRef .tc main_v17) = _
  after_results
  rfl

theorem V1_v19 (c : Dev nD) : (V1 m c main_v19 : S256x4096.Idx → EReal)
    = extractStridedSlice S256x4096 ![0, 0] (argW2 m c) Facts₀.slices_S256x8192_S256x4096_0_0 := by
  show StableHlo.after hostOps0 (W0 m c) (Proc.devRef .tc main_v19) = _
  after_results
  rfl

theorem V1_v21 (c : Dev nD) : (V1 m c main_v21 : S256x4096.Idx → EReal)
    = extractStridedSlice S256x4096 ![0, 4096] (argW2 m c) Facts₀.slices_S256x8192_S256x4096_0_4096 := by
  show StableHlo.after hostOps0 (W0 m c) (Proc.devRef .tc main_v21) = _
  after_results
  rfl

/-! ## What the second region finds -/

theorem V2_v22 (c : Dev nD) : (V2 m c main_v22 : S4096x4096.Idx → EReal) = outFn0 (V1 m) c :=
  (W2_arr m c 4).trans (final0 (V1 m) c)

theorem V2_v12 (c : Dev nD) : (V2 m c main_v12 : S4096x4096.Idx → EReal) = agg m c :=
  ((W2_arr m c 1).trans (((dat0 (V1 m) c).arrAt_in 1 rfl _).trans (A_eq0 (V1 m) c 1))).trans (V1_v12 m c)

theorem V2_v19 (c : Dev nD) : (V2 m c main_v19 : S256x4096.Idx → EReal)
    = extractStridedSlice S256x4096 ![0, 0] (argW2 m c) Facts₀.slices_S256x8192_S256x4096_0_0 :=
  (W2_of_ne m c main_v19 (by decide)).trans (V1_v19 m c)

theorem V2_v21 (c : Dev nD) : (V2 m c main_v21 : S256x4096.Idx → EReal)
    = extractStridedSlice S256x4096 ![0, 4096] (argW2 m c) Facts₀.slices_S256x8192_S256x4096_0_4096 :=
  (W2_of_ne m c main_v21 (by decide)).trans (V1_v21 m c)

/-! ## The two layers -/

/-- A column slice at offset o read at (q, k) is the matrix at (q, o + k). -/
theorem slice_cols {N : ℕ} (o : ℕ) (w : (⟨2, ![N, 8192]⟩ : Shape).Idx → EReal) (h : (⟨2, ![N, 8192]⟩ : Shape).Slices ![0, o] ⟨2, ![N, 4096]⟩)
    (q : Fin N) (k : Fin 4096) (ho : o + k.val < 8192) :
    extractStridedSlice (⟨2, ![N, 4096]⟩ : Shape) ![0, o] w h (ix2 q k) = w (ix2 q ⟨o + k.val, ho⟩) :=
  extractStridedSlice_apply _ w h (ix2 q k) (ix2 q ⟨o + k.val, ho⟩) (fun a => by
    match a with
    | ⟨0, _⟩ => show q.val = 0 + q.val; omega
    | ⟨1, _⟩ => rfl)

/-- The first region's output array is the first layer. -/
theorem hidden_apply (c : Dev nD) (p j : Fin 4096) :
    outFn0 (V1 m) c (ix2 p j) = layer (M := 4096) (N := 4096) (argX m c) (agg m c) (argW1 m c) p j := by
  rw [outFn0_apply]
  unfold layer
  have e1 : a1_0 (V1 m) c = argX m c := V1_v13 m c
  have e2 : a2_0 (V1 m) c = agg m c := V1_v12 m c
  have e3 : b1_0 (V1 m) c = extractStridedSlice S4096x4096 ![0, 0] (argW1 m c) Facts₀.slices_S4096x8192_S4096x4096_0_0 := V1_v15 m c
  have e4 : b2_0 (V1 m) c = extractStridedSlice S4096x4096 ![0, 4096] (argW1 m c) Facts₀.slices_S4096x8192_S4096x4096_0_4096 := V1_v17 m c
  rw [e1, e2, e3, e4]
  refine congrArg₂ max (congrArg₂ (· + ·) ?_ ?_) rfl
  · refine Finset.sum_congr rfl fun k _ => congrArg₂ (· * ·) rfl ?_
    have h := slice_cols (N := 4096) 0 (argW1 m c) Facts₀.slices_S4096x8192_S4096x4096_0_0 j k (by omega)
    simp only [Nat.zero_add] at h
    exact h
  · exact Finset.sum_congr rfl fun k _ => congrArg₂ (· * ·) rfl
      (slice_cols (N := 4096) 4096 (argW1 m c) Facts₀.slices_S4096x8192_S4096x4096_0_4096 j k (by omega))

/-- The second region's output array is the second layer over the first. -/
theorem out_apply (c : Dev nD) (p : Fin 4096) (q : Fin 256) :
    outFn1 (V2 m) c (ix2 p q) = layer (M := 4096) (N := 256) (outFn0 (V1 m) c) (agg m c) (argW2 m c) p q := by
  rw [outFn1_apply]
  unfold layer
  have e1 : a1_1 (V2 m) c = outFn0 (V1 m) c := V2_v22 m c
  have e2 : a2_1 (V2 m) c = agg m c := V2_v12 m c
  have e3 : b1_1 (V2 m) c = extractStridedSlice S256x4096 ![0, 0] (argW2 m c) Facts₀.slices_S256x8192_S256x4096_0_0 := V2_v19 m c
  have e4 : b2_1 (V2 m) c = extractStridedSlice S256x4096 ![0, 4096] (argW2 m c) Facts₀.slices_S256x8192_S256x4096_0_4096 := V2_v21 m c
  rw [e1, e2, e3, e4]
  refine congrArg₂ max (congrArg₂ (· + ·) ?_ ?_) rfl
  · refine Finset.sum_congr rfl fun k _ => congrArg₂ (· * ·) rfl ?_
    have h := slice_cols (N := 256) 0 (argW2 m c) Facts₀.slices_S256x8192_S256x4096_0_0 q k (by omega)
    simp only [Nat.zero_add] at h
    exact h
  · exact Finset.sum_congr rfl fun k _ => congrArg₂ (· * ·) rfl
      (slice_cols (N := 256) 4096 (argW2 m c) Facts₀.slices_S256x8192_S256x4096_0_4096 q k (by omega))

/-- The program's result array is the reference's result term of the same arguments. -/
theorem result_eq (c : Dev nD) :
    (W3 m c (Proc.devRef .tc main_v23) : S4096x256.Idx → EReal)
      = Cert.ReferenceIdeal.Read.val_main_v17 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  have hh : outFn0 (V1 m) c = Cert.ReferenceIdeal.Read.val_main_v13 (F := Ideal) (m ((c : Thread nD τ).loc main_arg0)) (m ((c : Thread nD τ).loc main_arg1))
      (m ((c : Thread nD τ).loc main_arg2)) (m ((c : Thread nD τ).loc main_arg3)) := by
    funext i
    obtain ⟨p, j, rfl⟩ : ∃ (p : Fin 4096) (j : Fin 4096), i = ix2 p j := ⟨i 0, i 1, eq_ix2 i⟩
    rw [hidden_apply, ref_hidden]
  refine ((W3_arr m c 4).trans (final1 (V2 m) c)).trans ?_
  funext i
  obtain ⟨p, q, rfl⟩ : ∃ (p : Fin 4096) (q : Fin 256), i = ix2 p q := ⟨i 0, i 1, eq_ix2 i⟩
  rw [out_apply, ref_out, hh]

/-- The run, read: the result array at the last boundary's contents, the arguments unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v23) = W3 m c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v23 (by decide)),
     (h c _ (mem_uc main_arg0 (by decide))).trans (W3_arg m c main_arg0 (by decide) (by decide) (by decide)),
     (h c _ (mem_uc main_arg1 (by decide))).trans (W3_arg m c main_arg1 (by decide) (by decide) (by decide)),
     (h c _ (mem_uc main_arg2 (by decide))).trans (W3_arg m c main_arg2 (by decide) (by decide) (by decide)),
     (h c _ (mem_uc main_arg3 (by decide))).trans (W3_arg m c main_arg3 (by decide) (by decide) (by decide)),
     (h c _ (mem_uc main_arg4 (by decide))).trans (W3_arg m c main_arg4 (by decide) (by decide) (by decide))⟩) (run m ρ)

end Cert.KernelIdeal.Reg

end
-- ==== Proof.lean ====
/-
  GraphSage with mean aggregation, two layers: out = relu([relu([x, agg] · W1ᵀ), agg] · W2ᵀ), agg the mean over six
  gathered rows of the embedding table. The kernel never builds the concatenations: each layer is one tiled kernel
  that walks the contraction axis block by block, adding to an accumulator the product of the feature block with the
  first half of the weight rows and the product of the mean block with the second half, and writes relu of the
  accumulator at the last block.

  On the extended reals both programs compute, layer by layer and entry by entry,
      max (Σ_k u[p,k] · W[q,k] + Σ_k agg[p,k] · W[q,4096+k]) 0,
  because a sum over the 8192 concatenated columns is the sum over its two halves, and a dot product accumulated
  block by block is the whole dot product: only associativity and commutativity of addition are used, so the
  precondition that the inputs are finite is never opened. The neighbour mean is the same term in both programs (the
  kernel's changes of float format are the identity on the extended reals).

  The three frames: each kernel program is the host operations followed by its two regions, each region a pipeline
  whose invariant between grid points holds the accumulator at the running partial sums; the reference's frame is its
  generated run with the result dropped. The idealization rewrote nothing, so it is preserved trivially.
-/
import proofs.«100784_j78125455114733_2_alg».proof.Defs
import proofs.«100784_j78125455114733_2_alg».proof.Proof.Gen.Kernel
import proofs.«100784_j78125455114733_2_alg».proof.Proof.Gen.KernelIdeal
import proofs.«100784_j78125455114733_2_alg».proof.Proof.Gen.ReferenceIdeal
import proofs.«100784_j78125455114733_2_alg».proof.Proof.Gen.ReferenceIdeal.Run
import proofs.«100784_j78125455114733_2_alg».proof.Proof.Gen.ReferenceIdeal.Read
import proofs.«100784_j78125455114733_2_alg».proof.Proof.Gen.Pre_finite_inputs
import proofs.«100784_j78125455114733_2_alg».proof.Proof.K.Run
import proofs.«100784_j78125455114733_2_alg».proof.Proof.KI.Run
import proofs.«100784_j78125455114733_2_alg».proof.Proof.KI.KVal
import Idealize.ShloMosaic.Adequacy
import Idealize.ShloMosaic.Init

noncomputable section

namespace Cert.Proof

open Idealize.ShloMosaic Idealize.SL.Sem

theorem frame_k : Cert.frame_Kernel := fun m ρ _ => Cert.Kernel.Reg.frame m ρ

theorem frame_ki : Cert.frame_KernelIdeal := fun m ρ _ => Cert.KernelIdeal.Reg.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the reference's term of the (agreeing) arguments. -/
theorem algebraic : Cert.algebraic_KernelIdeal_ReferenceIdeal := by
  intro m ρ m' ρ' _ hagree
  refine ⟨fun c => Cert.KernelIdeal.Reg.W3 m c (Proc.devRef .tc Cert.KernelIdeal.main_v23), Cert.KernelIdeal.Reg.run_value m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v17_eq, (hagree c).1, (hagree c).2.1, (hagree c).2.2.1, (hagree c).2.2.2.1, (hagree c).2.2.2.2]
  exact (Cert.KernelIdeal.Reg.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
